-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S16x16x2048 : S_.BroadcastsInDim S16x16x2048 (![] : Fin 0 → Fin S16x16x2048.rank)
  reducesTo_S16x16x2048_S_d0_1_2 : S16x16x2048.ReducesTo [0, 1, 2] S_
  bcast_S_S16x16 : S_.BroadcastsInDim S16x16 (![] : Fin 0 → Fin S16x16.rank)
  reducesTo_S16x16_S_d0_1 : S16x16.ReducesTo [0, 1] S_
  bcast_S_S256x16x2048 : S_.BroadcastsInDim S256x16x2048 (![] : Fin 0 → Fin S256x16x2048.rank)
  reducesTo_S256x16x2048_S_d0_1_2 : S256x16x2048.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part1 {F : FTy → Type} [FloatOps F] (main_arg4 : FVec F S16x16 .f32) (main_arg5 : FVec F S256x16x2048 .f32) (main_arg6 : FVec F S256x16 .f32) (main_v13 : IVec S_ 1) (main_v16 : IVec S16x16x2048 1) : IVec S_ 1 :=
  let main_c_5 : IVec S_ 1 := constantI S_ 1 1#1
  let main_v17 : IVec S_ 1 := (fun x v => Host.reduce IntOp.andi x v reducesTo_S16x16x2048_S_d0_1_2 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S256x16x2048 .f32 := Host.absf main_arg5
  let main_cst_8 : FVec F S_ .f32 := constant S_ .f32 0x7F800000#32
  let main_v25 : FVec F S256x16x2048 .f32 := broadcastInDim S256x16x2048 ![] bcast_S_S256x16x2048 main_cst_8
  let main_v26 : IVec S256x16x2048 1 := cmpf .olt main_v24 main_v25
  let main_c_9 : IVec S_ 1 := constantI S_ 1 1#1
  let main_v27 : IVec S_ 1 := (fun x v => Host.reduce IntOp.andi x v reducesTo_S256x16x2048_S_d0_1_2 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  main_v33

def fn {F : FTy → Type} [FloatOps F] (main_arg0 : FVec F S4096x2048 .f32) (main_arg1 : FVec F S16x2048 .f32) (main_arg2 : FVec F S16 .f32) (main_arg3 : FVec F S16x16x2048 .f32) (main_arg4 : FVec F S16x16 .f32) (main_arg5 : FVec F S256x16x2048 .f32) (main_arg6 : FVec F S256x16 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16x2048 .f32 := Host.absf main_arg3
  let main_cst_4 : FVec F S_ .f32 := constant S_ .f32 0x7F800000#32
  let main_v15 : FVec F S16x16x2048 .f32 := broadcastInDim S16x16x2048 ![] bcast_S_S16x16x2048 main_cst_4
  let main_v16 : IVec S16x16x2048 1 := cmpf .olt main_v14 main_v15
  fn_part1 (F := F) main_arg4 main_arg5 main_arg6 main_v13 main_v16
-- ==== Kernel.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S256x2048 : Shape := ⟨2, ![256, 2048]⟩
abbrev S1x16 : Shape := ⟨2, ![1, 16]⟩
abbrev S1x256 : Shape := ⟨2, ![1, 256]⟩
abbrev S1x4096 : Shape := ⟨2, ![1, 4096]⟩
abbrev S4096x4368 : Shape := ⟨2, ![4096, 4368]⟩
abbrev S4096x4096 : Shape := ⟨2, ![4096, 4096]⟩
abbrev S128x2048 : Shape := ⟨2, ![128, 2048]⟩
abbrev S128x4368 : Shape := ⟨2, ![128, 4368]⟩
abbrev S128x4096 : Shape := ⟨2, ![128, 4096]⟩
abbrev S128x256 : Shape := ⟨2, ![128, 256]⟩
abbrev S128x16 : Shape := ⟨2, ![128, 16]⟩
abbrev S128 : Shape := ⟨1, ![128]⟩
abbrev S128x1 : Shape := ⟨2, ![128, 1]⟩
abbrev S128x16x16 : Shape := ⟨3, ![128, 16, 16]⟩
abbrev S128x16x1 : Shape := ⟨3, ![128, 16, 1]⟩
abbrev S128x256x16 : Shape := ⟨3, ![128, 256, 16]⟩
abbrev S128x256x1 : Shape := ⟨3, ![128, 256, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S16, .f32⟩
  | .hbm, ⟨3, _⟩ => ⟨S16x16x2048, .f32⟩
  | .hbm, ⟨4, _⟩ => ⟨S16x16, .f32⟩
  | .hbm, ⟨5, _⟩ => ⟨S256x16x2048, .f32⟩
  | .hbm, ⟨6, _⟩ => ⟨S256x16, .f32⟩
  | .hbm, ⟨7, _⟩ => ⟨S16x2048, .bf16⟩
  | .hbm, ⟨8, _⟩ => ⟨S256x2048, .f32⟩
  | .hbm, ⟨9, _⟩ => ⟨S256x2048, .bf16⟩
  | .hbm, ⟨10, _⟩ => ⟨S4096x2048, .f32⟩
  | .hbm, ⟨11, _⟩ => ⟨S4096x2048, .bf16⟩
  | .hbm, ⟨12, _⟩ => ⟨S1x16, .f32⟩
  | .hbm, ⟨13, _⟩ => ⟨S1x256, .f32⟩
  | .hbm, ⟨14, _⟩ => ⟨S1x4096, .f32⟩
  | .hbm, ⟨15, _⟩ => ⟨S4096x4368, .f32⟩
  | .hbm, ⟨16, _⟩ => ⟨S4096x4096, .f32⟩
  | .local _ .vmem, ⟨0, _⟩ => ⟨S128x2048, .f32⟩
  | .local _ .vmem, ⟨1, _⟩ => ⟨S128x2048, .f32⟩
  | .local _ .vmem, ⟨2, _⟩ => ⟨S16x2048, .bf16⟩
  | .local _ .vmem, ⟨3, _⟩ => ⟨S1x16, .f32⟩
  | .local _ .vmem, ⟨4, _⟩ => ⟨S256x2048, .bf16⟩
  | .local _ .vmem, ⟨5, _⟩ => ⟨S1x256, .f32⟩
  | .local _ .vmem, ⟨6, _⟩ => ⟨S4096x2048, .bf16⟩
  | .local _ .vmem, ⟨7, _⟩ => ⟨S1x4096, .f32⟩
  | .local _ .vmem, ⟨8, _⟩ => ⟨S128x4368, .f32⟩
  | .local _ .vmem, ⟨9, _⟩ => ⟨S128x4368, .f32⟩
  | .local _ .vmem, ⟨10, _⟩ => ⟨S128x4096, .f32⟩
  | .local _ .vmem, ⟨11, _⟩ => ⟨S128x4096, .f32⟩
  | .local _ .vmem, ⟨12, _⟩ => ⟨S128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4368 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S16x16x2048_S256x2048 : S16x16x2048.ShapeCasts S256x2048
  shapeCasts_S256x16x2048_S4096x2048 : S256x16x2048.ShapeCasts S4096x2048
  shapeCasts_S16_S1x16 : S16.ShapeCasts S1x16
  shapeCasts_S16x16_S1x256 : S16x16.ShapeCasts S1x256
  shapeCasts_S256x16_S1x4096 : S256x16.ShapeCasts S1x4096
  inb_S128x2048_S128x2048_0_0 : ∀ a, (![0, 0] : Fin 2 → Nat) a + S128x2048.size a ≤ S128x2048.size a
  h_S128x2048 : 0 < S128x2048.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  reduces_S128x16_S128 : S128x16.Reduces [1] S128
  shapeCasts_S128_S128x1 : S128.ShapeCasts S128x1
  broadcasts_S128x1_S128x16 : S128x1.Broadcasts S128x16
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  shapeCasts_S128x256_S128x16x16 : S128x256.ShapeCasts S128x16x16
  reduces_S128x16x16_S128x16 : S128x16x16.Reduces [2] S128x16
  shapeCasts_S128x16_S128x16x1 : S128x16.ShapeCasts S128x16x1
  broadcasts_S128x16x1_S128x16x16 : S128x16x1.Broadcasts S128x16x16
  shapeCasts_S128x16x16_S128x256 : S128x16x16.ShapeCasts S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x256x16 : S128x4096.ShapeCasts S128x256x16
  reduces_S128x256x16_S128x256 : S128x256x16.Reduces [2] S128x256
  shapeCasts_S128x256_S128x256x1 : S128x256.ShapeCasts S128x256x1
  broadcasts_S128x256x1_S128x256x16 : S128x256x1.Broadcasts S128x256x16
  shapeCasts_S128x256x16_S128x4096 : S128x256x16.ShapeCasts S128x4096
  inb_S128x4096_S128x4096_0_0 : ∀ a, (![0, 0] : Fin 2 → Nat) a + S128x4096.size a ≤ S128x4096.size a
  h_S128x4096 : 0 < S128x4096.numel
  inb_S128x4368_S128x16_0_0 : ∀ a, (![0, 0] : Fin 2 → Nat) a + S128x16.size a ≤ S128x4368.size a
  h_S128x16 : 0 < S128x16.numel
  inb_S128x4368_S128x256_0_16 : ∀ a, (![0, 16] : Fin 2 → Nat) a + S128x256.size a ≤ S128x4368.size a
  inb_S128x4368_S128x4096_0_272 : ∀ a, (![0, 272] : Fin 2 → Nat) a + S128x4096.size a ≤ S128x4368.size a
  dot_S128x2048_S16x2048_S128x16_1_1_0_0_n_n_wf : DotDims.WF S128x2048 S16x2048 S128x16 [1] [1] [0] [0] [] []
  dot_S128x2048_S256x2048_S128x256_1_1_0_0_n_n_wf : DotDims.WF S128x2048 S256x2048 S128x256 [1] [1] [0] [0] [] []
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .bf16 = 32 ∨ (Rect.block (s := S16x2048) S16x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x2048.size a ≤ S4096x2048.size a
  hwx0_5 : ∀ i : grid0.Coords, EltTy.bits .bf16 = 32 ∨ (Rect.block (s := S4096x2048) S4096x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4368.size a ≤ S4096x4368.size a
  hwx0_7 : ∀ i : grid0.Coords, EltTy.bits .f32 = 32 ∨ (Rect.block (s := S4096x4368) S128x4368.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)

variable [Facts₀]

def dot_S128x2048_S16x2048_S128x16_1_1_0_0_n_n : DotDims S128x2048 S16x2048 S128x16 where
  lhsContracting := [1]
  rhsContracting := [1]
  lhsNonContracting := [0]
  rhsNonContracting := [0]
  lhsBatch := []
  rhsBatch := []
  wf := dot_S128x2048_S16x2048_S128x16_1_1_0_0_n_n_wf
def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S128x4368.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S128x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S2048x16 : Shape := ⟨2, ![2048, 16]⟩
abbrev S4096x16 : Shape := ⟨2, ![4096, 16]⟩
abbrev S1x16 : Shape := ⟨2, ![1, 16]⟩
abbrev S_ : Shape := ⟨0, ![]⟩
abbrev S4096 : Shape := ⟨1, ![4096]⟩
abbrev S4096x1 : Shape := ⟨2, ![4096, 1]⟩
abbrev S4096x16x16 : Shape := ⟨3, ![4096, 16, 16]⟩
abbrev S1x16x16 : Shape := ⟨3, ![1, 16, 16]⟩
abbrev S4096x16x1 : Shape := ⟨3, ![4096, 16, 1]⟩
abbrev S4096x256 : Shape := ⟨2, ![4096, 256]⟩
abbrev S4096x256x16 : Shape := ⟨3, ![4096, 256, 16]⟩
abbrev S1x256x16 : Shape := ⟨3, ![1, 256, 16]⟩
abbrev S4096x256x1 : Shape := ⟨3, ![4096, 256, 1]⟩
abbrev S4096x4096 : Shape := ⟨2, ![4096, 4096]⟩
abbrev S4096x4368 : Shape := ⟨2, ![4096, 4368]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S16, .f32⟩
  | .hbm, ⟨3, _⟩ => ⟨S16x16x2048, .f32⟩
  | .hbm, ⟨4, _⟩ => ⟨S16x16, .f32⟩
  | .hbm, ⟨5, _⟩ => ⟨S256x16x2048, .f32⟩
  | .hbm, ⟨6, _⟩ => ⟨S256x16, .f32⟩
  | .hbm, ⟨7, _⟩ => ⟨S2048x16, .f32⟩
  | .hbm, ⟨8, _⟩ => ⟨S4096x16, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x16, .f32⟩
  | .hbm, ⟨26, _⟩ => ⟨S4096x16, .f32⟩
  | .hbm, ⟨27, _⟩ => ⟨S4096x16x16, .f32⟩
  | .hbm, ⟨28, _⟩ => ⟨S1x16x16, .f32⟩
  | .hbm, ⟨29, _⟩ => ⟨S4096x16x16, .f32⟩
  | .hbm, ⟨30, _⟩ => ⟨S4096x16x16, .f32⟩
  | .hbm, ⟨31, _⟩ => ⟨S_, .f32⟩
  | .hbm, ⟨32, _⟩ => ⟨S4096x16, .f32⟩
  | .hbm, ⟨33, _⟩ => ⟨S_, .f32⟩
  | .hbm, ⟨34, _⟩ => ⟨S4096x16, .f32⟩
  | .hbm, ⟨35, _⟩ => ⟨S4096x16, .f32⟩
  | .hbm, ⟨36, _⟩ => ⟨S4096x16x1, .f32⟩
  | .hbm, ⟨37, _⟩ => ⟨S4096x16x16, .f32⟩
  | .hbm, ⟨38, _⟩ => ⟨S4096x16x16, .f32⟩
  | .hbm, ⟨39, _⟩ => ⟨S4096x16x16, .f32⟩
  | .hbm, ⟨40, _⟩ => ⟨S_, .f32⟩
  | .hbm, ⟨41, _⟩ => ⟨S4096x16, .f32⟩
  | .hbm, ⟨42, _⟩ => ⟨S4096x16x1, .f32⟩
  | .hbm, ⟨43, _⟩ => ⟨S4096x16x1, .f32⟩
  | .hbm, ⟨44, _⟩ => ⟨S4096x16x16, .f32⟩
  | .hbm, ⟨45, _⟩ => ⟨S4096x16x16, .f32⟩
  | .hbm, ⟨46, _⟩ => ⟨S4096x16x1, .f32⟩
  | .hbm, ⟨47, _⟩ => ⟨S4096x16x16, .f32⟩
  | .hbm, ⟨48, _⟩ => ⟨S4096x16x16, .f32⟩
  | .hbm, ⟨49, _⟩ => ⟨S4096x256, .f32⟩
  | .hbm, ⟨50, _⟩ => ⟨S4096x256x16, .f32⟩
  | .hbm, ⟨51, _⟩ => ⟨S1x256x16, .f32⟩
  | .hbm, ⟨52, _⟩ => ⟨S4096x256x16, .f32⟩
  | .hbm, ⟨53, _⟩ => ⟨S4096x256x16, .f32⟩
  | .hbm, ⟨54, _⟩ => ⟨S_, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S4096x256x1, .f32⟩
  | .hbm, ⟨60, _⟩ => ⟨S4096x256x16, .f32⟩
  | .hbm, ⟨61, _⟩ => ⟨S4096x256x16, .f32⟩
  | .hbm, ⟨62, _⟩ => ⟨S4096x256x16, .f32⟩
  | .hbm, ⟨63, _⟩ => ⟨S_, .f32⟩
  | .hbm, ⟨64, _⟩ => ⟨S4096x256, .f32⟩
  | .hbm, ⟨65, _⟩ => ⟨S4096x256x1, .f32⟩
  | .hbm, ⟨66, _⟩ => ⟨S4096x256x1, .f32⟩
  | .hbm, ⟨67, _⟩ => ⟨S4096x256x16, .f32⟩
  | .hbm, ⟨68, _⟩ => ⟨S4096x256x16, .f32⟩
  | .hbm, ⟨69, _⟩ => ⟨S4096x256x1, .f32⟩
  | .hbm, ⟨70, _⟩ => ⟨S4096x256x16, .f32⟩
  | .hbm, ⟨71, _⟩ => ⟨S4096x256x16, .f32⟩
  | .hbm, ⟨72, _⟩ => ⟨S4096x4096, .f32⟩
  | .hbm, ⟨73, _⟩ => ⟨S4096x4368, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩

abbrev nD : Nat := 1
abbrev τ : Topo := Topo.v7x

variable {F : FTy → Type} [FloatOps F]

class Facts₀ : Prop where
  transposes_S16x2048_S2048x16_1_0 : S16x2048.Transposes [1, 0] S2048x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  bcast_S16x16_S1x16x16_1_2 : S16x16.BroadcastsInDim S1x16x16 (![1, 2] : Fin 2 → Fin S1x16x16.rank)
  bcast_S1x16x16_S4096x16x16_0_1_2 : S1x16x16.BroadcastsInDim S4096x16x16 (![0, 1, 2] : Fin 3 → Fin S4096x16x16.rank)
  reducesTo_S4096x16x16_S4096x16_d2 : S4096x16x16.ReducesTo [2] S4096x16
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x16_0_1_2 : S4096x16x1.BroadcastsInDim S4096x16x16 (![0, 1, 2] : Fin 3 → Fin S4096x16x16.rank)
  shapeCasts_S4096x16x16_S4096x256 : S4096x16x16.ShapeCasts S4096x256
  bcast_S256x16_S1x256x16_1_2 : S256x16.BroadcastsInDim S1x256x16 (![1, 2] : Fin 2 → Fin S1x256x16.rank)
  bcast_S1x256x16_S4096x256x16_0_1_2 : S1x256x16.BroadcastsInDim S4096x256x16 (![0, 1, 2] : Fin 3 → Fin S4096x256x16.rank)
  reducesTo_S4096x256x16_S4096x256_d2 : S4096x256x16.ReducesTo [2] S4096x256
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  shapeCasts_S4096x256x16_S4096x4096 : S4096x256x16.ShapeCasts S4096x4096
  concatenates_S4096x16_S4096x256_S4096x4096_S4096x4368_d1 : Shape.Concatenates [S4096x16, S4096x256, S4096x4096] S4096x4368 1
  dot_S4096x2048_S2048x16_S4096x16_1_0_0_1_n_n_wf : DotDims.WF S4096x2048 S2048x16 S4096x16 [1] [0] [0] [1] [] []
  dot_S4096x2048_S16x16x2048_S4096x16x16_1_2_0_01_n_n_wf : DotDims.WF S4096x2048 S16x16x2048 S4096x16x16 [1] [2] [0] [0, 1] [] []
  dot_S4096x2048_S256x16x2048_S4096x256x16_1_2_0_01_n_n_wf : DotDims.WF S4096x2048 S256x16x2048 S4096x256x16 [1] [2] [0] [0, 1] [] []

variable [Facts₀]

def dot_S4096x2048_S2048x16_S4096x16_1_0_0_1_n_n : DotDims S4096x2048 S2048x16 S4096x16 where
  lhsContracting := [1]
  rhsContracting := [0]
  lhsNonContracting := [0]
  rhsNonContracting := [1]
  lhsBatch := []
  rhsBatch := []
  wf := dot_S4096x2048_S2048x16_S4096x16_1_0_0_1_n_n_wf
def dot_S4096x2048_S16x16x2048_S4096x16x16_1_2_0_01_n_n : DotDims S4096x2048 S16x16x2048 S4096x16x16 where
  lhsContracting := [1]
  rhsContracting := [2]
  lhsNonContracting := [0]
  rhsNonContracting := [0, 1]
  lhsBatch := []
  rhsBatch := []
  wf := dot_S4096x2048_S16x16x2048_S4096x16x16_1_2_0_01_n_n_wf
def dot_S4096x2048_S256x16x2048_S4096x256x16_1_2_0_01_n_n : DotDims S4096x2048 S256x16x2048 S4096x256x16 where
  lhsContracting := [1]
  rhsContracting := [2]
  lhsNonContracting := [0]
  rhsNonContracting := [0, 1]
  lhsBatch := []
  rhsBatch := []
  wf := dot_S4096x2048_S256x16x2048_S4096x256x16_1_2_0_01_n_n_wf

class Facts : Prop extends Facts₀ where

variable [Facts]
-- ==== Proof.Pieces.lean ====
/-
  What one run of the kernel body leaves in its two output blocks, as lists of stored pieces over the body's pure values.

  The body computes the level-0 block `L0` ([128,16]), the level-1 block `L1` ([128,256], written to a scratch buffer and
  read back whole) and the level-2 block `L2` ([128,4096]). Into the side-by-side output block ([128,4368]) it stores
  `L0` at columns 0–15, `L1` at columns 16–271 and `L2` at columns 272–4367; into the last-level output block it stores
  `L2` whole. Read back, the side-by-side block is the overlay of the three pieces and the last-level block is `L2`.
-/
import proofs.«124225_j412316860848_2_alg».proof.Proof.Gen.KernelIdeal.Frame
import Idealize.ShloMosaic.Lib.Pipeline.Value
import Idealize.ShloMosaic.Lib.ValueIdx

noncomputable section

open scoped BigOperators

namespace Cert.KernelIdeal.Pieces

open Cert.KernelIdeal Cert.KernelIdeal.Gen Idealize.ShloMosaic Idealize.ShloMosaic.TcCoe Idealize.ShloMosaic.Tactic Idealize.SL.Sem Idealize.ShloMosaic.ValueIdx

variable {F : FTy → Type} [FloatOps F]

theorem zeros2 : (![0, 0] : Fin 2 → ℕ) = fun _ => 0 := by
  funext a; match a with | ⟨0, _⟩ => rfl | ⟨1, _⟩ => rfl

/-- The level-0 block of the body, from the row block, the level-0 weights and the level-0 bias row. -/
abbrev L0 (x0 : Vec F S128x2048 .f32) (x1 : Vec F S16x2048 .bf16) (x2 : Vec F S1x16 .f32) : FVec F S128x16 .f32 :=
  k0_pay2 x0 x1 x2

/-- The level-1 block: the grouped log-softmax plus the parents' level-0 entries, as [128,256]. -/
abbrev L1 (x0 : Vec F S128x2048 .f32) (x1 : Vec F S16x2048 .bf16) (x2 : Vec F S1x16 .f32) (x3 : Vec F S256x2048 .bf16)
    (x4 : Vec F S1x256 .f32) : FVec F S128x256 .f32 :=
  k0_pay4 (L0 x0 x1 x2) (k0_pay3 x0 x3 x4)

/-- The level-2 block: the grouped log-softmax plus the level-1 entries, as [128,4096]. -/
abbrev L2 (x0 : Vec F S128x2048 .f32) (x1 : Vec F S16x2048 .bf16) (x2 : Vec F S1x16 .f32) (x3 : Vec F S256x2048 .bf16)
    (x4 : Vec F S1x256 .f32) (x5 : Vec F S4096x2048 .bf16) (x6 : Vec F S1x4096 .f32) : FVec F S128x4096 .f32 :=
  k0_pay5 (k0_pay1 x0) (L1 x0 x1 x2 x3 x4) x5 x6

set_option maxRecDepth 65536 in
/-- The last-level output block after the body is the level-2 block. -/
theorem out8_eq (c : Dev nD) (i : grid0.Coords) (arg1 : Memref sig .tc .vmem S128x2048 .f32) (harg1 : arg1.IsWhole) (arg2 : Memref sig .tc .vmem S16x2048 .bf16) (harg2 : arg2.IsWhole) (arg3 : Memref sig .tc .vmem S1x16 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S4096x2048 .bf16) (harg6 : arg6.IsWhole) (arg7 : Memref sig .tc .vmem S1x4096 .f32) (harg7 : arg7.IsWhole) (arg8 : Memref sig .tc .vmem S128x4368 .f32) (harg8 : arg8.IsWhole) (arg9 : Memref sig .tc .vmem S128x4096 .f32) (harg9 : arg9.IsWhole) (arg10 : Memref sig .tc .vmem S128x256 .f32) (harg10 : arg10.IsWhole)
    (x0 : Vec F S128x2048 .f32) (x1 : Vec F S16x2048 .bf16) (x2 : Vec F S1x16 .f32) (x3 : Vec F S256x2048 .bf16) (x4 : Vec F S1x256 .f32) (x5 : Vec F S4096x2048 .bf16) (x6 : Vec F S1x4096 .f32) :
    out0_A_8 c i arg1 harg1 arg2 harg2 arg3 harg3 arg4 harg4 arg5 harg5 arg6 harg6 arg7 harg7 arg8 harg8 arg9 harg9 arg10 harg10 x0 x1 x2 x3 x4 x5 x6 = L2 x0 x1 x2 x3 x4 x5 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero zeros2]
  simp only [View.readAt_eq_ld, harg1.read_unread, harg2.read_unread, harg3.read_unread, harg4.read_unread, harg5.read_unread,
    harg6.read_unread, harg7.read_unread, View.ld_unit_zero (S := S128x2048) zeros2, View.ld_unit_zero (S := S16x2048) zeros2,
    View.ld_unit_zero (S := S1x16) zeros2, View.ld_unit_zero (S := S256x2048) zeros2, View.ld_unit_zero (S := S1x256) zeros2,
    View.ld_unit_zero (S := S4096x2048) zeros2, View.ld_unit_zero (S := S1x4096) zeros2,
    View.readCov_unit_zero (S := S128x256) _ zeros2]

set_option maxRecDepth 65536 in
/-- The side-by-side output block after the body is the overlay of its three stored pieces. -/
theorem out7_eq (c : Dev nD) (i : grid0.Coords) (arg1 : Memref sig .tc .vmem S128x2048 .f32) (harg1 : arg1.IsWhole) (arg2 : Memref sig .tc .vmem S16x2048 .bf16) (harg2 : arg2.IsWhole) (arg3 : Memref sig .tc .vmem S1x16 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S4096x2048 .bf16) (harg6 : arg6.IsWhole) (arg7 : Memref sig .tc .vmem S1x4096 .f32) (harg7 : arg7.IsWhole) (arg8 : Memref sig .tc .vmem S128x4368 .f32) (harg8 : arg8.IsWhole) (arg9 : Memref sig .tc .vmem S128x4096 .f32) (harg9 : arg9.IsWhole) (arg10 : Memref sig .tc .vmem S128x256 .f32) (harg10 : arg10.IsWhole)
    (x0 : Vec F S128x2048 .f32) (x1 : Vec F S16x2048 .bf16) (x2 : Vec F S1x16 .f32) (x3 : Vec F S256x2048 .bf16) (x4 : Vec F S1x256 .f32) (x5 : Vec F S4096x2048 .bf16) (x6 : Vec F S1x4096 .f32) :
    out0_A_7 c i arg1 harg1 arg2 harg2 arg3 harg3 arg4 harg4 arg5 harg5 arg6 harg6 arg7 harg7 arg8 harg8 arg9 harg9 arg10 harg10 x0 x1 x2 x3 x4 x5 x6
      = View.canon [(⟨Rect.unit (s := S128x4368) ![0, 272] S128x4096.size inb_S128x4368_S128x4096_0_272, L2 x0 x1 x2 x3 x4 x5 x6⟩ : View.Piece (Elt F) S128x4368 .f32),
          ⟨Rect.unit (s := S128x4368) ![0, 16] S128x256.size inb_S128x4368_S128x256_0_16, L1 x0 x1 x2 x3 x4⟩,
          ⟨Rect.unit (s := S128x4368) ![0, 0] S128x16.size inb_S128x4368_S128x16_0_0, L0 x0 x1 x2⟩] := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread,
    harg6.read_unread, harg7.read_unread, View.ld_unit_zero (S := S128x2048) zeros2, View.ld_unit_zero (S := S16x2048) zeros2,
    View.ld_unit_zero (S := S1x16) zeros2, View.ld_unit_zero (S := S256x2048) zeros2, View.ld_unit_zero (S := S1x256) zeros2,
    View.ld_unit_zero (S := S4096x2048) zeros2, View.ld_unit_zero (S := S1x4096) zeros2,
    View.readCov_unit_zero (S := S128x256) _ zeros2]

end Cert.KernelIdeal.Pieces

end
-- ==== Proof.Spec.lean ====
/-
  The hierarchical softmax as one function of its seven argument arrays, entry by entry, over the extended reals.

  Three levels of classes: 16 at the top, 16 children under each (256), 16 grandchildren under each of those (4096).
  For a batch row `b`:
    * the level-0 scores are `x_b · W0_p + b0_p`, and the level-0 log-probabilities their log-softmax over `p`;
    * under parent `p` the level-1 scores are `x_b · W1_{p,q} + b1_{p,q}`; a child's log-probability is the log-softmax
      over its 16 siblings `q` plus its parent's log-probability;
    * under level-1 class `r = 16 p + q` the level-2 scores are `x_b · W2_{r,s} + b2_{r,s}`; a grandchild's
      log-probability is the log-softmax over its 16 siblings `s` plus the log-probability of `r`.
  The log-softmax of a family `v` is taken the stable way: with `M = max(-∞, max_k v_k)`,
  `lsm v j = (v j - M) - log (Σ_k exp (v k - M))`.
  The two results are the three levels side by side (16 + 256 + 4096 = 4368 columns) and the last level alone.
-/
import Idealize.ShloMosaic.PureOps.Ideal
import Idealize.ShloMosaic.Lib.ValueIdx

noncomputable section

open scoped BigOperators

namespace Cert.HSoftmax

open Idealize.ShloMosaic Idealize.ShloMosaic.ValueIdx

/-- The value the reductions start from: the pattern of `-∞`. -/
abbrev negInf : EReal := Ideal.ofBits .f32 0xFF800000#32

/-- The shift of a stable log-softmax: the largest entry, never below `-∞`'s pattern. -/
def rowMax {n : ℕ} (v : Fin n → EReal) : EReal :=
  max negInf ((Finset.univ : Finset (Fin n)).fold max negInf v)

/-- The log-softmax of a finite family, shifted by its largest entry. -/
def lsm {n : ℕ} (v : Fin n → EReal) (j : Fin n) : EReal :=
  (v j - rowMax v) - Ideal.log (∑ k : Fin n, Ideal.exp (v k - rowMax v))

/-- Position `16 i + j` among `n = 16 m` classes laid out parent by parent: child `j` of parent `i`. -/
abbrev child {m : ℕ} (i : Fin m) (j : Fin 16) : Fin (m * 16) :=
  ⟨i.val * 16 + j.val, by
    have hi := i.isLt
    have hj := j.isLt
    have h1 : (i.val + 1) * 16 ≤ m * 16 := Nat.mul_le_mul_right 16 hi
    omega⟩

/-- The parent of position `n`. -/
abbrev parent {m : ℕ} (n : Fin (m * 16)) : Fin m :=
  ⟨n.val / 16, by
    have hn : n.val < m * 16 := n.isLt
    exact Nat.div_lt_of_lt_mul (by omega)⟩

/-- Which of its parent's children position `n` is. -/
abbrev sibling {m : ℕ} (n : Fin (m * 16)) : Fin 16 := ⟨n.val % 16, Nat.mod_lt _ (by decide)⟩

theorem parent_child {m : ℕ} (i : Fin m) (j : Fin 16) : parent (child i j) = i :=
  Fin.ext (by show (i.val * 16 + j.val) / 16 = i.val; have := j.isLt; omega)

theorem sibling_child {m : ℕ} (i : Fin m) (j : Fin 16) : sibling (child i j) = j :=
  Fin.ext (by show (i.val * 16 + j.val) % 16 = j.val; have := j.isLt; omega)

theorem child_parent_sibling {m : ℕ} (n : Fin (m * 16)) : child (parent n) (sibling n) = n :=
  Fin.ext (by show n.val / 16 * 16 + n.val % 16 = n.val; omega)

section
variable (X : (⟨2, ![4096, 2048]⟩ : Shape).Idx → EReal)
  (W0 : (⟨2, ![16, 2048]⟩ : Shape).Idx → EReal) (B0 : (⟨1, ![16]⟩ : Shape).Idx → EReal)
  (W1 : (⟨3, ![16, 16, 2048]⟩ : Shape).Idx → EReal) (B1 : (⟨2, ![16, 16]⟩ : Shape).Idx → EReal)
  (W2 : (⟨3, ![256, 16, 2048]⟩ : Shape).Idx → EReal) (B2 : (⟨2, ![256, 16]⟩ : Shape).Idx → EReal)

/-- Level-0 score of class `p` for batch row `b`. -/
def raw0 (b : Fin 4096) (p : Fin 16) : EReal := (∑ k : Fin 2048, X (ix2 b k) * W0 (ix2 p k)) + B0 (ix1 p)

/-- Level-0 log-probability. -/
def lp0 (b : Fin 4096) (p : Fin 16) : EReal := lsm (raw0 X W0 B0 b) p

/-- Level-1 score of child `q` of parent `p`. -/
def raw1 (b : Fin 4096) (p q : Fin 16) : EReal := (∑ k : Fin 2048, X (ix2 b k) * W1 (ix3 p q k)) + B1 (ix2 p q)

/-- Level-1 log-probability: among the siblings, plus the parent's. -/
def lp1 (b : Fin 4096) (p q : Fin 16) : EReal := lsm (raw1 X W1 B1 b p) q + lp0 X W0 B0 b p

/-- Level-2 score of child `s` of level-1 class `r`. -/
def raw2 (b : Fin 4096) (r : Fin 256) (s : Fin 16) : EReal := (∑ k : Fin 2048, X (ix2 b k) * W2 (ix3 r s k)) + B2 (ix2 r s)

/-- Level-2 log-probability: among the siblings, plus the level-1 class's (`r` is child `r % 16` of parent `r / 16`). -/
def lp2 (b : Fin 4096) (r : Fin 256) (s : Fin 16) : EReal :=
  lsm (raw2 X W2 B2 b r) s + lp1 X W0 B0 W1 B1 b (parent (m := 16) r) (sibling (m := 16) r)

/-- The last level alone, `[4096, 4096]`: column `n` is child `n % 16` of level-1 class `n / 16`. -/
def outLast : (⟨2, ![4096, 4096]⟩ : Shape).Idx → EReal := fun i =>
  lp2 X W0 B0 W1 B1 W2 B2 (i 0) (parent (m := 256) (i 1)) (sibling (m := 256) (i 1))

/-- Column `n` of the three levels side by side: a level-0 class for `n < 16`, level-1 position `n - 16` for `n < 272`,
    else level-2 position `n - 272`. -/
def allAt (b : Fin 4096) (n : ℕ) : EReal :=
  if h0 : n < 16 then lp0 X W0 B0 b ⟨n, h0⟩
  else if h1 : n - 16 < 256 then
    lp1 X W0 B0 W1 B1 b (parent (m := 16) ⟨n - 16, h1⟩) (sibling (m := 16) ⟨n - 16, h1⟩)
  else if h2 : n - 272 < 4096 then
    lp2 X W0 B0 W1 B1 W2 B2 b (parent (m := 256) ⟨n - 272, h2⟩) (sibling (m := 256) ⟨n - 272, h2⟩)
  else 0

/-- The three levels side by side, `[4096, 4368]`. -/
def outAll : (⟨2, ![4096, 4368]⟩ : Shape).Idx → EReal := fun i => allAt X W0 B0 W1 B1 W2 B2 (i 0) (i 1).val

end

end Cert.HSoftmax

end
-- ==== Proof.BlockValue.lean ====
/-
  One block of rows of the hierarchical softmax, from the block's own data.

  The kernel works on 128 batch rows at a time: block `t` holds rows `128 t + p`. If the row block `X0` holds those rows of
  `X`, the staged weight matrices hold the weights one row per class and the staged bias rows the biases, then the
  log-softmax expressions the body computes from them are the specification's log-probabilities of row `128 t + p`.
-/
import proofs.«124225_j412316860848_2_alg».proof.Proof.Spec

noncomputable section

open scoped BigOperators

namespace Cert.HSoftmax

open Idealize.ShloMosaic Idealize.ShloMosaic.ValueIdx

/-- Row `128 t + p` of the batch: row `p` of block `t`. -/
abbrev row (t : Fin 32) (p : Fin 128) : Fin 4096 := ⟨t.val * 128 + p.val, by have := t.isLt; have := p.isLt; omega⟩

section
variable (X : (⟨2, ![4096, 2048]⟩ : Shape).Idx → EReal)
  (W0 : (⟨2, ![16, 2048]⟩ : Shape).Idx → EReal) (B0 : (⟨1, ![16]⟩ : Shape).Idx → EReal)
  (W1 : (⟨3, ![16, 16, 2048]⟩ : Shape).Idx → EReal) (B1 : (⟨2, ![16, 16]⟩ : Shape).Idx → EReal)
  (W2 : (⟨3, ![256, 16, 2048]⟩ : Shape).Idx → EReal) (B2 : (⟨2, ![256, 16]⟩ : Shape).Idx → EReal)
variable (t : Fin 32)
  (X0 : (⟨2, ![128, 2048]⟩ : Shape).Idx → EReal) (X1 : (⟨2, ![16, 2048]⟩ : Shape).Idx → EReal)
  (X2 : (⟨2, ![1, 16]⟩ : Shape).Idx → EReal) (X3 : (⟨2, ![256, 2048]⟩ : Shape).Idx → EReal)
  (X4 : (⟨2, ![1, 256]⟩ : Shape).Idx → EReal) (X5 : (⟨2, ![4096, 2048]⟩ : Shape).Idx → EReal)
  (X6 : (⟨2, ![1, 4096]⟩ : Shape).Idx → EReal)

/-- Level 0 of a block row. -/
theorem block_lp0 (hX0 : ∀ p k, X0 (ix2 p k) = X (ix2 (row t p) k)) (hX1 : ∀ q k, X1 (ix2 q k) = W0 (ix2 q k))
    (hX2 : ∀ q, X2 (ix2 (0 : Fin 1) q) = B0 (ix1 q)) (p : Fin 128) (q : Fin 16) :
    lsm (fun q' : Fin 16 => (∑ k : Fin 2048, X0 (ix2 p k) * X1 (ix2 q' k)) + X2 (ix2 (0 : Fin 1) q')) q
      = lp0 X W0 B0 (row t p) q := by
  unfold lp0
  refine congrArg (fun v => lsm v q) (funext fun q' => ?_)
  unfold raw0
  rw [hX2 q']
  exact congrArg (· + B0 (ix1 q')) (Finset.sum_congr rfl fun k _ => by rw [hX0 p k, hX1 q' k])

/-- Level 1 of a block row: among the sixteen children of parent `a`, plus the parent's level-0 entry. -/
theorem block_lp1 (hX0 : ∀ p k, X0 (ix2 p k) = X (ix2 (row t p) k))
    (hX3 : ∀ (a c : Fin 16) k, X3 (ix2 (child a c : Fin 256) k) = W1 (ix3 a c k))
    (hX4 : ∀ a c : Fin 16, X4 (ix2 (0 : Fin 1) (child a c : Fin 256)) = B1 (ix2 a c)) (p : Fin 128) (a c : Fin 16) (l0 : EReal)
    (hl0 : l0 = lp0 X W0 B0 (row t p) a) :
    lsm (fun c' : Fin 16 => (∑ k : Fin 2048, X0 (ix2 p k) * X3 (ix2 (child a c' : Fin 256) k)) + X4 (ix2 (0 : Fin 1) (child a c' : Fin 256))) c + l0
      = lp1 X W0 B0 W1 B1 (row t p) a c := by
  unfold lp1
  rw [hl0]
  refine congrArg (fun v => lsm v c + lp0 X W0 B0 (row t p) a) (funext fun c' => ?_)
  unfold raw1
  rw [hX4 a c']
  exact congrArg (· + B1 (ix2 a c')) (Finset.sum_congr rfl fun k _ => by rw [hX0 p k, hX3 a c' k])

/-- Level 2 of a block row: among the sixteen children of level-1 class `r`, plus that class's level-1 entry. -/
theorem block_lp2 (hX0 : ∀ p k, X0 (ix2 p k) = X (ix2 (row t p) k))
    (hX5 : ∀ (r : Fin 256) (s : Fin 16) k, X5 (ix2 (child r s : Fin 4096) k) = W2 (ix3 r s k))
    (hX6 : ∀ (r : Fin 256) (s : Fin 16), X6 (ix2 (0 : Fin 1) (child r s : Fin 4096)) = B2 (ix2 r s)) (p : Fin 128) (r : Fin 256) (s : Fin 16)
    (l1 : EReal) (hl1 : l1 = lp1 X W0 B0 W1 B1 (row t p) (parent (m := 16) r) (sibling (m := 16) r)) :
    lsm (fun s' : Fin 16 => (∑ k : Fin 2048, X0 (ix2 p k) * X5 (ix2 (child r s' : Fin 4096) k)) + X6 (ix2 (0 : Fin 1) (child r s' : Fin 4096))) s + l1
      = lp2 X W0 B0 W1 B1 W2 B2 (row t p) r s := by
  unfold lp2
  rw [hl1]
  refine congrArg (fun v => lsm v s + lp1 X W0 B0 W1 B1 (row t p) (parent (m := 16) r) (sibling (m := 16) r)) (funext fun s' => ?_)
  unfold raw2
  rw [hX6 r s']
  exact congrArg (· + B2 (ix2 r s')) (Finset.sum_congr rfl fun k _ => by rw [hX0 p k, hX5 r s' k])

/-! ## The three ranges of columns of the side-by-side result -/

/-- The side-by-side result depends on the row and the column through their values only. -/
theorem allAt_congr {b b' : Fin 4096} {n n' : ℕ} (hb : b.val = b'.val) (hn : n = n') :
    allAt X W0 B0 W1 B1 W2 B2 b n = allAt X W0 B0 W1 B1 W2 B2 b' n' := by
  obtain rfl := Fin.ext hb
  obtain rfl := hn
  rfl

/-- Columns 0–15 hold level 0. -/
theorem allAt_low (b : Fin 4096) (q : Fin 16) : allAt X W0 B0 W1 B1 W2 B2 b q.val = lp0 X W0 B0 b q := by
  unfold allAt
  rw [dif_pos q.isLt]

/-- Columns 16–271 hold level 1: column `16 + j` is level-1 position `j`. -/
theorem allAt_mid (b : Fin 4096) (j : Fin 256) :
    allAt X W0 B0 W1 B1 W2 B2 b (16 + j.val) = lp1 X W0 B0 W1 B1 b (parent (m := 16) j) (sibling (m := 16) j) := by
  have h0 : ¬ 16 + j.val < 16 := by omega
  have h1 : 16 + j.val - 16 < 256 := by have := j.isLt; omega
  have e : (⟨16 + j.val - 16, h1⟩ : Fin 256) = j := Fin.ext (by show 16 + j.val - 16 = j.val; omega)
  unfold allAt
  rw [dif_neg h0, dif_pos h1, e]

/-- Columns 272–4367 hold level 2: column `272 + j` is level-2 position `j`. -/
theorem allAt_high (b : Fin 4096) (j : Fin 4096) :
    allAt X W0 B0 W1 B1 W2 B2 b (272 + j.val)
      = lp2 X W0 B0 W1 B1 W2 B2 b (parent (m := 256) j) (sibling (m := 256) j) := by
  have h0 : ¬ 272 + j.val < 16 := by omega
  have h1 : ¬ 272 + j.val - 16 < 256 := by omega
  have h2 : 272 + j.val - 272 < 4096 := by have := j.isLt; omega
  have e : (⟨272 + j.val - 272, h2⟩ : Fin 4096) = j := Fin.ext (by show 272 + j.val - 272 = j.val; omega)
  unfold allAt
  rw [dif_neg h0, dif_neg h1, dif_pos h2, e]

end

end Cert.HSoftmax

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibSplitLast.lean ====
/-
  Layout operations that split or merge the LAST axis of an array, and that keep a reduced last axis, read at an entry.

  A shape cast keeps the row-major position of every element, so
    * splitting the last axis, `[a, N] → [a, b, c]` with `N = b·c`, reads `(i, j, k)` at row `i`, column `j·c + k`, and
      merging the two last axes, `[a, b, c] → [a, N]`, is its inverse;
    * appending a unit axis, `[a, b] → [a, b, 1]`, reads `(i, j, 0)` at `(i, j)`.
  A broadcast along a trailing unit axis, `[a, b, 1] → [a, b, c]`, repeats the operand: it reads `(i, j, 0)` at `(i, j, k)`.
  The column `j·c + k` is given as any `n : Fin N` with that value, so a caller names it as it likes.
-/
import Idealize.ShloMosaic.Lib.Pipeline.Value
import Idealize.ShloMosaic.Lib.ValueIdx

noncomputable section

namespace Cert.Lib

open Idealize.ShloMosaic Idealize.ShloMosaic.ValueIdx

variable {α : Type}

/-- An `[a, N]` array with `N = b·c` cast to `[a, b, c]` reads, at `(i, j, k)`, the operand at row `i`, column `j·c + k`. -/
theorem shapeCast_aN_abc_apply {a N b c : ℕ} (hN : N = b * c) (x : (⟨2, ![a, N]⟩ : Shape).Idx → α)
    (h : (⟨2, ![a, N]⟩ : Shape).ShapeCasts ⟨3, ![a, b, c]⟩) (i : Fin a) (j : Fin b) (k : Fin c) (n : Fin N)
    (hn : n.val = j.val * c + k.val) :
    shapeCast ⟨3, ![a, b, c]⟩ x h (ix3 i j k) = x (ix2 i n) :=
  shapeCast_apply x h _ _ (by
    rw [Shape.rowMajor_val_three, Shape.rowMajor_val_two]
    show i.val * N + n.val = (i.val * b + j.val) * c + k.val
    rw [hn, hN, Nat.add_mul, Nat.mul_assoc, Nat.add_assoc])

/-- An `[a, b, c]` array cast to `[a, N]` with `N = b·c` reads, at row `i`, column `j·c + k`, the operand at `(i, j, k)`. -/
theorem shapeCast_abc_aN_apply {a N b c : ℕ} (hN : N = b * c) (x : (⟨3, ![a, b, c]⟩ : Shape).Idx → α)
    (h : (⟨3, ![a, b, c]⟩ : Shape).ShapeCasts ⟨2, ![a, N]⟩) (i : Fin a) (j : Fin b) (k : Fin c) (n : Fin N)
    (hn : n.val = j.val * c + k.val) :
    shapeCast ⟨2, ![a, N]⟩ x h (ix2 i n) = x (ix3 i j k) :=
  shapeCast_apply x h _ _ (by
    rw [Shape.rowMajor_val_three, Shape.rowMajor_val_two]
    show (i.val * b + j.val) * c + k.val = i.val * N + n.val
    rw [hn, hN, Nat.add_mul, Nat.mul_assoc, Nat.add_assoc])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

end Cert.Lib

end
-- ==== Proof.LibLogSoftmax.lean ====
/-
  The stable log-softmax as a chain of vector operations, read at an entry, over the extended reals.

  Along the last axis of an array `v` the chain takes the largest entry `M` (a `max` reduction started from `-∞`'s
  pattern, then `max` with the `-∞` splat), keeps the reduced axis as a unit axis, spreads `M` back along it, subtracts,
  exponentiates, sums along the axis, takes the logarithm of the sum, spreads it back and subtracts again:
      `out = (v - M) - log (Σ exp (v - M))`.
  Read at an entry, with the other coordinates fixed, this is `Cert.HSoftmax.lsm` of the family of entries along the
  axis. Stated once for rank 2 (`[R, C]`, axis 1, through `[R] → [R, 1] → [R, C]`) and once for rank 3 (`[R, A, C]`,
  axis 2, through `[R, A] → [R, A, 1] → [R, A, C]`), with every extent a variable and every shape fact a hypothesis.
-/
import Idealize.ShloMosaic.PureOps.Ideal.Laws
import Idealize.ShloMosaic.Lib.ValueIdx
import proofs.«124225_j412316860848_2_alg».proof.Proof.Spec
import proofs.«124225_j412316860848_2_alg».proof.Proof.LibColumn
import proofs.«124225_j412316860848_2_alg».proof.Proof.LibSplitLast

noncomputable section

open scoped BigOperators

namespace Cert.Lib

open Idealize.ShloMosaic Idealize.ShloMosaic.ValueIdx Cert.HSoftmax

/-! ## Rank 3, last axis -/

section Rank3
variable {R A C : ℕ} (v : FVec Ideal ⟨3, ![R, A, C]⟩ .f32)
  (hred : (⟨3, ![R, A, C]⟩ : Shape).Reduces [2] ⟨2, ![R, A]⟩)
  (hcast : (⟨2, ![R, A]⟩ : Shape).ShapeCasts ⟨3, ![R, A, 1]⟩)
  (hbc : (⟨3, ![R, A, 1]⟩ : Shape).Broadcasts ⟨3, ![R, A, C]⟩)
  (hφ : FKind.Formats .f32)
  (hmax : (0xFF800000#32 : BitVec FTy.f32.bits) = FKind.maximumf.neutral .f32 hφ)
  (hadd : (0x00000000#32 : BitVec FTy.f32.bits) = FKind.add.neutral .f32 hφ)

/-- The source index over `(p, a)` with `k` on the dropped last axis is `(p, a, k)`. -/
theorem lift3_last (p : Fin R) (a : Fin A) (k : Fin C) : hred.lift (ix2 p a) k = ix3 p a k := by
  funext d
  refine Fin.ext ?_
  match d with
  | ⟨0, _⟩ => rfl
  | ⟨1, _⟩ => rfl
  | ⟨2, _⟩ => rfl

/-- The shift: the largest entry along the last axis, never below `-∞`'s pattern, spread back along the axis. -/
def shift3 : FVec Ideal ⟨3, ![R, A, C]⟩ .f32 :=
  broadcastTo ⟨3, ![R, A, C]⟩
    (shapeCast ⟨3, ![R, A, 1]⟩
      (maximumf (broadcast ⟨2, ![R, A]⟩ (Scalar.ofBits (F := Ideal) .f32 0xFF800000#32))
        (multiReduction (F := Ideal) .maximumf [2] ⟨2, ![R, A]⟩ v 0xFF800000#32 hred hφ hmax)) hcast) hbc

/-- The shift at `(p, a, c)` is the row maximum of the entries `(p, a, ·)`. -/
theorem shift3_apply (p : Fin R) (a : Fin A) (c : Fin C) :
    shift3 v hred hcast hbc hφ hmax (ix3 p a c) = rowMax (fun c' : Fin C => v (ix3 p a c')) := by
  unfold shift3
  refine (broadcastTo_ab1_abc_apply _ hbc p a c).trans ?_
  refine (shapeCast_ab_ab1_apply _ hcast p a (0 : Fin 1)).trans ?_
  show max negInf (multiReduction (F := Ideal) .maximumf [2] ⟨2, ![R, A]⟩ v 0xFF800000#32 hred hφ hmax (ix2 p a)) = _
  unfold rowMax
  refine congrArg (max negInf) ?_
  refine (Ideal.multiReduction_maximumf_single v _ hred hφ hmax (ix2 p a)).trans ?_
  show (Finset.univ : Finset (Fin C)).fold max negInf (v ∘ hred.lift (ix2 p a)) = _
  refine congrArg (fun f => (Finset.univ : Finset (Fin C)).fold max negInf f) ?_
  funext k
  exact congrArg v (lift3_last hred p a k)

/-- The printed chain: subtract the shift, then subtract the logarithm of the sum of exponentials, spread back. -/
def lsmChain3 : FVec Ideal ⟨3, ![R, A, C]⟩ .f32 :=
  subf (subf v (shift3 v hred hcast hbc hφ hmax))
    (broadcastTo ⟨3, ![R, A, C]⟩
      (log (shapeCast ⟨3, ![R, A, 1]⟩
        (multiReduction (F := Ideal) .add [2] ⟨2, ![R, A]⟩ (exp (subf v (shift3 v hred hcast hbc hφ hmax))) 0x00000000#32 hred hφ hadd)
        hcast)) hbc)

/-- THE CHAIN AT AN ENTRY: the log-softmax of the entries `(p, a, ·)`, at `c`. -/
theorem lsmChain3_apply (p : Fin R) (a : Fin A) (c : Fin C) :
    lsmChain3 v hred hcast hbc hφ hmax hadd (ix3 p a c) = lsm (fun c' : Fin C => v (ix3 p a c')) c := by
  have hM : ∀ c' : Fin C, shift3 v hred hcast hbc hφ hmax (ix3 p a c') = rowMax (fun c'' : Fin C => v (ix3 p a c'')) :=
    fun c' => shift3_apply v hred hcast hbc hφ hmax p a c'
  unfold lsmChain3 lsm
  refine congrArg₂ (fun x y : EReal => x - y) ?_ ?_
  · show v (ix3 p a c) - shift3 v hred hcast hbc hφ hmax (ix3 p a c) = _
    rw [hM c]
  · refine (broadcastTo_ab1_abc_apply _ hbc p a c).trans ?_
    show Ideal.log (shapeCast ⟨3, ![R, A, 1]⟩ _ hcast (ix3 p a (0 : Fin 1))) = _
    refine congrArg Ideal.log ?_
    refine (shapeCast_ab_ab1_apply _ hcast p a (0 : Fin 1)).trans ?_
    refine (Ideal.multiReduction_add_single _ _ hred hφ hadd (ix2 p a)).trans ?_
    show ∑ k : Fin C, exp (subf v (shift3 v hred hcast hbc hφ hmax)) (hred.lift (ix2 p a) k) = _
    refine Finset.sum_congr rfl fun k _ => ?_
    rw [lift3_last hred p a k]
    show Ideal.exp (v (ix3 p a k) - shift3 v hred hcast hbc hφ hmax (ix3 p a k)) = _
    rw [hM k]

end Rank3

/-! ## Rank 2, last axis -/

section Rank2
variable {R C : ℕ} (v : FVec Ideal ⟨2, ![R, C]⟩ .f32)
  (hred : (⟨2, ![R, C]⟩ : Shape).Reduces [1] ⟨1, ![R]⟩)
  (hcast : (⟨1, ![R]⟩ : Shape).ShapeCasts ⟨2, ![R, 1]⟩)
  (hbc : (⟨2, ![R, 1]⟩ : Shape).Broadcasts ⟨2, ![R, C]⟩)
  (hφ : FKind.Formats .f32)
  (hmax : (0xFF800000#32 : BitVec FTy.f32.bits) = FKind.maximumf.neutral .f32 hφ)
  (hadd : (0x00000000#32 : BitVec FTy.f32.bits) = FKind.add.neutral .f32 hφ)

/-- The source index over row `p` with `k` on the dropped last axis is `(p, k)`. -/
theorem lift2_last (p : Fin R) (k : Fin C) : hred.lift (ix1 p) k = ix2 p k := by
  funext d
  refine Fin.ext ?_
  match d with
  | ⟨0, _⟩ => rfl
  | ⟨1, _⟩ => rfl

/-- The shift: the largest entry of each row, never below `-∞`'s pattern, spread back along the row. -/
def shift2 : FVec Ideal ⟨2, ![R, C]⟩ .f32 :=
  broadcastTo ⟨2, ![R, C]⟩
    (shapeCast ⟨2, ![R, 1]⟩
      (maximumf (broadcast ⟨1, ![R]⟩ (Scalar.ofBits (F := Ideal) .f32 0xFF800000#32))
        (multiReduction (F := Ideal) .maximumf [1] ⟨1, ![R]⟩ v 0xFF800000#32 hred hφ hmax)) hcast) hbc

/-- The shift at `(p, c)` is the row maximum of row `p`. -/
theorem shift2_apply (p : Fin R) (c : Fin C) :
    shift2 v hred hcast hbc hφ hmax (ix2 p c) = rowMax (fun c' : Fin C => v (ix2 p c')) := by
  unfold shift2
  refine (broadcastTo_a1_ab_apply _ hbc p c).trans ?_
  refine (shapeCast_a_a1_apply _ hcast p (0 : Fin 1)).trans ?_
  show max negInf (multiReduction (F := Ideal) .maximumf [1] ⟨1, ![R]⟩ v 0xFF800000#32 hred hφ hmax (ix1 p)) = _
  unfold rowMax
  refine congrArg (max negInf) ?_
  refine (Ideal.multiReduction_maximumf_single v _ hred hφ hmax (ix1 p)).trans ?_
  show (Finset.univ : Finset (Fin C)).fold max negInf (v ∘ hred.lift (ix1 p)) = _
  refine congrArg (fun f => (Finset.univ : Finset (Fin C)).fold max negInf f) ?_
  funext k
  exact congrArg v (lift2_last hred p k)

/-- The printed chain: subtract the shift, then subtract the logarithm of the sum of exponentials, spread back. -/
def lsmChain2 : FVec Ideal ⟨2, ![R, C]⟩ .f32 :=
  subf (subf v (shift2 v hred hcast hbc hφ hmax))
    (broadcastTo ⟨2, ![R, C]⟩
      (log (shapeCast ⟨2, ![R, 1]⟩
        (multiReduction (F := Ideal) .add [1] ⟨1, ![R]⟩ (exp (subf v (shift2 v hred hcast hbc hφ hmax))) 0x00000000#32 hred hφ hadd)
        hcast)) hbc)

/-- THE CHAIN AT AN ENTRY: the log-softmax of row `p`, at `c`. -/
theorem lsmChain2_apply (p : Fin R) (c : Fin C) :
    lsmChain2 v hred hcast hbc hφ hmax hadd (ix2 p c) = lsm (fun c' : Fin C => v (ix2 p c')) c := by
  have hM : ∀ c' : Fin C, shift2 v hred hcast hbc hφ hmax (ix2 p c') = rowMax (fun c'' : Fin C => v (ix2 p c'')) :=
    fun c' => shift2_apply v hred hcast hbc hφ hmax p c'
  unfold lsmChain2 lsm
  refine congrArg₂ (fun x y : EReal => x - y) ?_ ?_
  · show v (ix2 p c) - shift2 v hred hcast hbc hφ hmax (ix2 p c) = _
    rw [hM c]
  · refine (broadcastTo_a1_ab_apply _ hbc p c).trans ?_
    show Ideal.log (shapeCast ⟨2, ![R, 1]⟩ _ hcast (ix2 p (0 : Fin 1))) = _
    refine congrArg Ideal.log ?_
    refine (shapeCast_a_a1_apply _ hcast p (0 : Fin 1)).trans ?_
    refine (Ideal.multiReduction_add_single _ _ hred hφ hadd (ix1 p)).trans ?_
    show ∑ k : Fin C, exp (subf v (shift2 v hred hcast hbc hφ hmax)) (hred.lift (ix1 p) k) = _
    refine Finset.sum_congr rfl fun k _ => ?_
    rw [lift2_last hred p k]
    show Ideal.exp (v (ix2 p k) - shift2 v hred hcast hbc hφ hmax (ix2 p k)) = _
    rw [hM k]

end Rank2

end Cert.Lib

end
-- ==== Proof.LibMatmulTransposedRhs.lean ====
/-
  A matrix product whose right operand is contracted on its LAST axis, into a zero accumulator, read at an entry, over
  the extended reals.

  For the dimension numbers `DotDims.transposedRhs M K N` (an `M × K` left operand, an `N × K` right operand, the
  columns of both contracted, no batch axis: the product of the left operand with the right one's transpose) entry
  `(p, q)` of the product accumulated into the zero matrix is `Σ_{k < K} l (p, k) * r (q, k)`: the contraction index
  has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem transposedRhs_lhsIdx (M K N : Nat) (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index there is `(q, k)`: its row is the output's column. -/
theorem transposedRhs_rhsIdx (M K N : Nat) (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- ENTRY `(p, q)` OF A PRODUCT WITH THE TRANSPOSE, INTO ZERO: the sum over `k : Fin K` of `l (p, k) * r (q, k)`. -/
theorem matmul_transposedRhs_zero_apply {φ₁ φ₂ : FTy} (M K N : Nat) (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.Lib

end
-- ==== Proof.LibScores.lean ====
/-
  A product with a transposed right operand, into zero, plus a bias row: the scores of a linear layer, read at an entry,
  over the extended reals.

  For an `M × K` left operand `l`, an `N × K` right operand `r` (contracted on its last axis) and a `1 × N` bias row `b`
  repeated over the `M` rows, entry `(p, q)` of `l · rᵀ + b` is `(Σ_{k < K} l (p, k) * r (q, k)) + b (0, q)`. The
  right operand and the bias row may each pass through a shape cast to their own shape, which changes nothing.
-/
import Idealize.ShloMosaic.PureOps.Ideal.Laws
import Idealize.ShloMosaic.Lib.ValueIdx
import Idealize.ShloMosaic.Lib.ValueLayout
import Idealize.ShloMosaic.Lib.Pipeline.Value
import proofs.«124225_j412316860848_2_alg».proof.Proof.LibMatmulTransposedRhs

noncomputable section

open scoped BigOperators

namespace Cert.Lib

open Idealize.ShloMosaic Idealize.ShloMosaic.ValueIdx

/-- A shape cast of an array to its own shape reads the array. -/
theorem shapeCast_self_apply {α : Type} {s : Shape} (x : s.Idx → α) (h : s.ShapeCasts s) (j : s.Idx) :
    shapeCast s x h j = x j :=
  shapeCast_apply x h j j rfl

/-- The scores `l · rᵀ + b` as the vector operations compute them: the product into the zero matrix, then the bias row
    broadcast over the rows and added. -/
def scores {φ₁ φ₂ : FTy} (M K N : ℕ) (l : FVec Ideal ⟨2, ![M, K]⟩ φ₁) (r : FVec Ideal ⟨2, ![N, K]⟩ φ₂)
    (b : FVec Ideal ⟨2, ![1, N]⟩ .f32)
    (hr : (⟨2, ![N, K]⟩ : Shape).ShapeCasts ⟨2, ![N, K]⟩) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  addf (matmul (DotDims.transposedRhs M K N) none l (shapeCast ⟨2, ![N, K]⟩ r hr) (constant ⟨2, ![M, N]⟩ .f32 0x00000000#32))
    (broadcastTo ⟨2, ![M, N]⟩ (shapeCast ⟨2, ![1, N]⟩ b hb) hbc)

/-- ENTRY `(p, q)` OF THE SCORES: the sum over `k` of `l (p, k) * r (q, k)`, plus the bias at `q`. -/
theorem scores_apply {φ₁ φ₂ : FTy} (M K N : ℕ) (l : FVec Ideal ⟨2, ![M, K]⟩ φ₁) (r : FVec Ideal ⟨2, ![N, K]⟩ φ₂)
    (b : FVec Ideal ⟨2, ![1, N]⟩ .f32)
    (hr : (⟨2, ![N, K]⟩ : Shape).ShapeCasts ⟨2, ![N, K]⟩) (hb : (⟨2, ![1, N]⟩ : Shape).ShapeCasts ⟨2, ![1, N]⟩)
    (hbc : (⟨2, ![1, N]⟩ : Shape).Broadcasts ⟨2, ![M, N]⟩) (p : Fin M) (q : Fin N) :
    scores M K N l r b hr hb hbc (ix2 p q) = (∑ k : Fin K, l (ix2 p k) * r (ix2 q k)) + b (ix2 (0 : Fin 1) q) := by
  unfold scores
  refine congrArg₂ (fun x y : EReal => x + y) ?_ ?_
  · refine (matmul_transposedRhs_zero_apply M K N none l _ p q).trans ?_
    refine Finset.sum_congr rfl fun k _ => ?_
    exact congrArg (fun y : EReal => l (ix2 p k) * y) (shapeCast_self_apply r hr (ix2 q k))
  · refine (broadcastTo_1b_ab_apply _ hbc p q).trans ?_
    exact shapeCast_self_apply b hb (ix2 (0 : Fin 1) q)

end Cert.Lib

end
-- ==== Proof.BodyLevel0.lean ====
/-
  The kernel body's level-0 value, read at an entry.

  The body multiplies the `[128, 2048]` block of inputs (narrowed to the weights' format, which changes no value here) by
  the transpose of the `[16, 2048]` level-0 weights, adds the bias row, and takes the stable log-softmax of each row of
  the `[128, 16]` scores. At row `p` and class `q` the result is the log-softmax, at `q`, of the sixteen scores
  `(Σ_k x (p, k) * w (q', k)) + b (0, q')`.
-/
import proofs.«124225_j412316860848_2_alg».proof.Proof.Gen.KernelIdeal.Skeleton
import proofs.«124225_j412316860848_2_alg».proof.Proof.Spec
import proofs.«124225_j412316860848_2_alg».proof.Proof.LibLogSoftmax
import proofs.«124225_j412316860848_2_alg».proof.Proof.LibScores

noncomputable section

open scoped BigOperators

namespace Cert.KernelIdeal.Body

open Idealize.ShloMosaic Idealize.ShloMosaic.ValueIdx
open Cert.KernelIdeal Cert.KernelIdeal.Gen Cert.HSoftmax

variable [Facts]

/-- The level-0 value is the log-softmax chain over the rows of the scores. -/
theorem pay2_eq_chain (v0 : Vec Ideal S128x2048 .f32) (v2 : Vec Ideal S16x2048 .bf16) (v5 : Vec Ideal S1x16 .f32) :
    k0_pay2 (F := Ideal) v0 v2 v5
      = Cert.Lib.lsmChain2
          (Cert.Lib.scores (φ₁ := .bf16) (φ₂ := .bf16) 128 2048 16 (k0_pay1 (F := Ideal) v0) v2 v5 Facts₀.shapeCasts_S16x2048_S16x2048
            Facts₀.shapeCasts_S1x16_S1x16 Facts₀.broadcasts_S1x16_S128x16)
          Facts₀.reduces_S128x16_S128 Facts₀.shapeCasts_S128_S128x1 Facts₀.broadcasts_S128x1_S128x16 (.inl rfl) rfl rfl :=
  rfl

/-- Row `p`, class `q` of the level-0 value: the log-softmax at `q` of the sixteen level-0 scores of row `p`. -/
theorem pay2_apply (v0 : Vec Ideal S128x2048 .f32) (v2 : Vec Ideal S16x2048 .bf16) (v5 : Vec Ideal S1x16 .f32)
    (p : Fin 128) (q : Fin 16) :
    k0_pay2 (F := Ideal) v0 v2 v5 (ix2 p q)
      = lsm (fun q' : Fin 16 => (∑ k : Fin 2048, v0 (ix2 p k) * v2 (ix2 q' k)) + v5 (ix2 (0 : Fin 1) q')) q := by
  rw [pay2_eq_chain]
  refine (Cert.Lib.lsmChain2_apply _ _ _ _ _ _ _ p q).trans ?_
  refine congrArg (fun f : Fin 16 → EReal => lsm f q) (funext fun q' => ?_)
  exact Cert.Lib.scores_apply (φ₁ := .bf16) (φ₂ := .bf16) 128 2048 16 _ v2 v5 _ _ _ p q'

end Cert.KernelIdeal.Body

end
-- ==== Proof.BodyLevel1.lean ====
/-
  The kernel body's level-1 value before the parent's term is added, read at an entry.

  The body multiplies the `[128, 2048]` block of inputs (narrowed to the weights' format, which changes no value here) by
  the transpose of the `[256, 2048]` level-1 weights, adds the bias row, splits the 256 columns parent by parent into
  `[128, 16, 16]` (row, parent, child) and takes the stable log-softmax along the child axis. At row `p`, parent `a` and
  child `c` the result is the log-softmax, at `c`, of the sixteen scores of the positions `16 a + c'`:
  `(Σ_k x (p, k) * w (16 a + c', k)) + b (0, 16 a + c')`.
-/
import proofs.«124225_j412316860848_2_alg».proof.Proof.Gen.KernelIdeal.Skeleton
import proofs.«124225_j412316860848_2_alg».proof.Proof.Spec
import proofs.«124225_j412316860848_2_alg».proof.Proof.LibSplitLast
import proofs.«124225_j412316860848_2_alg».proof.Proof.LibLogSoftmax
import proofs.«124225_j412316860848_2_alg».proof.Proof.LibScores

noncomputable section

open scoped BigOperators

namespace Cert.KernelIdeal.Body

open Idealize.ShloMosaic Idealize.ShloMosaic.ValueIdx
open Cert.KernelIdeal Cert.KernelIdeal.Gen Cert.HSoftmax

variable [Facts]

/-- The level-1 value is the log-softmax chain along the child axis of the scores split parent by parent. -/
theorem pay3_eq_chain (v0 : Vec Ideal S128x2048 .f32) (v21 : Vec Ideal S256x2048 .bf16) (v24 : Vec Ideal S1x256 .f32) :
    k0_pay3 (F := Ideal) v0 v21 v24
      = Cert.Lib.lsmChain3
          (shapeCast S128x16x16
            (Cert.Lib.scores (φ₁ := .bf16) (φ₂ := .bf16) 128 2048 256 (k0_pay1 (F := Ideal) v0) v21 v24
              Facts₀.shapeCasts_S256x2048_S256x2048 Facts₀.shapeCasts_S1x256_S1x256 Facts₀.broadcasts_S1x256_S128x256)
            Facts₀.shapeCasts_S128x256_S128x16x16)
          Facts₀.reduces_S128x16x16_S128x16 Facts₀.shapeCasts_S128x16_S128x16x1 Facts₀.broadcasts_S128x16x1_S128x16x16
          (.inl rfl) rfl rfl :=
  rfl

/-- Row `p`, parent `a`, child `c` of the level-1 value: the log-softmax at `c` of the sixteen level-1 scores under `a`. -/
theorem pay3_apply (v0 : Vec Ideal S128x2048 .f32) (v21 : Vec Ideal S256x2048 .bf16) (v24 : Vec Ideal S1x256 .f32)
    (p : Fin 128) (a c : Fin 16) :
    k0_pay3 (F := Ideal) v0 v21 v24 (ix3 p a c)
      = lsm (fun c' : Fin 16 => (∑ k : Fin 2048, v0 (ix2 p k) * v21 (ix2 (child a c') k))
          + v24 (ix2 (0 : Fin 1) (child a c'))) c := by
  rw [pay3_eq_chain]
  refine (Cert.Lib.lsmChain3_apply _ _ _ _ _ _ _ p a c).trans ?_
  refine congrArg (fun f : Fin 16 → EReal => lsm f c) (funext fun c' => ?_)
  refine (Cert.Lib.shapeCast_aN_abc_apply (by norm_num) _ _ p a c' (child a c') rfl).trans ?_
  exact Cert.Lib.scores_apply (φ₁ := .bf16) (φ₂ := .bf16) 128 2048 256 _ v21 v24 _ _ _ p (child a c')

end Cert.KernelIdeal.Body

end
-- ==== Proof.BodyLevel1Sum.lean ====
/-
  The kernel body's value stored as the level-1 log-probabilities, read at an entry.

  The body adds, to the array of level-1 log-softmaxes `[128, 16, 16]` (row, parent, child), the level-0 log-probability
  of the parent — the `[128, 16]` array viewed as `[128, 16, 1]` and repeated along the child axis — and merges the two
  class axes into one of 256 positions, parent by parent. At row `p` and position `16 a + c` the result is the entry
  `(p, a, c)` of the first array plus the entry `(p, a)` of the second.
-/
import proofs.«124225_j412316860848_2_alg».proof.Proof.Gen.KernelIdeal.Skeleton
import proofs.«124225_j412316860848_2_alg».proof.Proof.Spec
import proofs.«124225_j412316860848_2_alg».proof.Proof.LibSplitLast

noncomputable section

namespace Cert.KernelIdeal.Body

open Idealize.ShloMosaic Idealize.ShloMosaic.ValueIdx
open Cert.KernelIdeal Cert.KernelIdeal.Gen Cert.HSoftmax

variable [Facts]

/-- Row `p`, position `16 a + c` of the stored level-1 array: the level-1 term at `(p, a, c)` plus the parent's term at `(p, a)`. -/
theorem pay4_apply (v20 : FVec Ideal S128x16 .f32) (v40 : FVec Ideal S128x16x16 .f32) (p : Fin 128) (a c : Fin 16) :
    k0_pay4 (F := Ideal) v20 v40 (ix2 p (child a c)) = v40 (ix3 p a c) + v20 (ix2 p a) := by
  unfold k0_pay4
  refine (shapeCast_apply _ _ _ (ix2 p (child a c)) rfl).trans ?_
  refine (Cert.Lib.shapeCast_abc_aN_apply (by norm_num) _ _ p a c (child a c) rfl).trans ?_
  show v40 (ix3 p a c) + broadcastTo S128x16x16 _ _ (ix3 p a c) = _
  refine congrArg (fun y : EReal => v40 (ix3 p a c) + y) ?_
  refine (Cert.Lib.broadcastTo_ab1_abc_apply _ _ p a c).trans ?_
  exact Cert.Lib.shapeCast_ab_ab1_apply _ _ p a (0 : Fin 1)

end Cert.KernelIdeal.Body

end
-- ==== Proof.BodyLevel2.lean ====
/-
  The kernel body's level-2 value, read at an entry.

  The body multiplies the `[128, 2048]` block of inputs (already in the weights' format) by the transpose of the
  `[4096, 2048]` level-2 weights, adds the bias row, splits the 4096 columns into `[128, 256, 16]` (row, level-1 class,
  child), takes the stable log-softmax along the child axis, adds the level-1 log-probability of the class — the
  `[128, 256]` array viewed as `[128, 256, 1]` and repeated along the child axis — and merges the two class axes back
  into 4096 positions. At row `p` and position `16 r + s` the result is the log-softmax, at `s`, of the sixteen scores of
  the positions `16 r + s'`, `(Σ_k x (p, k) * w (16 r + s', k)) + b (0, 16 r + s')`, plus the entry `(p, r)` of the level-1
  array.
-/
import proofs.«124225_j412316860848_2_alg».proof.Proof.Gen.KernelIdeal.Skeleton
import proofs.«124225_j412316860848_2_alg».proof.Proof.Spec
import proofs.«124225_j412316860848_2_alg».proof.Proof.LibSplitLast
import proofs.«124225_j412316860848_2_alg».proof.Proof.LibLogSoftmax
import proofs.«124225_j412316860848_2_alg».proof.Proof.LibScores

noncomputable section

open scoped BigOperators

namespace Cert.KernelIdeal.Body

open Idealize.ShloMosaic Idealize.ShloMosaic.ValueIdx
open Cert.KernelIdeal Cert.KernelIdeal.Gen Cert.HSoftmax

variable [Facts]

/-- The level-2 value: the log-softmax chain along the child axis of the scores split class by class, plus the level-1
    array repeated along the child axis, merged back. -/
theorem pay5_eq_chain (v1 : FVec Ideal S128x2048 .bf16) (v48 : Vec Ideal S128x256 .f32) (v49 : Vec Ideal S4096x2048 .bf16)
    (v52 : Vec Ideal S1x4096 .f32) :
    k0_pay5 (F := Ideal) v1 v48 v49 v52
      = shapeCast S128x4096
          (addf
            (Cert.Lib.lsmChain3
              (shapeCast S128x256x16
                (Cert.Lib.scores (φ₁ := .bf16) (φ₂ := .bf16) 128 2048 4096 v1 v49 v52
                  Facts₀.shapeCasts_S4096x2048_S4096x2048 Facts₀.shapeCasts_S1x4096_S1x4096 Facts₀.broadcasts_S1x4096_S128x4096)
                Facts₀.shapeCasts_S128x4096_S128x256x16)
              Facts₀.reduces_S128x256x16_S128x256 Facts₀.shapeCasts_S128x256_S128x256x1
              Facts₀.broadcasts_S128x256x1_S128x256x16 (.inl rfl) rfl rfl)
            (broadcastTo S128x256x16 (shapeCast S128x256x1 v48 Facts₀.shapeCasts_S128x256_S128x256x1)
              Facts₀.broadcasts_S128x256x1_S128x256x16))
          Facts₀.shapeCasts_S128x256x16_S128x4096 :=
  rfl

/-- Row `p`, position `16 r + s` of the level-2 value: the log-softmax at `s` of the sixteen level-2 scores under class
    `r`, plus the level-1 term at `(p, r)`. -/
theorem pay5_apply (v1 : FVec Ideal S128x2048 .bf16) (v48 : Vec Ideal S128x256 .f32) (v49 : Vec Ideal S4096x2048 .bf16)
    (v52 : Vec Ideal S1x4096 .f32) (p : Fin 128) (r : Fin 256) (s : Fin 16) :
    k0_pay5 (F := Ideal) v1 v48 v49 v52 (ix2 p (child r s))
      = lsm (fun s' : Fin 16 => (∑ k : Fin 2048, v1 (ix2 p k) * v49 (ix2 (child r s') k))
          + v52 (ix2 (0 : Fin 1) (child r s'))) s + v48 (ix2 p r) := by
  rw [pay5_eq_chain]
  refine (Cert.Lib.shapeCast_abc_aN_apply (by norm_num) _ _ p r s (child r s) rfl).trans ?_
  refine congrArg₂ (fun x y : EReal => x + y) ?_ ?_
  · refine (Cert.Lib.lsmChain3_apply _ _ _ _ _ _ _ p r s).trans ?_
    refine congrArg (fun f : Fin 16 → EReal => lsm f s) (funext fun s' => ?_)
    refine (Cert.Lib.shapeCast_aN_abc_apply (by norm_num) _ _ p r s' (child r s') rfl).trans ?_
    exact Cert.Lib.scores_apply (φ₁ := .bf16) (φ₂ := .bf16) 128 2048 4096 v1 v49 v52 _ _ _ p (child r s')
  · refine (Cert.Lib.broadcastTo_ab1_abc_apply _ _ p r s).trans ?_
    exact Cert.Lib.shapeCast_ab_ab1_apply _ _ p r (0 : Fin 1)

end Cert.KernelIdeal.Body

end
-- ==== Proof.KernelBlock.lean ====
/-
  The kernel body's three blocks are the specification's log-probabilities of the block's rows.

  From the entry-by-entry reading of the body's arithmetic: the level-0 block at `(p, q)` is the log-softmax of row `p`'s
  level-0 scores at `q`; the level-1 block at `(p, 16 a + c)` is the log-softmax among the children of `a` at `c` plus the
  level-0 entry `(p, a)`; the level-2 block at `(p, 16 r + s)` is the log-softmax among the children of `r` at `s` plus
  the level-1 entry `(p, r)`. With the staged data identified with the arguments, these are `lp0`, `lp1`, `lp2` of row
  `128 t + p`. A column `n` of the level-1 (level-2) block is child `n % 16` of parent `n / 16`.
-/
import proofs.«124225_j412316860848_2_alg».proof.Proof.Pieces
import proofs.«124225_j412316860848_2_alg».proof.Proof.BlockValue
import proofs.«124225_j412316860848_2_alg».proof.Proof.BodyLevel0
import proofs.«124225_j412316860848_2_alg».proof.Proof.BodyLevel1
import proofs.«124225_j412316860848_2_alg».proof.Proof.BodyLevel1Sum
import proofs.«124225_j412316860848_2_alg».proof.Proof.BodyLevel2

noncomputable section

open scoped BigOperators

namespace Cert.KernelIdeal.Block

open Cert.KernelIdeal Cert.KernelIdeal.Gen Idealize.ShloMosaic Idealize.ShloMosaic.TcCoe Idealize.ShloMosaic.Tactic Idealize.SL.Sem Idealize.ShloMosaic.ValueIdx Cert.HSoftmax Cert.KernelIdeal.Pieces Cert.KernelIdeal.Body

section
variable (X : (⟨2, ![4096, 2048]⟩ : Shape).Idx → EReal)
  (W0 : (⟨2, ![16, 2048]⟩ : Shape).Idx → EReal) (B0 : (⟨1, ![16]⟩ : Shape).Idx → EReal)
  (W1 : (⟨3, ![16, 16, 2048]⟩ : Shape).Idx → EReal) (B1 : (⟨2, ![16, 16]⟩ : Shape).Idx → EReal)
  (W2 : (⟨3, ![256, 16, 2048]⟩ : Shape).Idx → EReal) (B2 : (⟨2, ![256, 16]⟩ : Shape).Idx → EReal)
variable (t : Fin 32)
  (X0 : Vec Ideal S128x2048 .f32) (X1 : Vec Ideal S16x2048 .bf16) (X2 : Vec Ideal S1x16 .f32)
  (X3 : Vec Ideal S256x2048 .bf16) (X4 : Vec Ideal S1x256 .f32) (X5 : Vec Ideal S4096x2048 .bf16)
  (X6 : Vec Ideal S1x4096 .f32)

theorem L0_apply (hX0 : ∀ p k, X0 (ix2 p k) = X (ix2 (row t p) k)) (hX1 : ∀ q k, X1 (ix2 q k) = W0 (ix2 q k))
    (hX2 : ∀ q, X2 (ix2 (0 : Fin 1) q) = B0 (ix1 q)) (p : Fin 128) (q : Fin 16) :
    L0 (F := Ideal) X0 X1 X2 (ix2 p q) = lp0 X W0 B0 (row t p) q :=
  (pay2_apply X0 X1 X2 p q).trans (block_lp0 X W0 B0 t X0 X1 X2 hX0 hX1 hX2 p q)

theorem L1_apply (hX0 : ∀ p k, X0 (ix2 p k) = X (ix2 (row t p) k)) (hX1 : ∀ q k, X1 (ix2 q k) = W0 (ix2 q k))
    (hX2 : ∀ q, X2 (ix2 (0 : Fin 1) q) = B0 (ix1 q))
    (hX3 : ∀ (a c : Fin 16) k, X3 (ix2 (child a c : Fin 256) k) = W1 (ix3 a c k))
    (hX4 : ∀ a c : Fin 16, X4 (ix2 (0 : Fin 1) (child a c : Fin 256)) = B1 (ix2 a c)) (p : Fin 128) (n : Fin 256) :
    L1 (F := Ideal) X0 X1 X2 X3 X4 (ix2 p n)
      = lp1 X W0 B0 W1 B1 (row t p) (parent (m := 16) n) (sibling (m := 16) n) := by
  have key : ∀ a c : Fin 16, L1 (F := Ideal) X0 X1 X2 X3 X4 (ix2 p (child a c : Fin 256)) = lp1 X W0 B0 W1 B1 (row t p) a c := by
    intro a c
    refine (pay4_apply (L0 (F := Ideal) X0 X1 X2) (k0_pay3 (F := Ideal) X0 X3 X4) p a c).trans ?_
    rw [pay3_apply X0 X3 X4 p a c]
    exact block_lp1 X W0 B0 W1 B1 t X0 X3 X4 hX0 hX3 hX4 p a c _ (L0_apply X W0 B0 t X0 X1 X2 hX0 hX1 hX2 p a)
  have h := key (parent (m := 16) n) (sibling (m := 16) n)
  rwa [child_parent_sibling (m := 16) n] at h

theorem L2_apply (hX0 : ∀ p k, X0 (ix2 p k) = X (ix2 (row t p) k)) (hX1 : ∀ q k, X1 (ix2 q k) = W0 (ix2 q k))
    (hX2 : ∀ q, X2 (ix2 (0 : Fin 1) q) = B0 (ix1 q))
    (hX3 : ∀ (a c : Fin 16) k, X3 (ix2 (child a c : Fin 256) k) = W1 (ix3 a c k))
    (hX4 : ∀ a c : Fin 16, X4 (ix2 (0 : Fin 1) (child a c : Fin 256)) = B1 (ix2 a c))
    (hX5 : ∀ (r : Fin 256) (s : Fin 16) k, X5 (ix2 (child r s : Fin 4096) k) = W2 (ix3 r s k))
    (hX6 : ∀ (r : Fin 256) (s : Fin 16), X6 (ix2 (0 : Fin 1) (child r s : Fin 4096)) = B2 (ix2 r s)) (p : Fin 128) (n : Fin 4096) :
    L2 (F := Ideal) X0 X1 X2 X3 X4 X5 X6 (ix2 p n)
      = lp2 X W0 B0 W1 B1 W2 B2 (row t p) (parent (m := 256) n) (sibling (m := 256) n) := by
  have key : ∀ (r : Fin 256) (s : Fin 16), L2 (F := Ideal) X0 X1 X2 X3 X4 X5 X6 (ix2 p (child r s : Fin 4096))
      = lp2 X W0 B0 W1 B1 W2 B2 (row t p) r s := by
    intro r s
    refine (pay5_apply (k0_pay1 (F := Ideal) X0) (L1 (F := Ideal) X0 X1 X2 X3 X4) X5 X6 p r s).trans ?_
    exact block_lp2 X W0 B0 W1 B1 W2 B2 t X0 X5 X6 hX0 hX5 hX6 p r s _
      (L1_apply X W0 B0 W1 B1 t X0 X1 X2 X3 X4 hX0 hX1 hX2 hX3 hX4 p r)
  have h := key (parent (m := 256) n) (sibling (m := 256) n)
  rwa [child_parent_sibling (m := 256) n] at h

end

end Cert.KernelIdeal.Block

end
-- ==== Proof.LibRowOfMatrix.lean ====
/-
  A matrix laid out as one row, read at an entry.

  A shape cast keeps the row-major position of every element, so an `[a, b]` array cast to `[1, a·b]` has, at column
  `i·b + j` of its one row, the entry `(i, j)` of the array.
-/
import Idealize.ShloMosaic.Lib.Pipeline.Value
import Idealize.ShloMosaic.Lib.ValueIdx

namespace Cert.Lib

open Idealize.ShloMosaic Idealize.ShloMosaic.ValueIdx

variable {α : Type}

/-- An `[a, b]` array cast to `[1, n]` with `n = a·b` reads, at `(u, i·b + j)`, the operand at `(i, j)`. -/
theorem shapeCast_ab_1n_apply {n a b : ℕ} (x : (⟨2, ![a, b]⟩ : Shape).Idx → α)
    (h : (⟨2, ![a, b]⟩ : Shape).ShapeCasts ⟨2, ![1, n]⟩) (u : Fin 1) (i : Fin a) (j : Fin b) (q : Fin n)
    (hq : q.val = i.val * b + j.val) :
    shapeCast ⟨2, ![1, n]⟩ x h (ix2 u q) = x (ix2 i j) :=
  shapeCast_apply x h _ _ (by
    have hu : u.val = 0 := by omega
    rw [Shape.rowMajor_val_two, Shape.rowMajor_val_two]
    show i.val * b + j.val = u.val * n + q.val
    rw [hu, Nat.zero_mul, Nat.zero_add, hq])

/-- An `[a, b, c]` array cast to `[n, c]` with `n = a·b` reads, at `(q, k)` with `q = i·b + j`, the operand at `(i, j, k)`. -/
theorem shapeCast_abc_nc_at {n a b c : ℕ} (x : (⟨3, ![a, b, c]⟩ : Shape).Idx → α)
    (h : (⟨3, ![a, b, c]⟩ : Shape).ShapeCasts ⟨2, ![n, c]⟩) (i : Fin a) (j : Fin b) (k : Fin c) (q : Fin n)
    (hq : q.val = i.val * b + j.val) :
    shapeCast ⟨2, ![n, c]⟩ x h (ix2 q k) = x (ix3 i j k) :=
  shapeCast_apply x h _ _ (by
    rw [Shape.rowMajor_val_three, Shape.rowMajor_val_two]
    show (i.val * b + j.val) * c + k.val = q.val * c + k.val
    rw [hq])

end Cert.Lib
-- ==== Proof.HostPrefix.lean ====
/-
  The arrays the kernel's windows stage, as the region finds them, in terms of the arguments.

  Before the region the host casts the three weight arrays to bf16 (the identity on extended reals), flattens the
  per-parent weights `W1 [16,16,2048]` and `W2 [256,16,2048]` to matrices with one row per class (`16 p + q`), and lays
  each bias out as one row. So the staged level-0 weights are `W0`; row `16 p + q` of the staged level-1 weights is
  `W1 (p, q, ·)`; row `16 r + s` of the staged level-2 weights is `W2 (r, s, ·)`; and the staged bias rows hold
  `b0 p`, `b1 (p, q)` at column `16 p + q`, `b2 (r, s)` at column `16 r + s`.
-/
import proofs.«124225_j412316860848_2_alg».proof.Proof.Gen.KernelIdeal.Frame
import proofs.«124225_j412316860848_2_alg».proof.Proof.LibRowOfMatrix
import proofs.«124225_j412316860848_2_alg».proof.Proof.Spec
import Idealize.ShloMosaic.Lib.ValueLayout
import Idealize.ShloMosaic.Lib.StableHlo.Run

noncomputable section

open scoped BigOperators

namespace Cert.KernelIdeal.HostPrefix

open Cert.KernelIdeal Cert.KernelIdeal.Gen Idealize.ShloMosaic Idealize.ShloMosaic.TcCoe Idealize.ShloMosaic.Tactic Idealize.SL.Sem Idealize.ShloMosaic.ValueIdx Idealize.ShloMosaic.StableHlo Cert.HSoftmax

variable (m : (ℓ : Loc nD τ sig) → Buf (Elt Ideal) ℓ)

/-- The staged level-0 weights are the bf16 cast of `W0`. -/
theorem V_v0 (c : Dev nD) :
    (V m c main_v0 : S16x2048.Idx → EReal) = (truncf (F := Ideal) (s := S16x2048) (φ := .f32) .bf16 (m ((c : Thread nD τ).loc main_arg1) : S16x2048.Idx → EReal) bitsLt_bf16_f32 : S16x2048.Idx → EReal) := by
  dsimp only [V, hostOps0]; after_results <;> rfl

theorem V_v2 (c : Dev nD) :
    (V m c main_v2 : S256x2048.Idx → EReal)
      = (truncf (F := Ideal) (s := S256x2048) (φ := .f32) .bf16 (shapeCast S256x2048 (m ((c : Thread nD τ).loc main_arg3) : S16x16x2048.Idx → EReal) shapeCasts_S16x16x2048_S256x2048) bitsLt_bf16_f32 : S256x2048.Idx → EReal) := by
  dsimp only [V, hostOps0]; after_results <;> rfl

theorem V_v4 (c : Dev nD) :
    (V m c main_v4 : S4096x2048.Idx → EReal)
      = (truncf (F := Ideal) (s := S4096x2048) (φ := .f32) .bf16 (shapeCast S4096x2048 (m ((c : Thread nD τ).loc main_arg5) : S256x16x2048.Idx → EReal) shapeCasts_S256x16x2048_S4096x2048) bitsLt_bf16_f32 : S4096x2048.Idx → EReal) := by
  dsimp only [V, hostOps0]; after_results <;> rfl

theorem V_v5 (c : Dev nD) :
    (V m c main_v5 : S1x16.Idx → EReal) = shapeCast S1x16 (m ((c : Thread nD τ).loc main_arg2) : S16.Idx → EReal) shapeCasts_S16_S1x16 := by
  dsimp only [V, hostOps0]; after_results <;> rfl

theorem V_v6 (c : Dev nD) :
    (V m c main_v6 : S1x256.Idx → EReal) = shapeCast S1x256 (m ((c : Thread nD τ).loc main_arg4) : S16x16.Idx → EReal) shapeCasts_S16x16_S1x256 := by
  dsimp only [V, hostOps0]; after_results <;> rfl

theorem V_v7 (c : Dev nD) :
    (V m c main_v7 : S1x4096.Idx → EReal) = shapeCast S1x4096 (m ((c : Thread nD τ).loc main_arg6) : S256x16.Idx → EReal) shapeCasts_S256x16_S1x4096 := by
  dsimp only [V, hostOps0]; after_results <;> rfl

/-! ## Entry by entry -/

theorem V_v0_apply (c : Dev nD) (q : Fin 16) (k : Fin 2048) :
    (V m c main_v0 : S16x2048.Idx → EReal) (ix2 q k) = (m ((c : Thread nD τ).loc main_arg1) : S16x2048.Idx → EReal) (ix2 q k) := by
  rw [V_v0]; rfl

theorem V_v5_apply (c : Dev nD) (u : Fin 1) (q : Fin 16) :
    (V m c main_v5 : S1x16.Idx → EReal) (ix2 u q) = (m ((c : Thread nD τ).loc main_arg2) : S16.Idx → EReal) (ix1 q) := by
  rw [V_v5]; exact shapeCast_a_1a_apply _ _ u q

theorem V_v2_apply (c : Dev nD) (a q : Fin 16) (k : Fin 2048) :
    (V m c main_v2 : S256x2048.Idx → EReal) (ix2 (child a q : Fin 256) k) = (m ((c : Thread nD τ).loc main_arg3) : S16x16x2048.Idx → EReal) (ix3 a q k) := by
  rw [V_v2]; exact Cert.Lib.shapeCast_abc_nc_at _ _ a q k _ rfl

theorem V_v6_apply (c : Dev nD) (u : Fin 1) (a q : Fin 16) :
    (V m c main_v6 : S1x256.Idx → EReal) (ix2 u (child a q : Fin 256)) = (m ((c : Thread nD τ).loc main_arg4) : S16x16.Idx → EReal) (ix2 a q) := by
  rw [V_v6]; exact Cert.Lib.shapeCast_ab_1n_apply _ _ u a q _ rfl

theorem V_v4_apply (c : Dev nD) (r : Fin 256) (s : Fin 16) (k : Fin 2048) :
    (V m c main_v4 : S4096x2048.Idx → EReal) (ix2 (child r s : Fin 4096) k) = (m ((c : Thread nD τ).loc main_arg5) : S256x16x2048.Idx → EReal) (ix3 r s k) := by
  rw [V_v4]; exact Cert.Lib.shapeCast_abc_nc_at _ _ r s k _ rfl

theorem V_v7_apply (c : Dev nD) (u : Fin 1) (r : Fin 256) (s : Fin 16) :
    (V m c main_v7 : S1x4096.Idx → EReal) (ix2 u (child r s : Fin 4096)) = (m ((c : Thread nD τ).loc main_arg6) : S256x16.Idx → EReal) (ix2 r s) := by
  rw [V_v7]; exact Cert.Lib.shapeCast_ab_1n_apply _ _ u r s _ rfl

end Cert.KernelIdeal.HostPrefix

end
-- ==== Proof.Overlay.lean ====
/-
  The side-by-side output block as an overlay of three stored pieces.

  A [128,4368] block receives a [128,16] piece at columns 0–15, a [128,256] piece at columns 16–271 and a [128,4096]
  piece at columns 272–4367. If the pieces hold the three levels of log-probabilities of the block's rows, then entry
  `(p, n)` of the overlay is column `n` of the side-by-side result for row `128 t + p`: each column lies in exactly the
  piece its range names.
-/
import proofs.«124225_j412316860848_2_alg».proof.Proof.Pieces
import proofs.«124225_j412316860848_2_alg».proof.Proof.BlockValue

noncomputable section

open scoped BigOperators

namespace Cert.KernelIdeal.Overlay

open Cert.KernelIdeal Cert.KernelIdeal.Gen Idealize.ShloMosaic Idealize.ShloMosaic.TcCoe Idealize.ShloMosaic.Tactic Idealize.SL.Sem Idealize.ShloMosaic.ValueIdx Cert.HSoftmax

section
variable (X : (⟨2, ![4096, 2048]⟩ : Shape).Idx → EReal)
  (W0 : (⟨2, ![16, 2048]⟩ : Shape).Idx → EReal) (B0 : (⟨1, ![16]⟩ : Shape).Idx → EReal)
  (W1 : (⟨3, ![16, 16, 2048]⟩ : Shape).Idx → EReal) (B1 : (⟨2, ![16, 16]⟩ : Shape).Idx → EReal)
  (W2 : (⟨3, ![256, 16, 2048]⟩ : Shape).Idx → EReal) (B2 : (⟨2, ![256, 16]⟩ : Shape).Idx → EReal)
variable (t : Fin 32)

/-- Entry `(p, n)` of the overlay is column `n` of the side-by-side result for row `128 t + p`. -/
theorem overlay_apply (P2 : S128x4096.Idx → EReal) (P1 : S128x256.Idx → EReal) (P0 : S128x16.Idx → EReal)
    (h0 : ∀ (p : Fin 128) (q : Fin 16), P0 (ix2 p q) = lp0 X W0 B0 (row t p) q)
    (h1 : ∀ (p : Fin 128) (n : Fin 256), P1 (ix2 p n) = lp1 X W0 B0 W1 B1 (row t p) (parent (m := 16) n) (sibling (m := 16) n))
    (h2 : ∀ (p : Fin 128) (n : Fin 4096), P2 (ix2 p n) = lp2 X W0 B0 W1 B1 W2 B2 (row t p) (parent (m := 256) n) (sibling (m := 256) n))
    (y : S128x4368.Idx) :
    View.canon (Val := Elt Ideal) [(⟨Rect.unit (s := S128x4368) ![0, 272] S128x4096.size inb_S128x4368_S128x4096_0_272, P2⟩ : View.Piece (Elt Ideal) S128x4368 .f32),
        ⟨Rect.unit (s := S128x4368) ![0, 16] S128x256.size inb_S128x4368_S128x256_0_16, P1⟩,
        ⟨Rect.unit (s := S128x4368) ![0, 0] S128x16.size inb_S128x4368_S128x16_0_0, P0⟩] y
      = allAt X W0 B0 W1 B1 W2 B2 (row t (y 0)) (y 1).val := by
  refine View.canon_apply_of_pieces (Val := Elt Ideal) (S := S128x4368) (e := .f32) (fun y : S128x4368.Idx => allAt X W0 B0 W1 B1 W2 B2 (row t (y 0)) (y 1).val) _ ?_ y ?_
  · intro pc hpc x
    rcases List.mem_cons.mp hpc with rfl | hpc
    · -- the level-2 piece
      obtain ⟨p, n, rfl⟩ : ∃ (p : Fin 128) (n : Fin 4096), x = ix2 p n := ⟨x 0, x 1, eq_ix2 x⟩
      show P2 (ix2 p n) = allAt X W0 B0 W1 B1 W2 B2 (row t ⟨0 + 1 * p.val, _⟩) (272 + 1 * n.val)
      rw [h2 p n, ← allAt_high X W0 B0 W1 B1 W2 B2 (row t p) n]
      exact allAt_congr X W0 B0 W1 B1 W2 B2 (by show t.val * 128 + p.val = t.val * 128 + (0 + 1 * p.val); omega) (by omega)
    rcases List.mem_cons.mp hpc with rfl | hpc
    · -- the level-1 piece
      obtain ⟨p, n, rfl⟩ : ∃ (p : Fin 128) (n : Fin 256), x = ix2 p n := ⟨x 0, x 1, eq_ix2 x⟩
      show P1 (ix2 p n) = allAt X W0 B0 W1 B1 W2 B2 (row t ⟨0 + 1 * p.val, _⟩) (16 + 1 * n.val)
      rw [h1 p n, ← allAt_mid X W0 B0 W1 B1 W2 B2 (row t p) n]
      exact allAt_congr X W0 B0 W1 B1 W2 B2 (by show t.val * 128 + p.val = t.val * 128 + (0 + 1 * p.val); omega) (by omega)
    · -- the level-0 piece
      obtain rfl := List.mem_singleton.mp hpc
      obtain ⟨p, n, rfl⟩ : ∃ (p : Fin 128) (n : Fin 16), x = ix2 p n := ⟨x 0, x 1, eq_ix2 x⟩
      show P0 (ix2 p n) = allAt X W0 B0 W1 B1 W2 B2 (row t ⟨0 + 1 * p.val, _⟩) (0 + 1 * n.val)
      rw [h0 p n, ← allAt_low X W0 B0 W1 B1 W2 B2 (row t p) n]
      exact allAt_congr X W0 B0 W1 B1 W2 B2 (by show t.val * 128 + p.val = t.val * 128 + (0 + 1 * p.val); omega) (by omega)
  · -- every column lies in one of the three ranges
    have hy0 : (y 0).val < 128 := (y 0).isLt
    have hy1 : (y 1).val < 4368 := (y 1).isLt
    by_cases c2 : 272 ≤ (y 1).val
    · refine ⟨(⟨Rect.unit (s := S128x4368) ![0, 272] S128x4096.size inb_S128x4368_S128x4096_0_272, P2⟩ : View.Piece (Elt Ideal) S128x4368 .f32), List.mem_cons_self, (Rect.mem_set_unit (inb := inb_S128x4368_S128x4096_0_272)).mpr fun a => ?_⟩
      match a with
      | ⟨0, _⟩ => exact ⟨Nat.zero_le _, by show (y 0).val < 0 + 128; omega⟩
      | ⟨1, _⟩ => exact ⟨c2, by show (y 1).val < 272 + 4096; omega⟩
    by_cases c1 : 16 ≤ (y 1).val
    · refine ⟨(⟨Rect.unit (s := S128x4368) ![0, 16] S128x256.size inb_S128x4368_S128x256_0_16, P1⟩ : View.Piece (Elt Ideal) S128x4368 .f32), List.mem_cons_of_mem _ List.mem_cons_self, (Rect.mem_set_unit (inb := inb_S128x4368_S128x256_0_16)).mpr fun a => ?_⟩
      match a with
      | ⟨0, _⟩ => exact ⟨Nat.zero_le _, by show (y 0).val < 0 + 128; omega⟩
      | ⟨1, _⟩ => exact ⟨c1, by show (y 1).val < 16 + 256; omega⟩
    · refine ⟨(⟨Rect.unit (s := S128x4368) ![0, 0] S128x16.size inb_S128x4368_S128x16_0_0, P0⟩ : View.Piece (Elt Ideal) S128x4368 .f32), List.mem_cons_of_mem _ (List.mem_cons_of_mem _ List.mem_cons_self), (Rect.mem_set_unit (inb := inb_S128x4368_S128x16_0_0)).mpr fun a => ?_⟩
      match a with
      | ⟨0, _⟩ => exact ⟨Nat.zero_le _, by show (y 0).val < 0 + 128; omega⟩
      | ⟨1, _⟩ => exact ⟨Nat.zero_le _, by show (y 1).val < 0 + 16; omega⟩

end

end Cert.KernelIdeal.Overlay

end
-- ==== Proof.KernelArray.lean ====
/-
  The kernel's two result arrays after the run, as functions of its arguments.

  Grid point `t` (of 32) stages rows `128 t … 128 t + 127` of `x` and the whole of every weight and bias array, runs the
  body on them, and writes the body's two output blocks back to rows `128 t …` of the two result arrays. The body's blocks
  are the specification's log-probabilities of those rows, so what point `t` writes back is block `t` of the
  specification's arrays; the 32 blocks cover all 4096 rows; hence each result array is the specification's array.
-/
import proofs.«124225_j412316860848_2_alg».proof.Proof.Gen.KernelIdeal.Value
import proofs.«124225_j412316860848_2_alg».proof.Proof.KernelBlock
import proofs.«124225_j412316860848_2_alg».proof.Proof.HostPrefix
import proofs.«124225_j412316860848_2_alg».proof.Proof.Overlay

noncomputable section

open scoped BigOperators

namespace Cert.KernelIdeal.KValue

open Cert.KernelIdeal Cert.KernelIdeal.Gen Idealize.ShloMosaic Idealize.ShloMosaic.TcCoe Idealize.ShloMosaic.Tactic Idealize.SL.Sem Idealize.ShloMosaic.ValueIdx Cert.HSoftmax Cert.KernelIdeal.Pieces Cert.KernelIdeal.HostPrefix Cert.KernelIdeal.Value
open Idealize.ShloMosaic.Pipeline (Dat)

variable (m : (ℓ : Loc nD τ sig) → Buf (Elt Ideal) ℓ) (ρ : Dev nD → PrngReg)

/-! ## The arguments, and the specification's arrays of them -/

abbrev aX (c : Dev nD) : S4096x2048.Idx → EReal := m ((c : Thread nD τ).loc main_arg0)
abbrev aW0 (c : Dev nD) : S16x2048.Idx → EReal := m ((c : Thread nD τ).loc main_arg1)
abbrev aB0 (c : Dev nD) : S16.Idx → EReal := m ((c : Thread nD τ).loc main_arg2)
abbrev aW1 (c : Dev nD) : S16x16x2048.Idx → EReal := m ((c : Thread nD τ).loc main_arg3)
abbrev aB1 (c : Dev nD) : S16x16.Idx → EReal := m ((c : Thread nD τ).loc main_arg4)
abbrev aW2 (c : Dev nD) : S256x16x2048.Idx → EReal := m ((c : Thread nD τ).loc main_arg5)
abbrev aB2 (c : Dev nD) : S256x16.Idx → EReal := m ((c : Thread nD τ).loc main_arg6)

/-- The side-by-side result the specification assigns to the launch contents. -/
abbrev GAll (c : Dev nD) : S4096x4368.Idx → EReal :=
  outAll (aX m c) (aW0 m c) (aB0 m c) (aW1 m c) (aB1 m c) (aW2 m c) (aB2 m c)

/-- The last-level result the specification assigns to the launch contents. -/
abbrev GLast (c : Dev nD) : S4096x4096.Idx → EReal :=
  outLast (aX m c) (aW0 m c) (aB0 m c) (aW1 m c) (aB1 m c) (aW2 m c) (aB2 m c)

/-! ## The index maps over the grid -/

/-- Point `t` stages block row `t` of `x` and of the two results, and block `(0, 0)` of everything else. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- A grid point as a number below 32. -/
def pt (t : Fin cfg0.N) : Fin 32 := ⟨t.val, by have h := t.isLt; have e : cfg0.N = 32 := N_0; omega⟩

/-! ## The input blocks at a point, entry by entry -/

theorem iblk0_apply (c : Dev nD) (t : Fin cfg0.N) (p : Fin 128) (k : Fin 2048) :
    (iblk m c 0 t : S128x2048.Idx → EReal) (ix2 p k) = aX m c (ix2 (row (pt t) p) k) := by
  obtain ⟨e0_0, e0_1, e1_0, e1_1, e2_0, e2_1, e3_0, e3_1, e4_0, e4_1, e5_0, e5_1, e6_0, e6_1, e7_0, e7_1, e8_0, e8_1⟩ := idx_facts t
  show V m c main_arg0 (((cfg0.win 0).blk t).view.emb (ix2 p k : S128x2048.Idx)) = _
  rw [V_main_arg0]
  refine congrArg (m ((c : Thread nD τ).loc main_arg0)) (funext fun a => Fin.ext ?_)
  match a with
  | ⟨0, _⟩ => show win0_0.index t (0 : Fin 2) * 128 + 1 * p.val = t.val * 128 + p.val; rw [e0_0]; omega
  | ⟨1, _⟩ => show win0_0.index t (1 : Fin 2) * 2048 + 1 * k.val = k.val; rw [e0_1]; omega

theorem iblk1_apply (c : Dev nD) (t : Fin cfg0.N) (q : Fin 16) (k : Fin 2048) :
    (iblk m c 1 t : S16x2048.Idx → EReal) (ix2 q k) = aW0 m c (ix2 q k) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 1).blk t).view.emb (ix2 q k : S16x2048.Idx) = (ix2 q k : S16x2048.Idx) := funext fun ax => Fin.ext (by
    match ax with
    | ⟨0, _⟩ => show win0_1.index t (0 : Fin 2) * 16 + 1 * q.val = q.val; rw [e1_0]; omega
    | ⟨1, _⟩ => show win0_1.index t (1 : Fin 2) * 2048 + 1 * k.val = k.val; rw [e1_1]; omega)
  show V m c main_v0 (((cfg0.win 1).blk t).view.emb (ix2 q k : S16x2048.Idx)) = _
  rw [hemb]; exact V_v0_apply m c q k

theorem iblk2_apply (c : Dev nD) (t : Fin cfg0.N) (q : Fin 16) :
    (iblk m c 2 t : S1x16.Idx → EReal) (ix2 (0 : Fin 1) q) = aB0 m c (ix1 q) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 2).blk t).view.emb (ix2 (0 : Fin 1) q : S1x16.Idx) = (ix2 (0 : Fin 1) q : S1x16.Idx) := funext fun ax => Fin.ext (by
    match ax with
    | ⟨0, _⟩ => show win0_2.index t (0 : Fin 2) * 1 + 1 * (0 : Fin 1).val = (0 : Fin 1).val; rw [e2_0]; omega
    | ⟨1, _⟩ => show win0_2.index t (1 : Fin 2) * 16 + 1 * q.val = q.val; rw [e2_1]; omega)
  show V m c main_v5 (((cfg0.win 2).blk t).view.emb (ix2 (0 : Fin 1) q : S1x16.Idx)) = _
  rw [hemb]; exact V_v5_apply m c 0 q

theorem iblk3_apply (c : Dev nD) (t : Fin cfg0.N) (a q : Fin 16) (k : Fin 2048) :
    (iblk m c 3 t : S256x2048.Idx → EReal) (ix2 (child a q : Fin 256) k) = aW1 m c (ix3 a q k) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 3).blk t).view.emb (ix2 (child a q : Fin 256) k : S256x2048.Idx) = (ix2 (child a q : Fin 256) k : S256x2048.Idx) := funext fun ax => Fin.ext (by
    match ax with
    | ⟨0, _⟩ => show win0_3.index t (0 : Fin 2) * 256 + 1 * (child a q : Fin 256).val = (child a q : Fin 256).val; rw [e3_0]; omega
    | ⟨1, _⟩ => show win0_3.index t (1 : Fin 2) * 2048 + 1 * k.val = k.val; rw [e3_1]; omega)
  show V m c main_v2 (((cfg0.win 3).blk t).view.emb (ix2 (child a q : Fin 256) k : S256x2048.Idx)) = _
  rw [hemb]; exact V_v2_apply m c a q k

theorem iblk4_apply (c : Dev nD) (t : Fin cfg0.N) (a q : Fin 16) :
    (iblk m c 4 t : S1x256.Idx → EReal) (ix2 (0 : Fin 1) (child a q : Fin 256)) = aB1 m c (ix2 a q) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 4).blk t).view.emb (ix2 (0 : Fin 1) (child a q : Fin 256) : S1x256.Idx) = (ix2 (0 : Fin 1) (child a q : Fin 256) : S1x256.Idx) := funext fun ax => Fin.ext (by
    match ax with
    | ⟨0, _⟩ => show win0_4.index t (0 : Fin 2) * 1 + 1 * (0 : Fin 1).val = (0 : Fin 1).val; rw [e4_0]; omega
    | ⟨1, _⟩ => show win0_4.index t (1 : Fin 2) * 256 + 1 * (child a q : Fin 256).val = (child a q : Fin 256).val; rw [e4_1]; omega)
  show V m c main_v6 (((cfg0.win 4).blk t).view.emb (ix2 (0 : Fin 1) (child a q : Fin 256) : S1x256.Idx)) = _
  rw [hemb]; exact V_v6_apply m c 0 a q

theorem iblk5_apply (c : Dev nD) (t : Fin cfg0.N) (r : Fin 256) (s : Fin 16) (k : Fin 2048) :
    (iblk m c 5 t : S4096x2048.Idx → EReal) (ix2 (child r s : Fin 4096) k) = aW2 m c (ix3 r s k) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 5).blk t).view.emb (ix2 (child r s : Fin 4096) k : S4096x2048.Idx) = (ix2 (child r s : Fin 4096) k : S4096x2048.Idx) := funext fun ax => Fin.ext (by
    match ax with
    | ⟨0, _⟩ => show win0_5.index t (0 : Fin 2) * 4096 + 1 * (child r s : Fin 4096).val = (child r s : Fin 4096).val; rw [e5_0]; omega
    | ⟨1, _⟩ => show win0_5.index t (1 : Fin 2) * 2048 + 1 * k.val = k.val; rw [e5_1]; omega)
  show V m c main_v4 (((cfg0.win 5).blk t).view.emb (ix2 (child r s : Fin 4096) k : S4096x2048.Idx)) = _
  rw [hemb]; exact V_v4_apply m c r s k

theorem iblk6_apply (c : Dev nD) (t : Fin cfg0.N) (r : Fin 256) (s : Fin 16) :
    (iblk m c 6 t : S1x4096.Idx → EReal) (ix2 (0 : Fin 1) (child r s : Fin 4096)) = aB2 m c (ix2 r s) := by
  obtain ⟨e0_0, e0_1, e1_0, e1_1, e2_0, e2_1, e3_0, e3_1, e4_0, e4_1, e5_0, e5_1, e6_0, e6_1, e7_0, e7_1, e8_0, e8_1⟩ := idx_facts t
  have hemb : ((cfg0.win 6).blk t).view.emb (ix2 (0 : Fin 1) (child r s : Fin 4096) : S1x4096.Idx) = (ix2 (0 : Fin 1) (child r s : Fin 4096) : S1x4096.Idx) := funext fun ax => Fin.ext (by
    match ax with
    | ⟨0, _⟩ => show win0_6.index t (0 : Fin 2) * 1 + 1 * (0 : Fin 1).val = (0 : Fin 1).val; rw [e6_0]; omega
    | ⟨1, _⟩ => show win0_6.index t (1 : Fin 2) * 4096 + 1 * (child r s : Fin 4096).val = (child r s : Fin 4096).val; rw [e6_1]; omega)
  show V m c main_v7 (((cfg0.win 6).blk t).view.emb (ix2 (0 : Fin 1) (child r s : Fin 4096) : S1x4096.Idx)) = _
  rw [hemb]; exact V_v7_apply m c 0 r s

/-! ## The body's three blocks at a point are the specification's rows -/

theorem L0_at (c : Dev nD) (t : Fin cfg0.N) (p : Fin 128) (q : Fin 16) :
    L0 (F := Ideal) (iblk m c 0 t) (iblk m c 1 t) (iblk m c 2 t) (ix2 p q)
      = lp0 (aX m c) (aW0 m c) (aB0 m c) (row (pt t) p) q :=
  Block.L0_apply (aX m c) (aW0 m c) (aB0 m c) (pt t) (iblk m c 0 t) (iblk m c 1 t) (iblk m c 2 t)
    (iblk0_apply m c t) (iblk1_apply m c t) (iblk2_apply m c t) p q

theorem L1_at (c : Dev nD) (t : Fin cfg0.N) (p : Fin 128) (n : Fin 256) :
    L1 (F := Ideal) (iblk m c 0 t) (iblk m c 1 t) (iblk m c 2 t) (iblk m c 3 t) (iblk m c 4 t) (ix2 p n)
      = lp1 (aX m c) (aW0 m c) (aB0 m c) (aW1 m c) (aB1 m c) (row (pt t) p) (parent (m := 16) n) (sibling (m := 16) n) :=
  Block.L1_apply (aX m c) (aW0 m c) (aB0 m c) (aW1 m c) (aB1 m c) (pt t) (iblk m c 0 t) (iblk m c 1 t) (iblk m c 2 t)
    (iblk m c 3 t) (iblk m c 4 t) (iblk0_apply m c t) (iblk1_apply m c t) (iblk2_apply m c t) (iblk3_apply m c t)
    (iblk4_apply m c t) p n

theorem L2_at (c : Dev nD) (t : Fin cfg0.N) (p : Fin 128) (n : Fin 4096) :
    L2 (F := Ideal) (iblk m c 0 t) (iblk m c 1 t) (iblk m c 2 t) (iblk m c 3 t) (iblk m c 4 t) (iblk m c 5 t) (iblk m c 6 t) (ix2 p n)
      = lp2 (aX m c) (aW0 m c) (aB0 m c) (aW1 m c) (aB1 m c) (aW2 m c) (aB2 m c) (row (pt t) p) (parent (m := 256) n) (sibling (m := 256) n) :=
  Block.L2_apply (aX m c) (aW0 m c) (aB0 m c) (aW1 m c) (aB1 m c) (aW2 m c) (aB2 m c) (pt t) (iblk m c 0 t) (iblk m c 1 t)
    (iblk m c 2 t) (iblk m c 3 t) (iblk m c 4 t) (iblk m c 5 t) (iblk m c 6 t) (iblk0_apply m c t) (iblk1_apply m c t)
    (iblk2_apply m c t) (iblk3_apply m c t) (iblk4_apply m c t) (iblk5_apply m c t) (iblk6_apply m c t) p n

/-! ## What a point writes back -/

/-- The level-2 block at any of its entries. -/
theorem L2_row (c : Dev nD) (t : Fin cfg0.N) (y : S128x4096.Idx) :
    L2 (F := Ideal) (iblk m c 0 t) (iblk m c 1 t) (iblk m c 2 t) (iblk m c 3 t) (iblk m c 4 t) (iblk m c 5 t) (iblk m c 6 t) y
      = lp2 (aX m c) (aW0 m c) (aB0 m c) (aW1 m c) (aB1 m c) (aW2 m c) (aB2 m c) (row (pt t) (y 0)) (parent (m := 256) (y 1)) (sibling (m := 256) (y 1)) := by
  exact (congrArg (L2 (F := Ideal) (iblk m c 0 t) (iblk m c 1 t) (iblk m c 2 t) (iblk m c 3 t) (iblk m c 4 t) (iblk m c 5 t) (iblk m c 6 t)) (eq_ix2 y)).trans
    (L2_at m c t (y 0) (y 1))

/-- The last-level result depends on the row and the column through their values only. -/
theorem lp2_congr (c : Dev nD) {b b' : Fin 4096} {n n' : Fin 4096} (hb : b.val = b'.val) (hn : n.val = n'.val) :
    lp2 (aX m c) (aW0 m c) (aB0 m c) (aW1 m c) (aB1 m c) (aW2 m c) (aB2 m c) b (parent (m := 256) n) (sibling (m := 256) n)
      = lp2 (aX m c) (aW0 m c) (aB0 m c) (aW1 m c) (aB1 m c) (aW2 m c) (aB2 m c) b' (parent (m := 256) n') (sibling (m := 256) n') := by
  obtain rfl := Fin.ext hb
  obtain rfl := Fin.ext hn
  rfl

/-- Point `t` writes back block `t` of the specification's last-level array. -/
theorem flushed8_eq (c : Dev nD) (t : Fin cfg0.N) :
    (dats m 0 c).flushed 8 t = ((cfg0.win 8).blk t).view.read (Elt Ideal) (GLast m c) := by
  obtain ⟨e0_0, e0_1, e1_0, e1_1, e2_0, e2_1, e3_0, e3_1, e4_0, e4_1, e5_0, e5_1, e6_0, e6_1, e7_0, e7_1, e8_0, e8_1⟩ := idx_facts t
  rw [flushed8_A, out8_eq]
  funext y
  refine (L2_row m c t y).trans ?_
  show _ = lp2 (aX m c) (aW0 m c) (aB0 m c) (aW1 m c) (aB1 m c) (aW2 m c) (aB2 m c)
    ((((cfg0.win 8).blk t).view.emb y) 0)
    (parent (m := 256) ((((cfg0.win 8).blk t).view.emb y) 1))
    (sibling (m := 256) ((((cfg0.win 8).blk t).view.emb y) 1))
  exact lp2_congr m c
    (by show t.val * 128 + ((y : S128x4096.Idx) 0).val = win0_8.index t (0 : Fin 2) * 128 + 1 * ((y : S128x4096.Idx) 0).val; rw [e8_0]; omega)
    (by show ((y : S128x4096.Idx) 1).val = win0_8.index t (1 : Fin 2) * 4096 + 1 * ((y : S128x4096.Idx) 1).val; rw [e8_1]; omega)

/-- Point `t` writes back block `t` of the specification's side-by-side array. -/
theorem flushed7_eq (c : Dev nD) (t : Fin cfg0.N) :
    (dats m 0 c).flushed 7 t = ((cfg0.win 7).blk t).view.read (Elt Ideal) (GAll m c) := by
  obtain ⟨e0_0, e0_1, e1_0, e1_1, e2_0, e2_1, e3_0, e3_1, e4_0, e4_1, e5_0, e5_1, e6_0, e6_1, e7_0, e7_1, e8_0, e8_1⟩ := idx_facts t
  rw [flushed7_A, out7_eq]
  funext y
  refine (Overlay.overlay_apply (aX m c) (aW0 m c) (aB0 m c) (aW1 m c) (aB1 m c) (aW2 m c) (aB2 m c) (pt t) _ _ _
    (L0_at m c t) (L1_at m c t) (L2_at m c t) (y : S128x4368.Idx)).trans ?_
  show _ = allAt (aX m c) (aW0 m c) (aB0 m c) (aW1 m c) (aB1 m c) (aW2 m c) (aB2 m c)
    ((((cfg0.win 7).blk t).view.emb (y : S128x4368.Idx)) 0) ((((cfg0.win 7).blk t).view.emb (y : S128x4368.Idx)) 1).val
  exact allAt_congr _ _ _ _ _ _ _
    (by show t.val * 128 + ((y : S128x4368.Idx) 0).val = win0_7.index t (0 : Fin 2) * 128 + 1 * ((y : S128x4368.Idx) 0).val; rw [e7_0]; omega)
    (by show ((y : S128x4368.Idx) 1).val = win0_7.index t (1 : Fin 2) * 4368 + 1 * ((y : S128x4368.Idx) 1).val; rw [e7_1]; omega)

/-! ## The blocks cover the arrays -/

theorem mem_blk7 (t : Fin cfg0.N) (i : S4096x4368.Idx) :
    i ∈ ((cfg0.win 7).blk t).view.set ↔ ∀ a : Fin 2, win0_7.index t a * S128x4368.size a ≤ (i a).val ∧ (i a).val < win0_7.index t a * S128x4368.size a + S128x4368.size a := by
  show i ∈ ((View.whole main_v8_0).slice (win0_7.rect t)).set ↔ _
  rw [View.set_slice_whole, Rect.mem_set_unit]
  exact Iff.rfl

theorem mem_blk8 (t : Fin cfg0.N) (i : S4096x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v8_1).slice (win0_8.rect t)).set ↔ _
  rw [View.set_slice_whole, Rect.mem_set_unit]
  exact Iff.rfl

/-- The point whose block holds row `r`: `r / 128`. -/
def ptOf (r : Fin 4096) : Fin cfg0.N := ⟨r.val / 128, by have h := r.isLt; have e : cfg0.N = 32 := N_0; omega⟩

theorem cover7 (i : S4096x4368.Idx) : ∃ t : Fin cfg0.N, (cfg0.win 7).flush t = true ∧ i ∈ ((cfg0.win 7).blk t).view.set := by
  refine ⟨ptOf (i 0), flush0_7 _, ?_⟩
  obtain ⟨e0_0, e0_1, e1_0, e1_1, e2_0, e2_1, e3_0, e3_1, e4_0, e4_1, e5_0, e5_1, e6_0, e6_1, e7_0, e7_1, e8_0, e8_1⟩ := idx_facts (ptOf (i 0))
  have hi0 : (i 0).val < 4096 := (i 0).isLt
  have hi1 : (i 1).val < 4368 := (i 1).isLt
  have hv : (ptOf (i 0)).val = (i 0).val / 128 := rfl
  rw [mem_blk7]
  intro a
  match a with
  | ⟨0, _⟩ => show win0_7.index (ptOf (i 0)) (0 : Fin 2) * 128 ≤ (i 0).val ∧ (i 0).val < win0_7.index (ptOf (i 0)) (0 : Fin 2) * 128 + 128; rw [e7_0, hv]; omega
  | ⟨1, _⟩ => show win0_7.index (ptOf (i 0)) (1 : Fin 2) * 4368 ≤ (i 1).val ∧ (i 1).val < win0_7.index (ptOf (i 0)) (1 : Fin 2) * 4368 + 4368; rw [e7_1]; omega

theorem cover8 (i : S4096x4096.Idx) : ∃ t : Fin cfg0.N, (cfg0.win 8).flush t = true ∧ i ∈ ((cfg0.win 8).blk t).view.set := by
  refine ⟨ptOf (i 0), flush0_8 _, ?_⟩
  obtain ⟨e0_0, e0_1, e1_0, e1_1, e2_0, e2_1, e3_0, e3_1, e4_0, e4_1, e5_0, e5_1, e6_0, e6_1, e7_0, e7_1, e8_0, e8_1⟩ := idx_facts (ptOf (i 0))
  have hi0 : (i 0).val < 4096 := (i 0).isLt
  have hi1 : (i 1).val < 4096 := (i 1).isLt
  have hv : (ptOf (i 0)).val = (i 0).val / 128 := rfl
  rw [mem_blk8]
  intro a
  match a with
  | ⟨0, _⟩ => show win0_8.index (ptOf (i 0)) (0 : Fin 2) * 128 ≤ (i 0).val ∧ (i 0).val < win0_8.index (ptOf (i 0)) (0 : Fin 2) * 128 + 128; rw [e8_0, hv]; omega
  | ⟨1, _⟩ => show win0_8.index (ptOf (i 0)) (1 : Fin 2) * 4096 ≤ (i 1).val ∧ (i 1).val < win0_8.index (ptOf (i 0)) (1 : Fin 2) * 4096 + 4096; rw [e8_1]; omega

/-! ## The arrays after the run, and the run -/

theorem final7 (c : Dev nD) : (dats m 0 c).arrAt 7 cfg0.N = GAll m c :=
  (dats m 0 c).arrAt_eq_of_cover 7 (GAll m c) (fun t _ => flushed7_eq m c t) (cover7)

theorem final8 (c : Dev nD) : (dats m 0 c).arrAt 8 cfg0.N = GLast m c :=
  (dats m 0 c).arrAt_eq_of_cover 8 (GLast m c) (fun t _ => flushed8_eq m c t) (cover8)

/-- Every weakly fair execution of the idealized kernel terminates with its two result arrays at the specification's
    arrays of the launch contents and its arguments unchanged. -/
theorem run : θ_run defs (onTc (τ := τ) (main (F := Ideal))) ⟨m, fun _ => 0, ρ⟩ fun r => ∀ c : Dev nD,
      r.2.mem ((c : Thread nD τ).loc main_v8_0) = GAll m c
      ∧ r.2.mem ((c : Thread nD τ).loc main_v8_1) = GLast m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (run_blocks m ρ)

end Cert.KernelIdeal.KValue

end
-- ==== Proof.RefRun.lean ====
/-
  The reference program's run, read back as a fold.

  @main of the reference is a straight line of 67 host operations (the three outlined log-softmax functions stand
  inline at their calls, over each call's own buffers).  The line is cut into four stretches, one per level of the
  hierarchy and one for the final concatenation:
    * `opsA`: the level-0 scores and their log-softmax, ending at the buffer of value 5;
    * `opsB`: the level-1 scores, their log-softmax over siblings, the parent's term added, reshaped to [4096, 256]
      (value 14);
    * `opsC`: the same one level down, ending at the reshape to [4096, 4096] (value 23);
    * `opsD`: the concatenation of the three (value 24).
  `run`: every weakly fair execution terminates with every buffer at the fold of the operations over the launch contents.
-/
import proofs.«124225_j412316860848_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–20: the level-0 scores `x · W0ᵀ + b0` and their log-softmax along the 16 classes. -/
abbrev opsA : List (HloOp τ sig (Elt F)) :=
  [ unary main_arg1 main_v0 ((transpose S2048x16 [1, 0] · transposes_S16x2048_S2048x16_1_0) : (⟨S16x2048, .f32⟩ : BufTy).Contents (Elt F) → (⟨S2048x16, .f32⟩ : BufTy).Contents (Elt F)),
    binary main_arg0 main_v0 main_v1 ((fun l r => Host.dotGeneral dot_S4096x2048_S2048x16_S4096x16_1_0_0_1_n_n none l r) : (⟨S4096x2048, .f32⟩ : BufTy).Contents (Elt F) → (⟨S2048x16, .f32⟩ : BufTy).Contents (Elt F) → (⟨S4096x16, .f32⟩ : BufTy).Contents (Elt F)),
    unary main_arg2 main_v2 (broadcastInDim S1x16 ![1] bcast_S16_S1x16_1 : (⟨S16, .f32⟩ : BufTy).Contents (Elt F) → (⟨S1x16, .f32⟩ : BufTy).Contents (Elt F)),
    unary main_v2 main_v3 (broadcastInDim S4096x16 ![0, 1] bcast_S1x16_S4096x16_0_1 : (⟨S1x16, .f32⟩ : BufTy).Contents (Elt F) → (⟨S4096x16, .f32⟩ : BufTy).Contents (Elt F)),
    binary main_v1 main_v3 main_v4 (addf : (⟨S4096x16, .f32⟩ : BufTy).Contents (Elt F) → (⟨S4096x16, .f32⟩ : BufTy).Contents (Elt F) → (⟨S4096x16, .f32⟩ : BufTy).Contents (Elt F)),
    TRef.nullary (TRef.of (T := ⟨S_, .f32⟩) main_call0_cst) (constant S_ .f32 0xFF800000#32),
    TRef.binary (TRef.of (T := ⟨S4096x16, .f32⟩) main_v4) (TRef.of (T := ⟨S_, .f32⟩) main_call0_cst) (TRef.of (T := ⟨S4096, .f32⟩) main_call0_v0) (fun x v => Host.reduce FloatOps.maximumf x v reducesTo_S4096x16_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x16, .f32⟩) main_call0_v4) (broadcastInDim S4096x16 ![0, 1] bcast_S4096x1_S4096x16_0_1),
    TRef.binary (TRef.of (T := ⟨S4096x16, .f32⟩) main_v4) (TRef.of (T := ⟨S4096x16, .f32⟩) main_call0_v4) (TRef.of (T := ⟨S4096x16, .f32⟩) main_call0_v5) subf,
    TRef.unary (TRef.of (T := ⟨S4096x16, .f32⟩) main_call0_v5) (TRef.of (T := ⟨S4096x16, .f32⟩) main_call0_v6) Host.exp,
    TRef.nullary (TRef.of (T := ⟨S_, .f32⟩) main_call0_cst_1) (constant S_ .f32 0x00000000#32),
    TRef.binary (TRef.of (T := ⟨S4096x16, .f32⟩) main_call0_v6) (TRef.of (T := ⟨S_, .f32⟩) main_call0_cst_1) (TRef.of (T := ⟨S4096, .f32⟩) main_call0_v7) (fun x v => Host.reduceAdd x v reducesTo_S4096x16_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x16, .f32⟩) main_call0_v10) (broadcastInDim S4096x16 ![0, 1] bcast_S4096x1_S4096x16_0_1),
    TRef.binary (TRef.of (T := ⟨S4096x16, .f32⟩) main_call0_v5) (TRef.of (T := ⟨S4096x16, .f32⟩) main_call0_v10) (TRef.of (T := ⟨S4096x16, .f32⟩) main_v5) subf ]

/-- Operations 21–43: the level-1 scores, their log-softmax along the 16 siblings, plus the parent's log-probability,
    laid out as 256 columns. -/
abbrev opsB : List (HloOp τ sig (Elt F)) :=
  [ binary main_arg0 main_arg3 main_v6 ((fun l r => Host.dotGeneral dot_S4096x2048_S16x16x2048_S4096x16x16_1_2_0_01_n_n none l r) : (⟨S4096x2048, .f32⟩ : BufTy).Contents (Elt F) → (⟨S16x16x2048, .f32⟩ : BufTy).Contents (Elt F) → (⟨S4096x16x16, .f32⟩ : BufTy).Contents (Elt F)),
    unary main_arg4 main_v7 (broadcastInDim S1x16x16 ![1, 2] bcast_S16x16_S1x16x16_1_2 : (⟨S16x16, .f32⟩ : BufTy).Contents (Elt F) → (⟨S1x16x16, .f32⟩ : BufTy).Contents (Elt F)),
    unary main_v7 main_v8 (broadcastInDim S4096x16x16 ![0, 1, 2] bcast_S1x16x16_S4096x16x16_0_1_2 : (⟨S1x16x16, .f32⟩ : BufTy).Contents (Elt F) → (⟨S4096x16x16, .f32⟩ : BufTy).Contents (Elt F)),
    binary main_v6 main_v8 main_v9 (addf : (⟨S4096x16x16, .f32⟩ : BufTy).Contents (Elt F) → (⟨S4096x16x16, .f32⟩ : BufTy).Contents (Elt F) → (⟨S4096x16x16, .f32⟩ : BufTy).Contents (Elt F)),
    TRef.nullary (TRef.of (T := ⟨S_, .f32⟩) main_call1_cst) (constant S_ .f32 0xFF800000#32),
    TRef.binary (TRef.of (T := ⟨S4096x16x16, .f32⟩) main_v9) (TRef.of (T := ⟨S_, .f32⟩) main_call1_cst) (TRef.of (T := ⟨S4096x16, .f32⟩) main_call1_v0) (fun x v => Host.reduce FloatOps.maximumf x v reducesTo_S4096x16x16_S4096x16_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4096x16, .f32⟩) main_call1_v1) (broadcastInDim S4096x16 ![] bcast_S_S4096x16),
    TRef.binary (TRef.of (T := ⟨S4096x16, .f32⟩) main_call1_v1) (TRef.of (T := ⟨S4096x16, .f32⟩) main_call1_v0) (TRef.of (T := ⟨S4096x16, .f32⟩) main_call1_v2) maximumf,
    TRef.unary (TRef.of (T := ⟨S4096x16, .f32⟩) main_call1_v2) (TRef.of (T := ⟨S4096x16x1, .f32⟩) main_call1_v3) (broadcastInDim S4096x16x1 ![0, 1] bcast_S4096x16_S4096x16x1_0_1),
    TRef.unary (TRef.of (T := ⟨S4096x16x1, .f32⟩) main_call1_v3) (TRef.of (T := ⟨S4096x16x16, .f32⟩) main_call1_v4) (broadcastInDim S4096x16x16 ![0, 1, 2] bcast_S4096x16x1_S4096x16x16_0_1_2),
    TRef.binary (TRef.of (T := ⟨S4096x16x16, .f32⟩) main_v9) (TRef.of (T := ⟨S4096x16x16, .f32⟩) main_call1_v4) (TRef.of (T := ⟨S4096x16x16, .f32⟩) main_call1_v5) subf,
    TRef.unary (TRef.of (T := ⟨S4096x16x16, .f32⟩) main_call1_v5) (TRef.of (T := ⟨S4096x16x16, .f32⟩) main_call1_v6) Host.exp,
    TRef.nullary (TRef.of (T := ⟨S_, .f32⟩) main_call1_cst_1) (constant S_ .f32 0x00000000#32),
    TRef.binary (TRef.of (T := ⟨S4096x16x16, .f32⟩) main_call1_v6) (TRef.of (T := ⟨S_, .f32⟩) main_call1_cst_1) (TRef.of (T := ⟨S4096x16, .f32⟩) main_call1_v7) (fun x v => Host.reduceAdd x v reducesTo_S4096x16x16_S4096x16_d2 h_S_),
    TRef.unary (TRef.of (T := ⟨S4096x16, .f32⟩) main_call1_v7) (TRef.of (T := ⟨S4096x16x1, .f32⟩) main_call1_v8) (broadcastInDim S4096x16x1 ![0, 1] bcast_S4096x16_S4096x16x1_0_1),
    TRef.unary (TRef.of (T := ⟨S4096x16x1, .f32⟩) main_call1_v8) (TRef.of (T := ⟨S4096x16x1, .f32⟩) main_call1_v9) Host.log,
    TRef.unary (TRef.of (T := ⟨S4096x16x1, .f32⟩) main_call1_v9) (TRef.of (T := ⟨S4096x16x16, .f32⟩) main_call1_v10) (broadcastInDim S4096x16x16 ![0, 1, 2] bcast_S4096x16x1_S4096x16x16_0_1_2),
    TRef.binary (TRef.of (T := ⟨S4096x16x16, .f32⟩) main_call1_v5) (TRef.of (T := ⟨S4096x16x16, .f32⟩) main_call1_v10) (TRef.of (T := ⟨S4096x16x16, .f32⟩) main_v10) subf,
    unary main_v5 main_v11 (broadcastInDim S4096x16x1 ![0, 1] bcast_S4096x16_S4096x16x1_0_1 : (⟨S4096x16, .f32⟩ : BufTy).Contents (Elt F) → (⟨S4096x16x1, .f32⟩ : BufTy).Contents (Elt F)),
    unary main_v11 main_v12 (broadcastInDim S4096x16x16 ![0, 1, 2] bcast_S4096x16x1_S4096x16x16_0_1_2 : (⟨S4096x16x1, .f32⟩ : BufTy).Contents (Elt F) → (⟨S4096x16x16, .f32⟩ : BufTy).Contents (Elt F)),
    binary main_v10 main_v12 main_v13 (addf : (⟨S4096x16x16, .f32⟩ : BufTy).Contents (Elt F) → (⟨S4096x16x16, .f32⟩ : BufTy).Contents (Elt F) → (⟨S4096x16x16, .f32⟩ : BufTy).Contents (Elt F)),
    reshape main_v13 main_v14 rfl shapeCasts_S4096x16x16_S4096x256 ]

/-- Operations 44–66: the level-2 scores, their log-softmax along the 16 siblings, plus the level-1 log-probability,
    laid out as 4096 columns. -/
abbrev opsC : List (HloOp τ sig (Elt F)) :=
  [ binary main_arg0 main_arg5 main_v15 ((fun l r => Host.dotGeneral dot_S4096x2048_S256x16x2048_S4096x256x16_1_2_0_01_n_n none l r) : (⟨S4096x2048, .f32⟩ : BufTy).Contents (Elt F) → (⟨S256x16x2048, .f32⟩ : BufTy).Contents (Elt F) → (⟨S4096x256x16, .f32⟩ : BufTy).Contents (Elt F)),
    unary main_arg6 main_v16 (broadcastInDim S1x256x16 ![1, 2] bcast_S256x16_S1x256x16_1_2 : (⟨S256x16, .f32⟩ : BufTy).Contents (Elt F) → (⟨S1x256x16, .f32⟩ : BufTy).Contents (Elt F)),
    unary main_v16 main_v17 (broadcastInDim S4096x256x16 ![0, 1, 2] bcast_S1x256x16_S4096x256x16_0_1_2 : (⟨S1x256x16, .f32⟩ : BufTy).Contents (Elt F) → (⟨S4096x256x16, .f32⟩ : BufTy).Contents (Elt F)),
    binary main_v15 main_v17 main_v18 (addf : (⟨S4096x256x16, .f32⟩ : BufTy).Contents (Elt F) → (⟨S4096x256x16, .f32⟩ : BufTy).Contents (Elt F) → (⟨S4096x256x16, .f32⟩ : BufTy).Contents (Elt F)),
    TRef.nullary (TRef.of (T := ⟨S_, .f32⟩) main_call2_cst) (constant S_ .f32 0xFF800000#32),
    TRef.binary (TRef.of (T := ⟨S4096x256x16, .f32⟩) main_v18) (TRef.of (T := ⟨S_, .f32⟩) main_call2_cst) (TRef.of (T := ⟨S4096x256, .f32⟩) main_call2_v0) (fun x v => Host.reduce FloatOps.maximumf x v reducesTo_S4096x256x16_S4096x256_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S4096x256, .f32⟩) main_call2_v1) (broadcastInDim S4096x256 ![] bcast_S_S4096x256),
    TRef.binary (TRef.of (T := ⟨S4096x256, .f32⟩) main_call2_v1) (TRef.of (T := ⟨S4096x256, .f32⟩) main_call2_v0) (TRef.of (T := ⟨S4096x256, .f32⟩) main_call2_v2) maximumf,
    TRef.unary (TRef.of (T := ⟨S4096x256, .f32⟩) main_call2_v2) (TRef.of (T := ⟨S4096x256x1, .f32⟩) main_call2_v3) (broadcastInDim S4096x256x1 ![0, 1] bcast_S4096x256_S4096x256x1_0_1),
    TRef.unary (TRef.of (T := ⟨S4096x256x1, .f32⟩) main_call2_v3) (TRef.of (T := ⟨S4096x256x16, .f32⟩) main_call2_v4) (broadcastInDim S4096x256x16 ![0, 1, 2] bcast_S4096x256x1_S4096x256x16_0_1_2),
    TRef.binary (TRef.of (T := ⟨S4096x256x16, .f32⟩) main_v18) (TRef.of (T := ⟨S4096x256x16, .f32⟩) main_call2_v4) (TRef.of (T := ⟨S4096x256x16, .f32⟩) main_call2_v5) subf,
    TRef.unary (TRef.of (T := ⟨S4096x256x16, .f32⟩) main_call2_v5) (TRef.of (T := ⟨S4096x256x16, .f32⟩) main_call2_v6) Host.exp,
    TRef.nullary (TRef.of (T := ⟨S_, .f32⟩) main_call2_cst_1) (constant S_ .f32 0x00000000#32),
    TRef.binary (TRef.of (T := ⟨S4096x256x16, .f32⟩) main_call2_v6) (TRef.of (T := ⟨S_, .f32⟩) main_call2_cst_1) (TRef.of (T := ⟨S4096x256, .f32⟩) main_call2_v7) (fun x v => Host.reduceAdd x v reducesTo_S4096x256x16_S4096x256_d2 h_S_),
    TRef.unary (TRef.of (T := ⟨S4096x256, .f32⟩) main_call2_v7) (TRef.of (T := ⟨S4096x256x1, .f32⟩) main_call2_v8) (broadcastInDim S4096x256x1 ![0, 1] bcast_S4096x256_S4096x256x1_0_1),
    TRef.unary (TRef.of (T := ⟨S4096x256x1, .f32⟩) main_call2_v8) (TRef.of (T := ⟨S4096x256x1, .f32⟩) main_call2_v9) Host.log,
    TRef.unary (TRef.of (T := ⟨S4096x256x1, .f32⟩) main_call2_v9) (TRef.of (T := ⟨S4096x256x16, .f32⟩) main_call2_v10) (broadcastInDim S4096x256x16 ![0, 1, 2] bcast_S4096x256x1_S4096x256x16_0_1_2),
    TRef.binary (TRef.of (T := ⟨S4096x256x16, .f32⟩) main_call2_v5) (TRef.of (T := ⟨S4096x256x16, .f32⟩) main_call2_v10) (TRef.of (T := ⟨S4096x256x16, .f32⟩) main_v19) subf,
    unary main_v14 main_v20 (broadcastInDim S4096x256x1 ![0, 1] bcast_S4096x256_S4096x256x1_0_1 : (⟨S4096x256, .f32⟩ : BufTy).Contents (Elt F) → (⟨S4096x256x1, .f32⟩ : BufTy).Contents (Elt F)),
    unary main_v20 main_v21 (broadcastInDim S4096x256x16 ![0, 1, 2] bcast_S4096x256x1_S4096x256x16_0_1_2 : (⟨S4096x256x1, .f32⟩ : BufTy).Contents (Elt F) → (⟨S4096x256x16, .f32⟩ : BufTy).Contents (Elt F)),
    binary main_v19 main_v21 main_v22 (addf : (⟨S4096x256x16, .f32⟩ : BufTy).Contents (Elt F) → (⟨S4096x256x16, .f32⟩ : BufTy).Contents (Elt F) → (⟨S4096x256x16, .f32⟩ : BufTy).Contents (Elt F)),
    reshape main_v22 main_v23 rfl shapeCasts_S4096x256x16_S4096x4096 ]

/-- Operation 67: the three levels side by side. -/
abbrev opsD : List (HloOp τ sig (Elt F)) :=
  [ nary ![main_v5, main_v14, main_v23] main_v24 (fun u => concatenate S4096x4368 1 [⟨S4096x16, u 0⟩, ⟨S4096x256, u 1⟩, ⟨S4096x4096, u 2⟩] concatenates_S4096x16_S4096x256_S4096x4096_S4096x4368_d1) ]

/-- @main's 67 operations, in order. -/
abbrev ops : List (HloOp τ sig (Elt F)) := opsA ++ (opsB ++ (opsC ++ opsD))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., reshape_bufs_sub ..⟩
set_option maxRecDepth 8192 in
theorem opsC_sub : (opsC : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., reshape_bufs_sub ..⟩
theorem opsD_sub : (opsD : List (HloOp τ sig (Elt F))).Forall fun op => op.bufs ⊆ tcRefs τ sig :=
  nary_bufs_sub ..

theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ

end Cert.ReferenceIdeal.RefRun

end
-- ==== Proof.RefLevels.lean ====
/-
  The reference program's results as three level functions of whole arrays.

    * `ref0`: from the activations, the level-0 weights and bias — the level-0 scores `x · W0ᵀ + b0` and their
      log-softmax along the 16 classes (`[4096, 16]`);
    * `ref1`: from the activations, the level-1 weights and bias and the level-0 result — the level-1 scores, their
      log-softmax along the 16 siblings, plus the parent's entry, laid out as `[4096, 256]`;
    * `ref2`: the same one level down (`[4096, 4096]`);
    * `refCat`: the three side by side (`[4096, 4368]`).
  Each log-softmax is the stable one: the scores shifted by `max(-∞, maximum along the axis)`, minus the logarithm of the
  sum of the exponentials of the shifted scores.
-/
import proofs.«124225_j412316860848_2_alg».proof.Proof.Gen.ReferenceIdeal
import Idealize.ShloMosaic.PureOps

noncomputable section

namespace Cert.ReferenceIdeal.RefRun

open Cert.ReferenceIdeal Cert.ReferenceIdeal.Gen Idealize.ShloMosaic

variable {F : FTy → Type} [FloatOps F]

/-! ## Level 0 -/

/-- The level-0 scores `x · W0ᵀ + b0`. -/
def score0 (x0 : (⟨S4096x2048, .f32⟩ : BufTy).Contents (Elt F)) (x1 : (⟨S16x2048, .f32⟩ : BufTy).Contents (Elt F))
    (x2 : (⟨S16, .f32⟩ : BufTy).Contents (Elt F)) : (⟨S4096x16, .f32⟩ : BufTy).Contents (Elt F) :=
  addf (Host.dotGeneral dot_S4096x2048_S2048x16_S4096x16_1_0_0_1_n_n none x0 (transpose S2048x16 [1, 0] x1 transposes_S16x2048_S2048x16_1_0))
    (broadcastInDim S4096x16 ![0, 1] bcast_S1x16_S4096x16_0_1 (broadcastInDim S1x16 ![1] bcast_S16_S1x16_1 x2))

/-- A `[4096, 16]` array of scores minus, in each row, `max(-∞, the row's maximum)`. -/
def shift0 (s : (⟨S4096x16, .f32⟩ : BufTy).Contents (Elt F)) : (⟨S4096x16, .f32⟩ : BufTy).Contents (Elt F) :=
  subf s (broadcastInDim S4096x16 ![0, 1] bcast_S4096x1_S4096x16_0_1 (broadcastInDim S4096x1 ![0] bcast_S4096_S4096x1_0
    (maximumf (broadcastInDim S4096 ![] bcast_S_S4096 (constant S_ .f32 0xFF800000#32))
      (Host.reduce FloatOps.maximumf s (constant S_ .f32 0xFF800000#32) reducesTo_S4096x16_S4096_d1 h_S_))))

/-- The log-softmax along the rows of a `[4096, 16]` array: the shifted scores minus the logarithm of the row sum of
    their exponentials. -/
def lsm0 (s : (⟨S4096x16, .f32⟩ : BufTy).Contents (Elt F)) : (⟨S4096x16, .f32⟩ : BufTy).Contents (Elt F) :=
  subf (shift0 s) (broadcastInDim S4096x16 ![0, 1] bcast_S4096x1_S4096x16_0_1 (Host.log (broadcastInDim S4096x1 ![0] bcast_S4096_S4096x1_0
    (Host.reduceAdd (Host.exp (shift0 s)) (constant S_ .f32 0x00000000#32) reducesTo_S4096x16_S4096_d1 h_S_))))

/-- The level-0 result. -/
def ref0 (x0 : (⟨S4096x2048, .f32⟩ : BufTy).Contents (Elt F)) (x1 : (⟨S16x2048, .f32⟩ : BufTy).Contents (Elt F))
    (x2 : (⟨S16, .f32⟩ : BufTy).Contents (Elt F)) : (⟨S4096x16, .f32⟩ : BufTy).Contents (Elt F) :=
  lsm0 (score0 x0 x1 x2)

/-! ## Level 1 -/

/-- The level-1 scores `x · W1 + b1`, `[4096, 16, 16]`. -/
def score1 (x0 : (⟨S4096x2048, .f32⟩ : BufTy).Contents (Elt F)) (x3 : (⟨S16x16x2048, .f32⟩ : BufTy).Contents (Elt F))
    (x4 : (⟨S16x16, .f32⟩ : BufTy).Contents (Elt F)) : (⟨S4096x16x16, .f32⟩ : BufTy).Contents (Elt F) :=
  addf (Host.dotGeneral dot_S4096x2048_S16x16x2048_S4096x16x16_1_2_0_01_n_n none x0 x3)
    (broadcastInDim S4096x16x16 ![0, 1, 2] bcast_S1x16x16_S4096x16x16_0_1_2 (broadcastInDim S1x16x16 ![1, 2] bcast_S16x16_S1x16x16_1_2 x4))

/-- A `[4096, 16, 16]` array of scores minus, along the last axis, `max(-∞, the maximum)`. -/
def shift1 (s : (⟨S4096x16x16, .f32⟩ : BufTy).Contents (Elt F)) : (⟨S4096x16x16, .f32⟩ : BufTy).Contents (Elt F) :=
  subf s (broadcastInDim S4096x16x16 ![0, 1, 2] bcast_S4096x16x1_S4096x16x16_0_1_2 (broadcastInDim S4096x16x1 ![0, 1] bcast_S4096x16_S4096x16x1_0_1
    (maximumf (broadcastInDim S4096x16 ![] bcast_S_S4096x16 (constant S_ .f32 0xFF800000#32))
      (Host.reduce FloatOps.maximumf s (constant S_ .f32 0xFF800000#32) reducesTo_S4096x16x16_S4096x16_d2 h_S_))))

/-- The log-softmax along the last axis of a `[4096, 16, 16]` array. -/
def lsm1 (s : (⟨S4096x16x16, .f32⟩ : BufTy).Contents (Elt F)) : (⟨S4096x16x16, .f32⟩ : BufTy).Contents (Elt F) :=
  subf (shift1 s) (broadcastInDim S4096x16x16 ![0, 1, 2] bcast_S4096x16x1_S4096x16x16_0_1_2 (Host.log (broadcastInDim S4096x16x1 ![0, 1] bcast_S4096x16_S4096x16x1_0_1
    (Host.reduceAdd (Host.exp (shift1 s)) (constant S_ .f32 0x00000000#32) reducesTo_S4096x16x16_S4096x16_d2 h_S_))))

/-- The level-1 result from the level-0 result `y5`: the sibling log-softmax plus the parent's entry, as 256 columns. -/
def ref1 (x0 : (⟨S4096x2048, .f32⟩ : BufTy).Contents (Elt F)) (x3 : (⟨S16x16x2048, .f32⟩ : BufTy).Contents (Elt F))
    (x4 : (⟨S16x16, .f32⟩ : BufTy).Contents (Elt F)) (y5 : (⟨S4096x16, .f32⟩ : BufTy).Contents (Elt F)) :
    (⟨S4096x256, .f32⟩ : BufTy).Contents (Elt F) :=
  shapeCast S4096x256 (addf (lsm1 (score1 x0 x3 x4))
    (broadcastInDim S4096x16x16 ![0, 1, 2] bcast_S4096x16x1_S4096x16x16_0_1_2 (broadcastInDim S4096x16x1 ![0, 1] bcast_S4096x16_S4096x16x1_0_1 y5)))
    shapeCasts_S4096x16x16_S4096x256

/-! ## Level 2 -/

/-- The level-2 scores `x · W2 + b2`, `[4096, 256, 16]`. -/
def score2 (x0 : (⟨S4096x2048, .f32⟩ : BufTy).Contents (Elt F)) (x5 : (⟨S256x16x2048, .f32⟩ : BufTy).Contents (Elt F))
    (x6 : (⟨S256x16, .f32⟩ : BufTy).Contents (Elt F)) : (⟨S4096x256x16, .f32⟩ : BufTy).Contents (Elt F) :=
  addf (Host.dotGeneral dot_S4096x2048_S256x16x2048_S4096x256x16_1_2_0_01_n_n none x0 x5)
    (broadcastInDim S4096x256x16 ![0, 1, 2] bcast_S1x256x16_S4096x256x16_0_1_2 (broadcastInDim S1x256x16 ![1, 2] bcast_S256x16_S1x256x16_1_2 x6))

/-- A `[4096, 256, 16]` array of scores minus, along the last axis, `max(-∞, the maximum)`. -/
def shift2 (s : (⟨S4096x256x16, .f32⟩ : BufTy).Contents (Elt F)) : (⟨S4096x256x16, .f32⟩ : BufTy).Contents (Elt F) :=
  subf s (broadcastInDim S4096x256x16 ![0, 1, 2] bcast_S4096x256x1_S4096x256x16_0_1_2 (broadcastInDim S4096x256x1 ![0, 1] bcast_S4096x256_S4096x256x1_0_1
    (maximumf (broadcastInDim S4096x256 ![] bcast_S_S4096x256 (constant S_ .f32 0xFF800000#32))
      (Host.reduce FloatOps.maximumf s (constant S_ .f32 0xFF800000#32) reducesTo_S4096x256x16_S4096x256_d2 h_S_))))

/-- The log-softmax along the last axis of a `[4096, 256, 16]` array. -/
def lsm2 (s : (⟨S4096x256x16, .f32⟩ : BufTy).Contents (Elt F)) : (⟨S4096x256x16, .f32⟩ : BufTy).Contents (Elt F) :=
  subf (shift2 s) (broadcastInDim S4096x256x16 ![0, 1, 2] bcast_S4096x256x1_S4096x256x16_0_1_2 (Host.log (broadcastInDim S4096x256x1 ![0, 1] bcast_S4096x256_S4096x256x1_0_1
    (Host.reduceAdd (Host.exp (shift2 s)) (constant S_ .f32 0x00000000#32) reducesTo_S4096x256x16_S4096x256_d2 h_S_))))

/-- The level-2 result from the level-1 result `y14`: the sibling log-softmax plus the level-1 entry, as 4096 columns. -/
def ref2 (x0 : (⟨S4096x2048, .f32⟩ : BufTy).Contents (Elt F)) (x5 : (⟨S256x16x2048, .f32⟩ : BufTy).Contents (Elt F))
    (x6 : (⟨S256x16, .f32⟩ : BufTy).Contents (Elt F)) (y14 : (⟨S4096x256, .f32⟩ : BufTy).Contents (Elt F)) :
    (⟨S4096x4096, .f32⟩ : BufTy).Contents (Elt F) :=
  shapeCast S4096x4096 (addf (lsm2 (score2 x0 x5 x6))
    (broadcastInDim S4096x256x16 ![0, 1, 2] bcast_S4096x256x1_S4096x256x16_0_1_2 (broadcastInDim S4096x256x1 ![0, 1] bcast_S4096x256_S4096x256x1_0_1 y14)))
    shapeCasts_S4096x256x16_S4096x4096

/-- The three levels side by side. -/
def refCat (y5 : (⟨S4096x16, .f32⟩ : BufTy).Contents (Elt F)) (y14 : (⟨S4096x256, .f32⟩ : BufTy).Contents (Elt F))
    (y23 : (⟨S4096x4096, .f32⟩ : BufTy).Contents (Elt F)) : (⟨S4096x4368, .f32⟩ : BufTy).Contents (Elt F) :=
  concatenate S4096x4368 1 [⟨S4096x16, y5⟩, ⟨S4096x256, y14⟩, ⟨S4096x4096, y23⟩] concatenates_S4096x16_S4096x256_S4096x4096_S4096x4368_d1

end Cert.ReferenceIdeal.RefRun

end
-- ==== Proof.RefStages.lean ====
/-
  The reference program's fold, read one stretch at a time and composed.

  The 67 operations are read stretch by stretch from an arbitrary starting valuation: each stretch leaves its level
  function (`ref0`, `ref1`, `ref2`, `refCat`) of the buffers it reads in its result's buffer, and leaves the arguments
  and the earlier results untouched.  So the whole line's two results are the compositions `after_v23` and
  `after_v24`, and the seven arguments are unchanged (`after_arg0` … `after_arg6`).
-/
import proofs.«124225_j412316860848_2_alg».proof.Proof.RefRun
import proofs.«124225_j412316860848_2_alg».proof.Proof.RefLevels

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The stretches, from any valuation

What each stretch leaves in the buffer of its result, and that it leaves the arguments and the earlier results alone. -/

/-- A value moved to a buffer's own type and back is the value. -/
theorem ofBuf_toBuf {Val : EltTy → Type} {T : BufTy} (x : TRef sig T) (v : T.Contents Val) : x.ofBuf (x.toBuf v) = v := by
  obtain ⟨r, h, hd, hu⟩ := x
  subst h
  rfl

/-- At a buffer's own type the move is the identity. -/
theorem ofBuf_rfl {Val : EltTy → Type} (r : Ref sig .tc) (hd hu) (v : r.ty.Contents Val) :
    (TRef.of (T := r.ty) r rfl hd hu).ofBuf v = v := rfl
theorem toBuf_rfl {Val : EltTy → Type} (r : Ref sig .tc) (hd hu) (v : r.ty.Contents Val) :
    (TRef.of (T := r.ty) r rfl hd hu).toBuf v = v := rfl

section Stretches
variable (W : Valuation τ sig (Elt F))

set_option maxRecDepth 8192 in
set_option maxHeartbeats 4000000 in
theorem opsA_v5 : after opsA W (Proc.devRef .tc main_v5)
    = ref0 (W (Proc.devRef .tc main_arg0)) (W (Proc.devRef .tc main_arg1)) (W (Proc.devRef .tc main_arg2)) := by
  after_results_simp
  simp only [ofBuf_toBuf]
  rw [show ∀ v, (TRef.of (T := ⟨S4096x16, .f32⟩) main_v4 rfl (by decide) rfl).ofBuf (Val := Elt F) v = v from fun v => ofBuf_rfl main_v4 _ _ v,
    show ∀ v, (TRef.of (T := ⟨S4096x16, .f32⟩) main_v5 rfl (by decide) rfl).toBuf (Val := Elt F) v = v from fun v => toBuf_rfl main_v5 _ _ v]
  unfold ref0 lsm0 shift0 score0
  rfl

set_option maxRecDepth 8192 in
set_option maxHeartbeats 4000000 in
theorem opsB_v14 : after opsB W (Proc.devRef .tc main_v14)
    = ref1 (W (Proc.devRef .tc main_arg0)) (W (Proc.devRef .tc main_arg3)) (W (Proc.devRef .tc main_arg4)) (W (Proc.devRef .tc main_v5)) := by
  after_results_simp
  simp only [ofBuf_toBuf]
  rw [show ∀ v, (TRef.of (T := ⟨S4096x16x16, .f32⟩) main_v9 rfl (by decide) rfl).ofBuf (Val := Elt F) v = v from fun v => ofBuf_rfl main_v9 _ _ v,
    show ∀ v, (TRef.of (T := ⟨S4096x16x16, .f32⟩) main_v10 rfl (by decide) rfl).toBuf (Val := Elt F) v = v from fun v => toBuf_rfl main_v10 _ _ v]
  unfold ref1 lsm1 shift1 score1
  rfl

set_option maxRecDepth 8192 in
set_option maxHeartbeats 4000000 in
theorem opsC_v23 : after opsC W (Proc.devRef .tc main_v23)
    = ref2 (W (Proc.devRef .tc main_arg0)) (W (Proc.devRef .tc main_arg5)) (W (Proc.devRef .tc main_arg6)) (W (Proc.devRef .tc main_v14)) := by
  after_results_simp
  simp only [ofBuf_toBuf]
  rw [show ∀ v, (TRef.of (T := ⟨S4096x256x16, .f32⟩) main_v18 rfl (by decide) rfl).ofBuf (Val := Elt F) v = v from fun v => ofBuf_rfl main_v18 _ _ v,
    show ∀ v, (TRef.of (T := ⟨S4096x256x16, .f32⟩) main_v19 rfl (by decide) rfl).toBuf (Val := Elt F) v = v from fun v => toBuf_rfl main_v19 _ _ v]
  unfold ref2 lsm2 shift2 score2
  rfl

set_option maxRecDepth 8192 in
theorem opsD_v24 : after opsD W (Proc.devRef .tc main_v24)
    = refCat (W (Proc.devRef .tc main_v5)) (W (Proc.devRef .tc main_v14)) (W (Proc.devRef .tc main_v23)) := by
  after_results_simp <;> rfl

set_option maxRecDepth 8192 in
theorem opsA_arg0 : after opsA W (Proc.devRef .tc main_arg0) = W (Proc.devRef .tc main_arg0) := by
  after_results_simp <;> rfl
set_option maxRecDepth 8192 in
theorem opsA_arg1 : after opsA W (Proc.devRef .tc main_arg1) = W (Proc.devRef .tc main_arg1) := by
  after_results_simp <;> rfl
set_option maxRecDepth 8192 in
theorem opsA_arg2 : after opsA W (Proc.devRef .tc main_arg2) = W (Proc.devRef .tc main_arg2) := by
  after_results_simp <;> rfl
set_option maxRecDepth 8192 in
theorem opsA_arg3 : after opsA W (Proc.devRef .tc main_arg3) = W (Proc.devRef .tc main_arg3) := by
  after_results_simp <;> rfl
set_option maxRecDepth 8192 in
theorem opsA_arg4 : after opsA W (Proc.devRef .tc main_arg4) = W (Proc.devRef .tc main_arg4) := by
  after_results_simp <;> rfl
set_option maxRecDepth 8192 in
theorem opsA_arg5 : after opsA W (Proc.devRef .tc main_arg5) = W (Proc.devRef .tc main_arg5) := by
  after_results_simp <;> rfl
set_option maxRecDepth 8192 in
theorem opsA_arg6 : after opsA W (Proc.devRef .tc main_arg6) = W (Proc.devRef .tc main_arg6) := by
  after_results_simp <;> rfl
set_option maxRecDepth 8192 in
theorem opsB_arg0 : after opsB W (Proc.devRef .tc main_arg0) = W (Proc.devRef .tc main_arg0) := by
  after_results_simp <;> rfl
set_option maxRecDepth 8192 in
theorem opsB_arg1 : after opsB W (Proc.devRef .tc main_arg1) = W (Proc.devRef .tc main_arg1) := by
  after_results_simp <;> rfl
set_option maxRecDepth 8192 in
theorem opsB_arg2 : after opsB W (Proc.devRef .tc main_arg2) = W (Proc.devRef .tc main_arg2) := by
  after_results_simp <;> rfl
set_option maxRecDepth 8192 in
theorem opsB_arg3 : after opsB W (Proc.devRef .tc main_arg3) = W (Proc.devRef .tc main_arg3) := by
  after_results_simp <;> rfl
set_option maxRecDepth 8192 in
theorem opsB_arg4 : after opsB W (Proc.devRef .tc main_arg4) = W (Proc.devRef .tc main_arg4) := by
  after_results_simp <;> rfl
set_option maxRecDepth 8192 in
theorem opsB_arg5 : after opsB W (Proc.devRef .tc main_arg5) = W (Proc.devRef .tc main_arg5) := by
  after_results_simp <;> rfl
set_option maxRecDepth 8192 in
theorem opsB_arg6 : after opsB W (Proc.devRef .tc main_arg6) = W (Proc.devRef .tc main_arg6) := by
  after_results_simp <;> rfl
set_option maxRecDepth 8192 in
theorem opsC_arg0 : after opsC W (Proc.devRef .tc main_arg0) = W (Proc.devRef .tc main_arg0) := by
  after_results_simp <;> rfl
set_option maxRecDepth 8192 in
theorem opsC_arg1 : after opsC W (Proc.devRef .tc main_arg1) = W (Proc.devRef .tc main_arg1) := by
  after_results_simp <;> rfl
set_option maxRecDepth 8192 in
theorem opsC_arg2 : after opsC W (Proc.devRef .tc main_arg2) = W (Proc.devRef .tc main_arg2) := by
  after_results_simp <;> rfl
set_option maxRecDepth 8192 in
theorem opsC_arg3 : after opsC W (Proc.devRef .tc main_arg3) = W (Proc.devRef .tc main_arg3) := by
  after_results_simp <;> rfl
set_option maxRecDepth 8192 in
theorem opsC_arg4 : after opsC W (Proc.devRef .tc main_arg4) = W (Proc.devRef .tc main_arg4) := by
  after_results_simp <;> rfl
set_option maxRecDepth 8192 in
theorem opsC_arg5 : after opsC W (Proc.devRef .tc main_arg5) = W (Proc.devRef .tc main_arg5) := by
  after_results_simp <;> rfl
set_option maxRecDepth 8192 in
theorem opsC_arg6 : after opsC W (Proc.devRef .tc main_arg6) = W (Proc.devRef .tc main_arg6) := by
  after_results_simp <;> rfl
set_option maxRecDepth 8192 in
theorem opsD_arg0 : after opsD W (Proc.devRef .tc main_arg0) = W (Proc.devRef .tc main_arg0) := by
  after_results_simp <;> rfl
set_option maxRecDepth 8192 in
theorem opsD_arg1 : after opsD W (Proc.devRef .tc main_arg1) = W (Proc.devRef .tc main_arg1) := by
  after_results_simp <;> rfl
set_option maxRecDepth 8192 in
theorem opsD_arg2 : after opsD W (Proc.devRef .tc main_arg2) = W (Proc.devRef .tc main_arg2) := by
  after_results_simp <;> rfl
set_option maxRecDepth 8192 in
theorem opsD_arg3 : after opsD W (Proc.devRef .tc main_arg3) = W (Proc.devRef .tc main_arg3) := by
  after_results_simp <;> rfl
set_option maxRecDepth 8192 in
theorem opsD_arg4 : after opsD W (Proc.devRef .tc main_arg4) = W (Proc.devRef .tc main_arg4) := by
  after_results_simp <;> rfl
set_option maxRecDepth 8192 in
theorem opsD_arg5 : after opsD W (Proc.devRef .tc main_arg5) = W (Proc.devRef .tc main_arg5) := by
  after_results_simp <;> rfl
set_option maxRecDepth 8192 in
theorem opsD_arg6 : after opsD W (Proc.devRef .tc main_arg6) = W (Proc.devRef .tc main_arg6) := by
  after_results_simp <;> rfl
set_option maxRecDepth 8192 in
theorem opsB_v5 : after opsB W (Proc.devRef .tc main_v5) = W (Proc.devRef .tc main_v5) := by
  after_results_simp <;> rfl
set_option maxRecDepth 8192 in
theorem opsC_v5 : after opsC W (Proc.devRef .tc main_v5) = W (Proc.devRef .tc main_v5) := by
  after_results_simp <;> rfl
set_option maxRecDepth 8192 in
theorem opsC_v14 : after opsC W (Proc.devRef .tc main_v14) = W (Proc.devRef .tc main_v14) := by
  after_results_simp <;> rfl
set_option maxRecDepth 8192 in
theorem opsD_v23 : after opsD W (Proc.devRef .tc main_v23) = W (Proc.devRef .tc main_v23) := by
  after_results_simp <;> rfl

end Stretches

/-! ## The whole line -/

section Whole
variable (V : Valuation τ sig (Elt F))

/-- The whole line's fold is the four stretches' folds, in order. -/
theorem after_ops : after ops V = after opsD (after opsC (after opsB (after opsA V))) := by
  show after (opsA ++ (opsB ++ (opsC ++ opsD))) V = _
  rw [after_append, after_append, after_append]

theorem after_arg0 : after ops V (Proc.devRef .tc main_arg0) = V (Proc.devRef .tc main_arg0) := by
  rw [after_ops, opsD_arg0, opsC_arg0, opsB_arg0, opsA_arg0]
theorem after_arg1 : after ops V (Proc.devRef .tc main_arg1) = V (Proc.devRef .tc main_arg1) := by
  rw [after_ops, opsD_arg1, opsC_arg1, opsB_arg1, opsA_arg1]
theorem after_arg2 : after ops V (Proc.devRef .tc main_arg2) = V (Proc.devRef .tc main_arg2) := by
  rw [after_ops, opsD_arg2, opsC_arg2, opsB_arg2, opsA_arg2]
theorem after_arg3 : after ops V (Proc.devRef .tc main_arg3) = V (Proc.devRef .tc main_arg3) := by
  rw [after_ops, opsD_arg3, opsC_arg3, opsB_arg3, opsA_arg3]
theorem after_arg4 : after ops V (Proc.devRef .tc main_arg4) = V (Proc.devRef .tc main_arg4) := by
  rw [after_ops, opsD_arg4, opsC_arg4, opsB_arg4, opsA_arg4]
theorem after_arg5 : after ops V (Proc.devRef .tc main_arg5) = V (Proc.devRef .tc main_arg5) := by
  rw [after_ops, opsD_arg5, opsC_arg5, opsB_arg5, opsA_arg5]
theorem after_arg6 : after ops V (Proc.devRef .tc main_arg6) = V (Proc.devRef .tc main_arg6) := by
  rw [after_ops, opsD_arg6, opsC_arg6, opsB_arg6, opsA_arg6]

/-- The last level alone: the level-2 function of the level-1 function of the level-0 function of the arguments. -/
theorem after_v23 : after ops V (Proc.devRef .tc main_v23)
    = ref2 (V (Proc.devRef .tc main_arg0)) (V (Proc.devRef .tc main_arg5)) (V (Proc.devRef .tc main_arg6))
        (ref1 (V (Proc.devRef .tc main_arg0)) (V (Proc.devRef .tc main_arg3)) (V (Proc.devRef .tc main_arg4))
          (ref0 (V (Proc.devRef .tc main_arg0)) (V (Proc.devRef .tc main_arg1)) (V (Proc.devRef .tc main_arg2)))) := by
  rw [after_ops, opsD_v23, opsC_v23, opsB_arg0, opsB_arg5, opsB_arg6, opsB_v14, opsA_arg0, opsA_arg3, opsA_arg4, opsA_arg5,
    opsA_arg6, opsA_v5]

/-- The three levels side by side. -/
theorem after_v24 : after ops V (Proc.devRef .tc main_v24)
    = refCat (ref0 (V (Proc.devRef .tc main_arg0)) (V (Proc.devRef .tc main_arg1)) (V (Proc.devRef .tc main_arg2)))
        (ref1 (V (Proc.devRef .tc main_arg0)) (V (Proc.devRef .tc main_arg3)) (V (Proc.devRef .tc main_arg4))
          (ref0 (V (Proc.devRef .tc main_arg0)) (V (Proc.devRef .tc main_arg1)) (V (Proc.devRef .tc main_arg2))))
        (ref2 (V (Proc.devRef .tc main_arg0)) (V (Proc.devRef .tc main_arg5)) (V (Proc.devRef .tc main_arg6))
          (ref1 (V (Proc.devRef .tc main_arg0)) (V (Proc.devRef .tc main_arg3)) (V (Proc.devRef .tc main_arg4))
            (ref0 (V (Proc.devRef .tc main_arg0)) (V (Proc.devRef .tc main_arg1)) (V (Proc.devRef .tc main_arg2))))) := by
  rw [after_ops, opsD_v24, opsC_v5, opsC_v14, opsC_v23, opsB_v5, opsB_v14, opsB_arg0, opsB_arg5, opsB_arg6, opsA_v5, opsA_arg0,
    opsA_arg3, opsA_arg4, opsA_arg5, opsA_arg6]

end Whole

end Cert.ReferenceIdeal.RefRun

end
-- ==== Proof.RefReadScores.lean ====
/-
  The reference's scores, read at an entry.

  At the extended reals a host `dot_general` contracting one axis is the plain sum over that axis of the products,
  and a bias broadcast over the batch is the bias.  So the three score arrays of the reference are the scores of the
  specification, entry by entry:
    * `score0 x W0 b0` at `(b, p)` is `Σ_k x(b,k) · W0(p,k) + b0(p)` (the right operand is the transpose of `W0`);
    * `score1 x W1 b1` at `(b, p, q)` is `Σ_k x(b,k) · W1(p,q,k) + b1(p,q)`;
    * `score2 x W2 b2` at `(b, r, s)` is `Σ_k x(b,k) · W2(r,s,k) + b2(r,s)`.
-/
import proofs.«124225_j412316860848_2_alg».proof.Proof.RefLevels
import proofs.«124225_j412316860848_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.RefRun Cert.HSoftmax Idealize.ShloMosaic Idealize.ShloMosaic.ValueIdx

/-! ### The level-0 product -/

theorem dot0_lhs0 (i : S4096x16.Idx) (q : dot_S4096x2048_S2048x16_S4096x16_1_0_0_1_n_n.contr.Idx) :
    (dot_S4096x2048_S2048x16_S4096x16_1_0_0_1_n_n.lhsIdx i q 0).val = (i 0).val := by
  unfold DotDims.lhsIdx
  rw [dif_neg (show ¬(0 : Fin S4096x2048.rank) ∈ dot_S4096x2048_S2048x16_S4096x16_1_0_0_1_n_n.lhsBatch by decide), dif_pos (show (0 : Fin S4096x2048.rank) ∈ dot_S4096x2048_S2048x16_S4096x16_1_0_0_1_n_n.lhsNonContracting by decide)]
  rfl

theorem dot0_rhs1 (i : S4096x16.Idx) (q : dot_S4096x2048_S2048x16_S4096x16_1_0_0_1_n_n.contr.Idx) :
    (dot_S4096x2048_S2048x16_S4096x16_1_0_0_1_n_n.rhsIdx i q 1).val = (i 1).val := by
  unfold DotDims.rhsIdx
  rw [dif_neg (show ¬(1 : Fin S2048x16.rank) ∈ dot_S4096x2048_S2048x16_S4096x16_1_0_0_1_n_n.rhsBatch by decide), dif_pos (show (1 : Fin S2048x16.rank) ∈ dot_S4096x2048_S2048x16_S4096x16_1_0_0_1_n_n.rhsNonContracting by decide)]
  rfl

/-- The level-0 product at `(b, p)` is `Σ_k l(b, k) · r(k, p)`. -/
theorem dot0_apply (l : FVec Ideal S4096x2048 .f32) (r : FVec Ideal S2048x16 .f32) (b : Fin 4096) (p : Fin 16) :
    Host.dotGeneral dot_S4096x2048_S2048x16_S4096x16_1_0_0_1_n_n none l r (ix2 b p) = ∑ k : Fin 2048, l (ix2 b k) * r (ix2 k p) := by
  simp only [Host.dotGeneral]
  rw [Ideal.dotGeneral_apply, ← Equiv.sum_comp (contrEquiv1 dot_S4096x2048_S2048x16_S4096x16_1_0_0_1_n_n 2048 rfl rfl).symm]
  refine Finset.sum_congr rfl fun k _ => ?_
  have hk := contrEquiv1_symm_val dot_S4096x2048_S2048x16_S4096x16_1_0_0_1_n_n 2048 rfl rfl k
  have el : dot_S4096x2048_S2048x16_S4096x16_1_0_0_1_n_n.lhsIdx (ix2 b p) ((contrEquiv1 dot_S4096x2048_S2048x16_S4096x16_1_0_0_1_n_n 2048 rfl rfl).symm k) = ix2 b k := funext fun a => Fin.ext (by
    match a with
    | ⟨0, _⟩ => exact dot0_lhs0 _ _
    | ⟨1, _⟩ => exact (dot_S4096x2048_S2048x16_S4096x16_1_0_0_1_n_n.lhsIdx_val_of_single rfl _ _).trans hk)
  have er : dot_S4096x2048_S2048x16_S4096x16_1_0_0_1_n_n.rhsIdx (ix2 b p) ((contrEquiv1 dot_S4096x2048_S2048x16_S4096x16_1_0_0_1_n_n 2048 rfl rfl).symm k) = ix2 k p := funext fun a => Fin.ext (by
    match a with
    | ⟨0, _⟩ => exact (dot_S4096x2048_S2048x16_S4096x16_1_0_0_1_n_n.rhsIdx_val_of_single rfl _ _).trans hk
    | ⟨1, _⟩ => exact dot0_rhs1 _ _)
  rw [el, er]

/-- The level-0 bias spread over the batch reads, at `(b, p)`, the bias at `p`. -/
theorem bias0_apply (x : FVec Ideal S16 .f32) (b : Fin 4096) (p : Fin 16) :
    broadcastInDim S4096x16 ![0, 1] bcast_S1x16_S4096x16_0_1 (broadcastInDim S1x16 ![1] bcast_S16_S1x16_1 x) (ix2 b p) = x (ix1 p) := by
  refine (broadcastInDim_apply _ bcast_S1x16_S4096x16_0_1 _ (ix2 b p) (ix2 (0 : Fin 1) p) fun a => ?_).trans ?_
  · match a with
    | ⟨0, _⟩ => show 0 = if (1 : ℕ) = 1 then 0 else b.val; rw [if_pos rfl]
    | ⟨1, _⟩ => show p.val = if (16 : ℕ) = 1 then 0 else p.val; rw [if_neg (by decide)]
  · refine broadcastInDim_apply _ bcast_S16_S1x16_1 x (ix2 (0 : Fin 1) p) (ix1 p) fun a => ?_
    match a with
    | ⟨0, _⟩ => show p.val = if (16 : ℕ) = 1 then 0 else p.val; rw [if_neg (by decide)]

/-- The level-0 scores of the reference are the specification's. -/
theorem score0_apply (x0 : (⟨2, ![4096, 2048]⟩ : Shape).Idx → EReal) (x1 : (⟨2, ![16, 2048]⟩ : Shape).Idx → EReal)
    (x2 : (⟨1, ![16]⟩ : Shape).Idx → EReal) (b : Fin 4096) (p : Fin 16) :
    score0 (F := Ideal) x0 x1 x2 (ix2 b p) = raw0 x0 x1 x2 b p := by
  unfold score0 raw0
  refine congrArg₂ (· + ·) ((dot0_apply x0 _ b p).trans (Finset.sum_congr rfl fun k _ => congrArg (x0 (ix2 b k) * ·) ?_)) (bias0_apply x2 b p)
  exact transpose_apply [1, 0] x1 transposes_S16x2048_S2048x16_1_0 (ix2 k p) (ix2 p k) fun c => match c with
    | ⟨0, _⟩ => rfl
    | ⟨1, _⟩ => rfl

/-! ### The level-1 product -/

theorem dot1_lhs0 (i : S4096x16x16.Idx) (q : dot_S4096x2048_S16x16x2048_S4096x16x16_1_2_0_01_n_n.contr.Idx) :
    (dot_S4096x2048_S16x16x2048_S4096x16x16_1_2_0_01_n_n.lhsIdx i q 0).val = (i 0).val := by
  unfold DotDims.lhsIdx
  rw [dif_neg (show ¬(0 : Fin S4096x2048.rank) ∈ dot_S4096x2048_S16x16x2048_S4096x16x16_1_2_0_01_n_n.lhsBatch by decide), dif_pos (show (0 : Fin S4096x2048.rank) ∈ dot_S4096x2048_S16x16x2048_S4096x16x16_1_2_0_01_n_n.lhsNonContracting by decide)]
  rfl

theorem dot1_rhs0 (i : S4096x16x16.Idx) (q : dot_S4096x2048_S16x16x2048_S4096x16x16_1_2_0_01_n_n.contr.Idx) :
    (dot_S4096x2048_S16x16x2048_S4096x16x16_1_2_0_01_n_n.rhsIdx i q 0).val = (i 1).val := by
  unfold DotDims.rhsIdx
  rw [dif_neg (show ¬(0 : Fin S16x16x2048.rank) ∈ dot_S4096x2048_S16x16x2048_S4096x16x16_1_2_0_01_n_n.rhsBatch by decide), dif_pos (show (0 : Fin S16x16x2048.rank) ∈ dot_S4096x2048_S16x16x2048_S4096x16x16_1_2_0_01_n_n.rhsNonContracting by decide)]
  rfl

theorem dot1_rhs1 (i : S4096x16x16.Idx) (q : dot_S4096x2048_S16x16x2048_S4096x16x16_1_2_0_01_n_n.contr.Idx) :
    (dot_S4096x2048_S16x16x2048_S4096x16x16_1_2_0_01_n_n.rhsIdx i q 1).val = (i 2).val := by
  unfold DotDims.rhsIdx
  rw [dif_neg (show ¬(1 : Fin S16x16x2048.rank) ∈ dot_S4096x2048_S16x16x2048_S4096x16x16_1_2_0_01_n_n.rhsBatch by decide), dif_pos (show (1 : Fin S16x16x2048.rank) ∈ dot_S4096x2048_S16x16x2048_S4096x16x16_1_2_0_01_n_n.rhsNonContracting by decide)]
  rfl

/-- The level-1 product at `(b, p, q)` is `Σ_k l(b, k) · r(p, q, k)`. -/
theorem dot1_apply (l : FVec Ideal S4096x2048 .f32) (r : FVec Ideal S16x16x2048 .f32) (b : Fin 4096) (p : Fin 16) (q : Fin 16) :
    Host.dotGeneral dot_S4096x2048_S16x16x2048_S4096x16x16_1_2_0_01_n_n none l r (ix3 b p q) = ∑ k : Fin 2048, l (ix2 b k) * r (ix3 p q k) := by
  simp only [Host.dotGeneral]
  rw [Ideal.dotGeneral_apply, ← Equiv.sum_comp (contrEquiv1 dot_S4096x2048_S16x16x2048_S4096x16x16_1_2_0_01_n_n 2048 rfl rfl).symm]
  refine Finset.sum_congr rfl fun k _ => ?_
  have hk := contrEquiv1_symm_val dot_S4096x2048_S16x16x2048_S4096x16x16_1_2_0_01_n_n 2048 rfl rfl k
  have el : dot_S4096x2048_S16x16x2048_S4096x16x16_1_2_0_01_n_n.lhsIdx (ix3 b p q) ((contrEquiv1 dot_S4096x2048_S16x16x2048_S4096x16x16_1_2_0_01_n_n 2048 rfl rfl).symm k) = ix2 b k := funext fun a => Fin.ext (by
    match a with
    | ⟨0, _⟩ => exact dot1_lhs0 _ _
    | ⟨1, _⟩ => exact (dot_S4096x2048_S16x16x2048_S4096x16x16_1_2_0_01_n_n.lhsIdx_val_of_single rfl _ _).trans hk)
  have er : dot_S4096x2048_S16x16x2048_S4096x16x16_1_2_0_01_n_n.rhsIdx (ix3 b p q) ((contrEquiv1 dot_S4096x2048_S16x16x2048_S4096x16x16_1_2_0_01_n_n 2048 rfl rfl).symm k) = ix3 p q k := funext fun a => Fin.ext (by
    match a with
    | ⟨0, _⟩ => exact dot1_rhs0 _ _
    | ⟨1, _⟩ => exact dot1_rhs1 _ _
    | ⟨2, _⟩ => exact (dot_S4096x2048_S16x16x2048_S4096x16x16_1_2_0_01_n_n.rhsIdx_val_of_single rfl _ _).trans hk)
  rw [el, er]

/-- The level-1 bias spread over the batch reads, at `(b, p, q)`, the bias at `(p, q)`. -/
theorem bias1_apply (x : FVec Ideal S16x16 .f32) (b : Fin 4096) (p : Fin 16) (q : Fin 16) :
    broadcastInDim S4096x16x16 ![0, 1, 2] bcast_S1x16x16_S4096x16x16_0_1_2 (broadcastInDim S1x16x16 ![1, 2] bcast_S16x16_S1x16x16_1_2 x) (ix3 b p q) = x (ix2 p q) := by
  refine (broadcastInDim_apply _ bcast_S1x16x16_S4096x16x16_0_1_2 _ (ix3 b p q) (ix3 (0 : Fin 1) p q) fun a => ?_).trans ?_
  · match a with
    | ⟨0, _⟩ => show 0 = if (1 : ℕ) = 1 then 0 else b.val; rw [if_pos rfl]
    | ⟨1, _⟩ => show p.val = if (16 : ℕ) = 1 then 0 else p.val; rw [if_neg (by decide)]
    | ⟨2, _⟩ => show q.val = if (16 : ℕ) = 1 then 0 else q.val; rw [if_neg (by decide)]
  · refine broadcastInDim_apply _ bcast_S16x16_S1x16x16_1_2 x (ix3 (0 : Fin 1) p q) (ix2 p q) fun a => ?_
    match a with
    | ⟨0, _⟩ => show p.val = if (16 : ℕ) = 1 then 0 else p.val; rw [if_neg (by decide)]
    | ⟨1, _⟩ => show q.val = if (16 : ℕ) = 1 then 0 else q.val; rw [if_neg (by decide)]

/-- The level-1 scores of the reference are the specification's. -/
theorem score1_apply (x0 : (⟨2, ![4096, 2048]⟩ : Shape).Idx → EReal) (x3 : (⟨3, ![16, 16, 2048]⟩ : Shape).Idx → EReal)
    (x4 : (⟨2, ![16, 16]⟩ : Shape).Idx → EReal) (b : Fin 4096) (p q : Fin 16) :
    score1 (F := Ideal) x0 x3 x4 (ix3 b p q) = raw1 x0 x3 x4 b p q := by
  unfold score1 raw1
  exact congrArg₂ (· + ·) (dot1_apply x0 x3 b p q) (bias1_apply x4 b p q)

/-! ### The level-2 product -/

theorem dot2_lhs0 (i : S4096x256x16.Idx) (q : dot_S4096x2048_S256x16x2048_S4096x256x16_1_2_0_01_n_n.contr.Idx) :
    (dot_S4096x2048_S256x16x2048_S4096x256x16_1_2_0_01_n_n.lhsIdx i q 0).val = (i 0).val := by
  unfold DotDims.lhsIdx
  rw [dif_neg (show ¬(0 : Fin S4096x2048.rank) ∈ dot_S4096x2048_S256x16x2048_S4096x256x16_1_2_0_01_n_n.lhsBatch by decide), dif_pos (show (0 : Fin S4096x2048.rank) ∈ dot_S4096x2048_S256x16x2048_S4096x256x16_1_2_0_01_n_n.lhsNonContracting by decide)]
  rfl

theorem dot2_rhs0 (i : S4096x256x16.Idx) (q : dot_S4096x2048_S256x16x2048_S4096x256x16_1_2_0_01_n_n.contr.Idx) :
    (dot_S4096x2048_S256x16x2048_S4096x256x16_1_2_0_01_n_n.rhsIdx i q 0).val = (i 1).val := by
  unfold DotDims.rhsIdx
  rw [dif_neg (show ¬(0 : Fin S256x16x2048.rank) ∈ dot_S4096x2048_S256x16x2048_S4096x256x16_1_2_0_01_n_n.rhsBatch by decide), dif_pos (show (0 : Fin S256x16x2048.rank) ∈ dot_S4096x2048_S256x16x2048_S4096x256x16_1_2_0_01_n_n.rhsNonContracting by decide)]
  rfl

theorem dot2_rhs1 (i : S4096x256x16.Idx) (q : dot_S4096x2048_S256x16x2048_S4096x256x16_1_2_0_01_n_n.contr.Idx) :
    (dot_S4096x2048_S256x16x2048_S4096x256x16_1_2_0_01_n_n.rhsIdx i q 1).val = (i 2).val := by
  unfold DotDims.rhsIdx
  rw [dif_neg (show ¬(1 : Fin S256x16x2048.rank) ∈ dot_S4096x2048_S256x16x2048_S4096x256x16_1_2_0_01_n_n.rhsBatch by decide), dif_pos (show (1 : Fin S256x16x2048.rank) ∈ dot_S4096x2048_S256x16x2048_S4096x256x16_1_2_0_01_n_n.rhsNonContracting by decide)]
  rfl

/-- The level-2 product at `(b, p, q)` is `Σ_k l(b, k) · r(p, q, k)`. -/
theorem dot2_apply (l : FVec Ideal S4096x2048 .f32) (r : FVec Ideal S256x16x2048 .f32) (b : Fin 4096) (p : Fin 256) (q : Fin 16) :
    Host.dotGeneral dot_S4096x2048_S256x16x2048_S4096x256x16_1_2_0_01_n_n none l r (ix3 b p q) = ∑ k : Fin 2048, l (ix2 b k) * r (ix3 p q k) := by
  simp only [Host.dotGeneral]
  rw [Ideal.dotGeneral_apply, ← Equiv.sum_comp (contrEquiv1 dot_S4096x2048_S256x16x2048_S4096x256x16_1_2_0_01_n_n 2048 rfl rfl).symm]
  refine Finset.sum_congr rfl fun k _ => ?_
  have hk := contrEquiv1_symm_val dot_S4096x2048_S256x16x2048_S4096x256x16_1_2_0_01_n_n 2048 rfl rfl k
  have el : dot_S4096x2048_S256x16x2048_S4096x256x16_1_2_0_01_n_n.lhsIdx (ix3 b p q) ((contrEquiv1 dot_S4096x2048_S256x16x2048_S4096x256x16_1_2_0_01_n_n 2048 rfl rfl).symm k) = ix2 b k := funext fun a => Fin.ext (by
    match a with
    | ⟨0, _⟩ => exact dot2_lhs0 _ _
    | ⟨1, _⟩ => exact (dot_S4096x2048_S256x16x2048_S4096x256x16_1_2_0_01_n_n.lhsIdx_val_of_single rfl _ _).trans hk)
  have er : dot_S4096x2048_S256x16x2048_S4096x256x16_1_2_0_01_n_n.rhsIdx (ix3 b p q) ((contrEquiv1 dot_S4096x2048_S256x16x2048_S4096x256x16_1_2_0_01_n_n 2048 rfl rfl).symm k) = ix3 p q k := funext fun a => Fin.ext (by
    match a with
    | ⟨0, _⟩ => exact dot2_rhs0 _ _
    | ⟨1, _⟩ => exact dot2_rhs1 _ _
    | ⟨2, _⟩ => exact (dot_S4096x2048_S256x16x2048_S4096x256x16_1_2_0_01_n_n.rhsIdx_val_of_single rfl _ _).trans hk)
  rw [el, er]

/-- The level-2 bias spread over the batch reads, at `(b, p, q)`, the bias at `(p, q)`. -/
theorem bias2_apply (x : FVec Ideal S256x16 .f32) (b : Fin 4096) (p : Fin 256) (q : Fin 16) :
    broadcastInDim S4096x256x16 ![0, 1, 2] bcast_S1x256x16_S4096x256x16_0_1_2 (broadcastInDim S1x256x16 ![1, 2] bcast_S256x16_S1x256x16_1_2 x) (ix3 b p q) = x (ix2 p q) := by
  refine (broadcastInDim_apply _ bcast_S1x256x16_S4096x256x16_0_1_2 _ (ix3 b p q) (ix3 (0 : Fin 1) p q) fun a => ?_).trans ?_
  · match a with
    | ⟨0, _⟩ => show 0 = if (1 : ℕ) = 1 then 0 else b.val; rw [if_pos rfl]
    | ⟨1, _⟩ => show p.val = if (256 : ℕ) = 1 then 0 else p.val; rw [if_neg (by decide)]
    | ⟨2, _⟩ => show q.val = if (16 : ℕ) = 1 then 0 else q.val; rw [if_neg (by decide)]
  · refine broadcastInDim_apply _ bcast_S256x16_S1x256x16_1_2 x (ix3 (0 : Fin 1) p q) (ix2 p q) fun a => ?_
    match a with
    | ⟨0, _⟩ => show p.val = if (256 : ℕ) = 1 then 0 else p.val; rw [if_neg (by decide)]
    | ⟨1, _⟩ => show q.val = if (16 : ℕ) = 1 then 0 else q.val; rw [if_neg (by decide)]

/-- The level-2 scores of the reference are the specification's. -/
theorem score2_apply (x0 : (⟨2, ![4096, 2048]⟩ : Shape).Idx → EReal) (x5 : (⟨3, ![256, 16, 2048]⟩ : Shape).Idx → EReal)
    (x6 : (⟨2, ![256, 16]⟩ : Shape).Idx → EReal) (b : Fin 4096) (r : Fin 256) (s : Fin 16) :
    score2 (F := Ideal) x0 x5 x6 (ix3 b r s) = raw2 x0 x5 x6 b r s := by
  unfold score2 raw2
  exact congrArg₂ (· + ·) (dot2_apply x0 x5 b r s) (bias2_apply x6 b r s)

end Cert.ReferenceIdeal.RefRead

end
-- ==== Proof.LibHostKeptAxis.lean ====
/-
  A reduced axis kept as a unit axis, and a unit axis spread back, by `broadcast_in_dim`: read at an entry.

  A reduction along the last axis of an `[B, C]` (or `[B, P, C]`) array leaves an `[B]` (or `[B, P]`) array; keeping the
  axis views it as `[B, 1]` (or `[B, P, 1]`), every axis mapped to itself, and spreading it back repeats it along the
  last axis. Read at an entry:
    * `[B] → [B, 1]` at `(b, u)` is the operand at `b`;           `[B, 1] → [B, C]` at `(b, c)` is the operand at `(b, 0)`;
    * `[B, P] → [B, P, 1]` at `(b, p, u)` is the operand at `(b, p)`; `[B, P, 1] → [B, P, C]` at `(b, p, c)` is the operand
      at `(b, p, 0)`.
-/
import Idealize.ShloMosaic.Lib.Pipeline.Value
import Idealize.ShloMosaic.Lib.ValueIdx

noncomputable section

namespace Cert.Lib

open Idealize.ShloMosaic Idealize.ShloMosaic.ValueIdx

variable {α : Type}

/-- A `[B]` array viewed as `[B, 1]` reads, at `(b, u)`, the operand at `b`. -/
theorem broadcastInDim_a_a1_apply {B : ℕ} (x : (⟨1, ![B]⟩ : Shape).Idx → α)
    (h : (⟨1, ![B]⟩ : Shape).BroadcastsInDim ⟨2, ![B, 1]⟩ (![0] : Fin 1 → Fin (⟨2, ![B, 1]⟩ : Shape).rank))
    (b : Fin B) (u : Fin 1) : broadcastInDim ⟨2, ![B, 1]⟩ ![0] h x (ix2 b u) = x (ix1 b) := by
  refine broadcastInDim_apply _ h x (ix2 b u) (ix1 b) fun ax => ?_
  match ax with
  | ⟨0, _⟩ =>
    show b.val = if B = 1 then 0 else b.val
    split
    · have := b.isLt; omega
    · rfl

/-- A `[B, 1]` column spread to `[B, C]` reads, at `(b, c)`, the column at `(b, 0)`. -/
theorem broadcastInDim_a1_ab_apply {B C : ℕ} (x : (⟨2, ![B, 1]⟩ : Shape).Idx → α)
    (h : (⟨2, ![B, 1]⟩ : Shape).BroadcastsInDim ⟨2, ![B, C]⟩ (![0, 1] : Fin 2 → Fin (⟨2, ![B, C]⟩ : Shape).rank))
    (b : Fin B) (c : Fin C) : broadcastInDim ⟨2, ![B, C]⟩ ![0, 1] h x (ix2 b c) = x (ix2 b (0 : Fin 1)) := by
  refine broadcastInDim_apply _ h x (ix2 b c) (ix2 b (0 : Fin 1)) fun ax => ?_
  match ax with
  | ⟨0, _⟩ =>
    show b.val = if B = 1 then 0 else b.val
    split
    · have := b.isLt; omega
    · rfl
  | ⟨1, _⟩ =>
    show 0 = if (1 : ℕ) = 1 then 0 else c.val
    rw [if_pos rfl]

/-- A `[B, P]` array viewed as `[B, P, 1]` reads, at `(b, p, u)`, the operand at `(b, p)`. -/
theorem broadcastInDim_ab_ab1_apply {B P : ℕ} (x : (⟨2, ![B, P]⟩ : Shape).Idx → α)
    (h : (⟨2, ![B, P]⟩ : Shape).BroadcastsInDim ⟨3, ![B, P, 1]⟩ (![0, 1] : Fin 2 → Fin (⟨3, ![B, P, 1]⟩ : Shape).rank))
    (b : Fin B) (p : Fin P) (u : Fin 1) : broadcastInDim ⟨3, ![B, P, 1]⟩ ![0, 1] h x (ix3 b p u) = x (ix2 b p) := by
  refine broadcastInDim_apply _ h x (ix3 b p u) (ix2 b p) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl

/-- A `[B, P, 1]` array spread to `[B, P, C]` reads, at `(b, p, c)`, the operand at `(b, p, 0)`. -/
theorem broadcastInDim_ab1_abc_apply {B P C : ℕ} (x : (⟨3, ![B, P, 1]⟩ : Shape).Idx → α)
    (h : (⟨3, ![B, P, 1]⟩ : Shape).BroadcastsInDim ⟨3, ![B, P, C]⟩ (![0, 1, 2] : Fin 3 → Fin (⟨3, ![B, P, C]⟩ : Shape).rank))
    (b : Fin B) (p : Fin P) (c : Fin C) :
    broadcastInDim ⟨3, ![B, P, C]⟩ ![0, 1, 2] h x (ix3 b p c) = x (ix3 b p (0 : Fin 1)) := by
  refine broadcastInDim_apply _ h x (ix3 b p c) (ix3 b p (0 : Fin 1)) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl
  | ⟨2, _⟩ =>
    show 0 = if (1 : ℕ) = 1 then 0 else c.val
    rw [if_pos rfl]

end Cert.Lib

end
-- ==== Proof.LibHostLogSoftmax.lean ====
/-
  The stable log-softmax as a chain of host array operations, read at an entry, over the extended reals.

  Along the last axis of an array `x` the chain takes the largest entry (a `reduce` with `maximum` from the `-∞` constant,
  then `maximum` with the `-∞` constant spread over the reduced shape), keeps the reduced axis as a unit axis, spreads the
  result back along it and subtracts (the shifted scores `x - M`); then it exponentiates, sums along the axis from the
  zero constant, keeps the axis, takes the logarithm, spreads it back and subtracts again:
      `out = (x - M) - log (Σ exp (x - M))`.
  Read at an entry, with the other coordinates fixed, this is `Cert.HSoftmax.lsm` of the family of entries along the
  axis. Stated once for rank 2 (`[B, C]`, axis 1, through `[B] → [B, 1] → [B, C]`) and once for rank 3 (`[B, P, C]`,
  axis 2, through `[B, P] → [B, P, 1] → [B, P, C]`), with every extent a variable and every shape fact a hypothesis.
-/
import Idealize.ShloMosaic.PureOps.Ideal.Laws
import Idealize.ShloMosaic.Lib.ValueIdx
import Idealize.ShloMosaic.Lib.IdealHost
import proofs.«124225_j412316860848_2_alg».proof.Proof.Spec
import proofs.«124225_j412316860848_2_alg».proof.Proof.LibHostKeptAxis
import proofs.«124225_j412316860848_2_alg».proof.Proof.LibLogSoftmax

noncomputable section

open scoped BigOperators

namespace Cert.Lib

open Idealize.ShloMosaic Idealize.ShloMosaic.ValueIdx Cert.HSoftmax

/-! ## Rank 3, last axis -/

section Rank3
variable {B P C : ℕ} (x : FVec Ideal ⟨3, ![B, P, C]⟩ .f32)
  (hto : (⟨3, ![B, P, C]⟩ : Shape).ReducesTo [2] ⟨2, ![B, P]⟩)
  (hu : 0 < (⟨0, ![]⟩ : Shape).numel)
  (hb0 : (⟨0, ![]⟩ : Shape).BroadcastsInDim ⟨2, ![B, P]⟩ (![] : Fin 0 → Fin (⟨2, ![B, P]⟩ : Shape).rank))
  (hb1 : (⟨2, ![B, P]⟩ : Shape).BroadcastsInDim ⟨3, ![B, P, 1]⟩ (![0, 1] : Fin 2 → Fin (⟨3, ![B, P, 1]⟩ : Shape).rank))
  (hb2 : (⟨3, ![B, P, 1]⟩ : Shape).BroadcastsInDim ⟨3, ![B, P, C]⟩ (![0, 1, 2] : Fin 3 → Fin (⟨3, ![B, P, C]⟩ : Shape).rank))

/-- The shifted scores: `x` minus, along the last axis, `max(-∞, the maximum)`. -/
def hostShifted3 : FVec Ideal ⟨3, ![B, P, C]⟩ .f32 :=
  subf x (broadcastInDim ⟨3, ![B, P, C]⟩ ![0, 1, 2] hb2 (broadcastInDim ⟨3, ![B, P, 1]⟩ ![0, 1] hb1
    (maximumf (broadcastInDim ⟨2, ![B, P]⟩ ![] hb0 (constant (F := Ideal) ⟨0, ![]⟩ .f32 0xFF800000#32))
      (Host.reduce FloatOps.maximumf x (constant (F := Ideal) ⟨0, ![]⟩ .f32 0xFF800000#32) hto hu))))

/-- The shifted scores at `(b, p, q)`: the entry minus the row maximum of the entries `(b, p, ·)`. -/
theorem hostShifted3_apply (hred : (⟨3, ![B, P, C]⟩ : Shape).Reduces [2] ⟨2, ![B, P]⟩) (b : Fin B) (p : Fin P) (q : Fin C) :
    hostShifted3 x hto hu hb0 hb1 hb2 (ix3 b p q) = x (ix3 b p q) - rowMax (fun q' : Fin C => x (ix3 b p q')) := by
  unfold hostShifted3
  refine congrArg (fun y : EReal => x (ix3 b p q) - y) ?_
  refine (broadcastInDim_ab1_abc_apply _ hb2 b p q).trans ?_
  refine (broadcastInDim_ab_ab1_apply _ hb1 b p (0 : Fin 1)).trans ?_
  show max (broadcastInDim ⟨2, ![B, P]⟩ ![] hb0 (constant (F := Ideal) ⟨0, ![]⟩ .f32 0xFF800000#32) (ix2 b p))
      (Host.reduce FloatOps.maximumf x (constant (F := Ideal) ⟨0, ![]⟩ .f32 0xFF800000#32) hto hu (ix2 b p)) = _
  rw [broadcastInDim_scalar_apply hb0]
  unfold rowMax
  refine congrArg (max negInf) ?_
  refine (Host.reduce_eq_fold_single FloatOps.maximumf x _ hto hred hu (ix2 b p)).trans ?_
  show (Finset.univ : Finset (Fin C)).fold max negInf (x ∘ hred.lift (ix2 b p)) = _
  refine congrArg (fun f => (Finset.univ : Finset (Fin C)).fold max negInf f) ?_
  funext k
  exact congrArg x (lift3_last hred b p k)

/-- The chain: the shifted scores minus the logarithm of the sum of their exponentials, spread back. -/
def hostLsmChain3 : FVec Ideal ⟨3, ![B, P, C]⟩ .f32 :=
  subf (hostShifted3 x hto hu hb0 hb1 hb2)
    (broadcastInDim ⟨3, ![B, P, C]⟩ ![0, 1, 2] hb2 (Host.log (broadcastInDim ⟨3, ![B, P, 1]⟩ ![0, 1] hb1
      (Host.reduceAdd (Host.exp (hostShifted3 x hto hu hb0 hb1 hb2)) (constant (F := Ideal) ⟨0, ![]⟩ .f32 0x00000000#32) hto hu))))

/-- THE CHAIN AT AN ENTRY: the log-softmax of the entries `(b, p, ·)`, at `q`. -/
theorem hostLsmChain3_apply (hred : (⟨3, ![B, P, C]⟩ : Shape).Reduces [2] ⟨2, ![B, P]⟩) (b : Fin B) (p : Fin P) (q : Fin C) :
    hostLsmChain3 x hto hu hb0 hb1 hb2 (ix3 b p q) = lsm (fun q' : Fin C => x (ix3 b p q')) q := by
  have hS : ∀ q' : Fin C, hostShifted3 x hto hu hb0 hb1 hb2 (ix3 b p q')
      = x (ix3 b p q') - rowMax (fun q'' : Fin C => x (ix3 b p q'')) :=
    fun q' => hostShifted3_apply x hto hu hb0 hb1 hb2 hred b p q'
  unfold hostLsmChain3 lsm
  refine congrArg₂ (fun y z : EReal => y - z) (hS q) ?_
  refine (broadcastInDim_ab1_abc_apply _ hb2 b p q).trans ?_
  show Ideal.log _ = _
  refine congrArg Ideal.log ?_
  refine (broadcastInDim_ab_ab1_apply _ hb1 b p (0 : Fin 1)).trans ?_
  refine (hostReduceAdd_apply _ _ hto hu (ix2 b p)).trans ?_
  refine (Ideal.hostReduceAdd_single hto hred _ _ (ix2 b p)).trans ?_
  show Ideal.ofBits .f32 0x00000000#32 + ∑ k : Fin C, Host.exp (hostShifted3 x hto hu hb0 hb1 hb2) (hred.lift (ix2 b p) k) = _
  rw [Ideal.ofBits_zero_f32, zero_add]
  refine Finset.sum_congr rfl fun k _ => ?_
  rw [lift3_last hred b p k]
  show Ideal.exp (hostShifted3 x hto hu hb0 hb1 hb2 (ix3 b p k)) = _
  rw [hS k]

end Rank3

/-! ## Rank 2, last axis -/

section Rank2
variable {B C : ℕ} (x : FVec Ideal ⟨2, ![B, C]⟩ .f32)
  (hto : (⟨2, ![B, C]⟩ : Shape).ReducesTo [1] ⟨1, ![B]⟩)
  (hu : 0 < (⟨0, ![]⟩ : Shape).numel)
  (hb0 : (⟨0, ![]⟩ : Shape).BroadcastsInDim ⟨1, ![B]⟩ (![] : Fin 0 → Fin (⟨1, ![B]⟩ : Shape).rank))
  (hb1 : (⟨1, ![B]⟩ : Shape).BroadcastsInDim ⟨2, ![B, 1]⟩ (![0] : Fin 1 → Fin (⟨2, ![B, 1]⟩ : Shape).rank))
  (hb2 : (⟨2, ![B, 1]⟩ : Shape).BroadcastsInDim ⟨2, ![B, C]⟩ (![0, 1] : Fin 2 → Fin (⟨2, ![B, C]⟩ : Shape).rank))

/-- The shifted scores: `x` minus, in each row, `max(-∞, the row's maximum)`. -/
def hostShifted2 : FVec Ideal ⟨2, ![B, C]⟩ .f32 :=
  subf x (broadcastInDim ⟨2, ![B, C]⟩ ![0, 1] hb2 (broadcastInDim ⟨2, ![B, 1]⟩ ![0] hb1
    (maximumf (broadcastInDim ⟨1, ![B]⟩ ![] hb0 (constant (F := Ideal) ⟨0, ![]⟩ .f32 0xFF800000#32))
      (Host.reduce FloatOps.maximumf x (constant (F := Ideal) ⟨0, ![]⟩ .f32 0xFF800000#32) hto hu))))

/-- The shifted scores at `(b, q)`: the entry minus the row maximum of row `b`. -/
theorem hostShifted2_apply (hred : (⟨2, ![B, C]⟩ : Shape).Reduces [1] ⟨1, ![B]⟩) (b : Fin B) (q : Fin C) :
    hostShifted2 x hto hu hb0 hb1 hb2 (ix2 b q) = x (ix2 b q) - rowMax (fun q' : Fin C => x (ix2 b q')) := by
  unfold hostShifted2
  refine congrArg (fun y : EReal => x (ix2 b q) - y) ?_
  refine (broadcastInDim_a1_ab_apply _ hb2 b q).trans ?_
  refine (broadcastInDim_a_a1_apply _ hb1 b (0 : Fin 1)).trans ?_
  show max (broadcastInDim ⟨1, ![B]⟩ ![] hb0 (constant (F := Ideal) ⟨0, ![]⟩ .f32 0xFF800000#32) (ix1 b))
      (Host.reduce FloatOps.maximumf x (constant (F := Ideal) ⟨0, ![]⟩ .f32 0xFF800000#32) hto hu (ix1 b)) = _
  rw [broadcastInDim_scalar_apply hb0]
  unfold rowMax
  refine congrArg (max negInf) ?_
  refine (Host.reduce_eq_fold_single FloatOps.maximumf x _ hto hred hu (ix1 b)).trans ?_
  show (Finset.univ : Finset (Fin C)).fold max negInf (x ∘ hred.lift (ix1 b)) = _
  refine congrArg (fun f => (Finset.univ : Finset (Fin C)).fold max negInf f) ?_
  funext k
  exact congrArg x (lift2_last hred b k)

/-- The chain: the shifted scores minus the logarithm of the row sum of their exponentials, spread back. -/
def hostLsmChain2 : FVec Ideal ⟨2, ![B, C]⟩ .f32 :=
  subf (hostShifted2 x hto hu hb0 hb1 hb2)
    (broadcastInDim ⟨2, ![B, C]⟩ ![0, 1] hb2 (Host.log (broadcastInDim ⟨2, ![B, 1]⟩ ![0] hb1
      (Host.reduceAdd (Host.exp (hostShifted2 x hto hu hb0 hb1 hb2)) (constant (F := Ideal) ⟨0, ![]⟩ .f32 0x00000000#32) hto hu))))

/-- THE CHAIN AT AN ENTRY: the log-softmax of row `b`, at `q`. -/
theorem hostLsmChain2_apply (hred : (⟨2, ![B, C]⟩ : Shape).Reduces [1] ⟨1, ![B]⟩) (b : Fin B) (q : Fin C) :
    hostLsmChain2 x hto hu hb0 hb1 hb2 (ix2 b q) = lsm (fun q' : Fin C => x (ix2 b q')) q := by
  have hS : ∀ q' : Fin C, hostShifted2 x hto hu hb0 hb1 hb2 (ix2 b q')
      = x (ix2 b q') - rowMax (fun q'' : Fin C => x (ix2 b q'')) :=
    fun q' => hostShifted2_apply x hto hu hb0 hb1 hb2 hred b q'
  unfold hostLsmChain2 lsm
  refine congrArg₂ (fun y z : EReal => y - z) (hS q) ?_
  refine (broadcastInDim_a1_ab_apply _ hb2 b q).trans ?_
  show Ideal.log _ = _
  refine congrArg Ideal.log ?_
  refine (broadcastInDim_a_a1_apply _ hb1 b (0 : Fin 1)).trans ?_
  refine (hostReduceAdd_apply _ _ hto hu (ix1 b)).trans ?_
  refine (Ideal.hostReduceAdd_single hto hred _ _ (ix1 b)).trans ?_
  show Ideal.ofBits .f32 0x00000000#32 + ∑ k : Fin C, Host.exp (hostShifted2 x hto hu hb0 hb1 hb2) (hred.lift (ix1 b) k) = _
  rw [Ideal.ofBits_zero_f32, zero_add]
  refine Finset.sum_congr rfl fun k _ => ?_
  rw [lift2_last hred b k]
  show Ideal.exp (hostShifted2 x hto hu hb0 hb1 hb2 (ix2 b k)) = _
  rw [hS k]

end Rank2

end Cert.Lib

end
-- ==== Proof.LibConcat3.lean ====
/-
  Three arrays laid side by side along the columns, read at an entry.

  The concatenation along axis 1 of `y0 : [B, n0]`, `y1 : [B, n1]` and `y2 : [B, n2]` is an `[B, N]` array,
  `N = n0 + n1 + n2`. At row `b` and column `n` it reads `y0 (b, n)` for `n < n0`, `y1 (b, n - n0)` for the next `n1`
  columns and `y2 (b, n - (n0 + n1))` for the last `n2`.
-/
import Idealize.ShloMosaic.Lib.Pipeline.Value
import Idealize.ShloMosaic.Lib.ValueIdx

noncomputable section

namespace Cert.Lib

open Idealize.ShloMosaic Idealize.ShloMosaic.ValueIdx

section
variable {α : Type} {B N n0 n1 n2 : ℕ}
  (y0 : (⟨2, ![B, n0]⟩ : Shape).Idx → α) (y1 : (⟨2, ![B, n1]⟩ : Shape).Idx → α) (y2 : (⟨2, ![B, n2]⟩ : Shape).Idx → α)
  (h : Shape.Concatenates [(⟨2, ![B, n0]⟩ : Shape), ⟨2, ![B, n1]⟩, ⟨2, ![B, n2]⟩] ⟨2, ![B, N]⟩ 1)

/-- A column among the first `n0` reads the first array. -/
theorem concat3_apply_first (b : Fin B) (n : Fin N) (q : Fin n0) (hn : n.val = q.val) :
    concatenate ⟨2, ![B, N]⟩ 1 [⟨⟨2, ![B, n0]⟩, y0⟩, ⟨⟨2, ![B, n1]⟩, y1⟩, ⟨⟨2, ![B, n2]⟩, y2⟩] h (ix2 b n) = y0 (ix2 b q) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 0
    (by show (0 : ℕ) < 3; decide) ⟨2, ![B, n0]⟩ y0 rfl rfl 0 rfl (ix2 b q) ?_ ?_
  · intro b' hb'
    match b' with
    | ⟨0, _⟩ => rfl
    | ⟨1, _⟩ => exact absurd rfl hb'
  · show 0 + q.val = n.val
    omega

/-- A column among the next `n1` reads the second array, `n0` columns back. -/
theorem concat3_apply_second (b : Fin B) (n : Fin N) (j : Fin n1) (hn : n.val = n0 + j.val) :
    concatenate ⟨2, ![B, N]⟩ 1 [⟨⟨2, ![B, n0]⟩, y0⟩, ⟨⟨2, ![B, n1]⟩, y1⟩, ⟨⟨2, ![B, n2]⟩, y2⟩] h (ix2 b n) = y1 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 1
    (by show (1 : ℕ) < 3; decide) ⟨2, ![B, n1]⟩ y1 rfl rfl n0 ?_ (ix2 b j) ?_ ?_
  · show n0 + 0 = n0
    rfl
  · intro b' hb'
    match b' with
    | ⟨0, _⟩ => rfl
    | ⟨1, _⟩ => exact absurd rfl hb'
  · show n0 + j.val = n.val
    omega

/-- A column among the last `n2` reads the third array, `n0 + n1` columns back. -/
theorem concat3_apply_third (b : Fin B) (n : Fin N) (j : Fin n2) (hn : n.val = n0 + n1 + j.val) :
    concatenate ⟨2, ![B, N]⟩ 1 [⟨⟨2, ![B, n0]⟩, y0⟩, ⟨⟨2, ![B, n1]⟩, y1⟩, ⟨⟨2, ![B, n2]⟩, y2⟩] h (ix2 b n) = y2 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 2
    (by show (2 : ℕ) < 3; decide) ⟨2, ![B, n2]⟩ y2 rfl rfl (n0 + n1) ?_ (ix2 b j) ?_ ?_
  · show n0 + (n1 + 0) = n0 + n1
    rfl
  · intro b' hb'
    match b' with
    | ⟨0, _⟩ => rfl
    | ⟨1, _⟩ => exact absurd rfl hb'
  · show n0 + n1 + j.val = n.val
    omega

/-- THE THREE RANGES AT ONCE: column `n` by cases on where it falls (`n01` names `n0 + n1`; the last alternative is never
    reached, so any value `z` may stand there). -/
theorem concat3_apply (hN : N = n0 + n1 + n2) (n01 : ℕ) (h01 : n01 = n0 + n1) (z : α) (b : Fin B) (n : Fin N) :
    concatenate ⟨2, ![B, N]⟩ 1 [⟨⟨2, ![B, n0]⟩, y0⟩, ⟨⟨2, ![B, n1]⟩, y1⟩, ⟨⟨2, ![B, n2]⟩, y2⟩] h (ix2 b n)
      = if h0 : n.val < n0 then y0 (ix2 b ⟨n.val, h0⟩)
        else if h1 : n.val - n0 < n1 then y1 (ix2 b ⟨n.val - n0, h1⟩)
        else if h2 : n.val - n01 < n2 then y2 (ix2 b ⟨n.val - n01, h2⟩)
        else z := by
  by_cases h0 : n.val < n0
  · rw [dif_pos h0]
    exact concat3_apply_first y0 y1 y2 h b n ⟨n.val, h0⟩ rfl
  · rw [dif_neg h0]
    by_cases h1 : n.val - n0 < n1
    · rw [dif_pos h1]
      exact concat3_apply_second y0 y1 y2 h b n ⟨n.val - n0, h1⟩ (by show n.val = n0 + (n.val - n0); omega)
    · rw [dif_neg h1]
      have h2 : n.val - n01 < n2 := by have := n.isLt; omega
      rw [dif_pos h2]
      exact concat3_apply_third y0 y1 y2 h b n ⟨n.val - n01, h2⟩ (by show n.val = n0 + n1 + (n.val - n01); omega)

end

end Cert.Lib

end
-- ==== Proof.LibMergeChildren.lean ====
/-
  Classes laid out parent by parent, sixteen children each: the reshapes between `[B, m, 16]` and `[B, m·16]`, read at an
  entry in the parent / sibling / child vocabulary of the specification.

  Merging the two class axes puts child `j` of parent `i` at position `16 i + j`; so the merged array at `(b, n)` is the
  operand at `(b, n / 16, n % 16)`, and the split array at `(b, i, j)` is the operand at `(b, 16 i + j)`.
-/
import proofs.«124225_j412316860848_2_alg».proof.Proof.Spec
import proofs.«124225_j412316860848_2_alg».proof.Proof.LibSplitLast

noncomputable section

namespace Cert.Lib

open Idealize.ShloMosaic Idealize.ShloMosaic.ValueIdx Cert.HSoftmax

variable {α : Type}

/-- An `[B, m, 16]` array reshaped to `[B, m·16]` reads, at `(b, n)`, the operand at `(b, parent n, sibling n)`. -/
theorem shapeCast_mergeChildren_apply {B : ℕ} (m : ℕ) (x : (⟨3, ![B, m, 16]⟩ : Shape).Idx → α)
    (h : (⟨3, ![B, m, 16]⟩ : Shape).ShapeCasts ⟨2, ![B, m * 16]⟩) (b : Fin B) (n : Fin (m * 16)) :
    shapeCast ⟨2, ![B, m * 16]⟩ x h (ix2 b n) = x (ix3 b (parent n) (sibling n)) :=
  shapeCast_abc_aN_apply rfl x h b (parent n) (sibling n) n (by
    show n.val = n.val / 16 * 16 + n.val % 16
    omega)

/-- An `[B, m·16]` array reshaped to `[B, m, 16]` reads, at `(b, i, j)`, the operand at `(b, child i j)`. -/
theorem shapeCast_splitChildren_apply {B : ℕ} (m : ℕ) (x : (⟨2, ![B, m * 16]⟩ : Shape).Idx → α)
    (h : (⟨2, ![B, m * 16]⟩ : Shape).ShapeCasts ⟨3, ![B, m, 16]⟩) (b : Fin B) (i : Fin m) (j : Fin 16) :
    shapeCast ⟨3, ![B, m, 16]⟩ x h (ix3 b i j) = x (ix2 b (child i j)) :=
  shapeCast_aN_abc_apply rfl x h b i j (child i j) rfl

end Cert.Lib

end
-- ==== Proof.RefRead.lean ====
/-
  The reference's results, entry by entry, are the specification's.

  The reference computes three level arrays from whole arrays (`ref0`, `ref1`, `ref2`) and lays them side by side
  (`refCat`). Each log-softmax chain of host operations is the stable log-softmax of the entries along the class axis;
  the scores it is applied to are the specification's scores; merging parent and child axes puts child `j` of parent `i`
  at position `16 i + j`, so position `n` reads parent `n / 16`, child `n % 16`. Hence
    * `ref0` at `(b, p)` is `lp0 b p`;
    * `ref1` of `ref0` at `(b, n)` is `lp1 b (n / 16) (n % 16)`;
    * `ref2` of that at `(b, n)` is `lp2 b (n / 16) (n % 16)`: the last level alone, `outLast`;
    * the three side by side at `(b, n)` are `allAt b n`: column `n` falls in the first 16, the next 256 or the last 4096
      columns, exactly as the specification's `outAll` distinguishes them.
-/
import proofs.«124225_j412316860848_2_alg».proof.Proof.RefLevels
import proofs.«124225_j412316860848_2_alg».proof.Proof.RefReadScores
import proofs.«124225_j412316860848_2_alg».proof.Proof.Spec
import proofs.«124225_j412316860848_2_alg».proof.Proof.LibHostKeptAxis
import proofs.«124225_j412316860848_2_alg».proof.Proof.LibHostLogSoftmax
import proofs.«124225_j412316860848_2_alg».proof.Proof.LibConcat3
import proofs.«124225_j412316860848_2_alg».proof.Proof.LibMergeChildren

noncomputable section

open scoped BigOperators

namespace Cert.ReferenceIdeal.RefRead

open Cert.ReferenceIdeal Cert.ReferenceIdeal.Gen Cert.ReferenceIdeal.RefRun Cert.HSoftmax Idealize.ShloMosaic Idealize.ShloMosaic.ValueIdx

/-! ## The three log-softmax chains -/

/-- The row log-softmax of a `[4096, 16]` array is the general rank-2 chain. -/
theorem lsm0_eq (s : (⟨S4096x16, .f32⟩ : BufTy).Contents (Elt Ideal)) :
    lsm0 (F := Ideal) s = Cert.Lib.hostLsmChain2 s reducesTo_S4096x16_S4096_d1 h_S_ bcast_S_S4096
      bcast_S4096_S4096x1_0 bcast_S4096x1_S4096x16_0_1 := rfl

/-- The last-axis log-softmax of a `[4096, 16, 16]` array is the general rank-3 chain. -/
theorem lsm1_eq (s : (⟨S4096x16x16, .f32⟩ : BufTy).Contents (Elt Ideal)) :
    lsm1 (F := Ideal) s = Cert.Lib.hostLsmChain3 s reducesTo_S4096x16x16_S4096x16_d2 h_S_ bcast_S_S4096x16
      bcast_S4096x16_S4096x16x1_0_1 bcast_S4096x16x1_S4096x16x16_0_1_2 := rfl

/-- The last-axis log-softmax of a `[4096, 256, 16]` array is the general rank-3 chain. -/
theorem lsm2_eq (s : (⟨S4096x256x16, .f32⟩ : BufTy).Contents (Elt Ideal)) :
    lsm2 (F := Ideal) s = Cert.Lib.hostLsmChain3 s reducesTo_S4096x256x16_S4096x256_d2 h_S_ bcast_S_S4096x256
      bcast_S4096x256_S4096x256x1_0_1 bcast_S4096x256x1_S4096x256x16_0_1_2 := rfl

/-- `lsm0 s` at `(b, q)`: the log-softmax of row `b`, at `q`. -/
theorem lsm0_apply (s : (⟨S4096x16, .f32⟩ : BufTy).Contents (Elt Ideal)) (b : Fin 4096) (q : Fin 16) :
    lsm0 (F := Ideal) s (ix2 b q) = lsm (fun q' : Fin 16 => s (ix2 b q')) q :=
  (congrFun (lsm0_eq s) _).trans (Cert.Lib.hostLsmChain2_apply s _ _ _ _ _ (by decide) b q)

/-- `lsm1 s` at `(b, p, q)`: the log-softmax of the entries `(b, p, ·)`, at `q`. -/
theorem lsm1_apply (s : (⟨S4096x16x16, .f32⟩ : BufTy).Contents (Elt Ideal)) (b : Fin 4096) (p q : Fin 16) :
    lsm1 (F := Ideal) s (ix3 b p q) = lsm (fun q' : Fin 16 => s (ix3 b p q')) q :=
  (congrFun (lsm1_eq s) _).trans (Cert.Lib.hostLsmChain3_apply s _ _ _ _ _ (by decide) b p q)

/-- `lsm2 s` at `(b, r, q)`: the log-softmax of the entries `(b, r, ·)`, at `q`. -/
theorem lsm2_apply (s : (⟨S4096x256x16, .f32⟩ : BufTy).Contents (Elt Ideal)) (b : Fin 4096) (r : Fin 256) (q : Fin 16) :
    lsm2 (F := Ideal) s (ix3 b r q) = lsm (fun q' : Fin 16 => s (ix3 b r q')) q :=
  (congrFun (lsm2_eq s) _).trans (Cert.Lib.hostLsmChain3_apply s _ _ _ _ _ (by decide) b r q)

/-! ## The three levels at an entry -/

section
variable (x0 : (⟨S4096x2048, .f32⟩ : BufTy).Contents (Elt Ideal)) (x1 : (⟨S16x2048, .f32⟩ : BufTy).Contents (Elt Ideal))
  (x2 : (⟨S16, .f32⟩ : BufTy).Contents (Elt Ideal)) (x3 : (⟨S16x16x2048, .f32⟩ : BufTy).Contents (Elt Ideal))
  (x4 : (⟨S16x16, .f32⟩ : BufTy).Contents (Elt Ideal)) (x5 : (⟨S256x16x2048, .f32⟩ : BufTy).Contents (Elt Ideal))
  (x6 : (⟨S256x16, .f32⟩ : BufTy).Contents (Elt Ideal))

/-- Level 0 at `(b, p)` is the specification's level-0 log-probability. -/
theorem ref0_apply (b : Fin 4096) (p : Fin 16) : ref0 (F := Ideal) x0 x1 x2 (ix2 b p) = lp0 x0 x1 x2 b p := by
  unfold ref0 lp0
  refine (lsm0_apply _ b p).trans ?_
  exact congrArg (fun f : Fin 16 → EReal => lsm f p) (funext fun q' => score0_apply x0 x1 x2 b q')

/-- Level 1 over any level-0 array `y5`, at row `b` and position `n`: the sibling log-softmax of the scores under parent
    `n / 16`, at `n % 16`, plus the parent's entry of `y5`. -/
theorem ref1_read (y5 : (⟨S4096x16, .f32⟩ : BufTy).Contents (Elt Ideal)) (b : Fin 4096) (n : Fin 256) :
    ref1 (F := Ideal) x0 x3 x4 y5 (ix2 b n)
      = lsm (fun q' : Fin 16 => score1 (F := Ideal) x0 x3 x4 (ix3 b (parent (m := 16) n) q')) (sibling (m := 16) n)
        + y5 (ix2 b (parent (m := 16) n)) := by
  unfold ref1
  refine (Cert.Lib.shapeCast_mergeChildren_apply 16 _ _ b n).trans ?_
  refine congrArg₂ (fun y z : EReal => y + z) (lsm1_apply _ b _ _) ?_
  refine (Cert.Lib.broadcastInDim_ab1_abc_apply _ _ b _ _).trans ?_
  exact Cert.Lib.broadcastInDim_ab_ab1_apply _ _ b _ (0 : Fin 1)

/-- Level 1 over the reference's level 0, at `(b, n)`, is the specification's level-1 log-probability of position `n`. -/
theorem ref1_apply (b : Fin 4096) (n : Fin 256) :
    ref1 (F := Ideal) x0 x3 x4 (ref0 (F := Ideal) x0 x1 x2) (ix2 b n)
      = lp1 x0 x1 x2 x3 x4 b (parent (m := 16) n) (sibling (m := 16) n) := by
  refine (ref1_read x0 x3 x4 _ b n).trans ?_
  unfold lp1
  refine congrArg₂ (fun y z : EReal => y + z) ?_ (ref0_apply x0 x1 x2 b _)
  exact congrArg (fun f : Fin 16 → EReal => lsm f (sibling (m := 16) n))
    (funext fun q' => score1_apply x0 x3 x4 b (parent (m := 16) n) q')

/-- Level 2 over any level-1 array `y14`, at row `b` and position `n`: the sibling log-softmax of the scores under class
    `n / 16`, at `n % 16`, plus that class's entry of `y14`. -/
theorem ref2_read (y14 : (⟨S4096x256, .f32⟩ : BufTy).Contents (Elt Ideal)) (b : Fin 4096) (n : Fin 4096) :
    ref2 (F := Ideal) x0 x5 x6 y14 (ix2 b n)
      = lsm (fun q' : Fin 16 => score2 (F := Ideal) x0 x5 x6 (ix3 b (parent (m := 256) n) q')) (sibling (m := 256) n)
        + y14 (ix2 b (parent (m := 256) n)) := by
  unfold ref2
  refine (Cert.Lib.shapeCast_mergeChildren_apply 256 _ _ b n).trans ?_
  refine congrArg₂ (fun y z : EReal => y + z) (lsm2_apply _ b _ _) ?_
  refine (Cert.Lib.broadcastInDim_ab1_abc_apply _ _ b _ _).trans ?_
  exact Cert.Lib.broadcastInDim_ab_ab1_apply _ _ b _ (0 : Fin 1)

/-- Level 2 over the reference's level 1, at `(b, n)`, is the specification's level-2 log-probability of position `n`. -/
theorem ref2_apply (b : Fin 4096) (n : Fin 4096) :
    ref2 (F := Ideal) x0 x5 x6 (ref1 (F := Ideal) x0 x3 x4 (ref0 (F := Ideal) x0 x1 x2)) (ix2 b n)
      = lp2 x0 x1 x2 x3 x4 x5 x6 b (parent (m := 256) n) (sibling (m := 256) n) := by
  refine (ref2_read x0 x5 x6 _ b n).trans ?_
  unfold lp2
  refine congrArg₂ (fun y z : EReal => y + z) ?_ (ref1_apply x0 x1 x2 x3 x4 b _)
  exact congrArg (fun f : Fin 16 → EReal => lsm f (sibling (m := 256) n))
    (funext fun q' => score2_apply x0 x5 x6 b (parent (m := 256) n) q')

/-- The three arrays side by side, at row `b` and column `n`, by the range the column falls in. -/
theorem refCat_apply (y5 : (⟨S4096x16, .f32⟩ : BufTy).Contents (Elt Ideal)) (y14 : (⟨S4096x256, .f32⟩ : BufTy).Contents (Elt Ideal))
    (y23 : (⟨S4096x4096, .f32⟩ : BufTy).Contents (Elt Ideal)) (b : Fin 4096) (n : Fin 4368) :
    refCat (F := Ideal) y5 y14 y23 (ix2 b n)
      = if h0 : n.val < 16 then y5 (ix2 b ⟨n.val, h0⟩)
        else if h1 : n.val - 16 < 256 then y14 (ix2 b ⟨n.val - 16, h1⟩)
        else if h2 : n.val - 272 < 4096 then y23 (ix2 b ⟨n.val - 272, h2⟩)
        else 0 :=
  Cert.Lib.concat3_apply y5 y14 y23 _ rfl 272 rfl 0 b n

/-! ## The two results -/

/-- THE LAST LEVEL ALONE: the reference's `[4096, 4096]` result is the specification's `outLast`. -/
theorem ref_outLast :
    RefRun.ref2 (F := Ideal) x0 x5 x6 (RefRun.ref1 (F := Ideal) x0 x3 x4 (RefRun.ref0 (F := Ideal) x0 x1 x2))
      = Cert.HSoftmax.outLast x0 x1 x2 x3 x4 x5 x6 := by
  funext i
  obtain ⟨b, n, rfl⟩ : ∃ (b : Fin 4096) (n : Fin 4096), i = ix2 b n := ⟨i 0, i 1, eq_ix2 i⟩
  exact ref2_apply x0 x1 x2 x3 x4 x5 x6 b n

/-- THE THREE LEVELS SIDE BY SIDE: the reference's `[4096, 4368]` result is the specification's `outAll`. -/
theorem ref_outAll :
    RefRun.refCat (F := Ideal) (RefRun.ref0 (F := Ideal) x0 x1 x2) (RefRun.ref1 (F := Ideal) x0 x3 x4 (RefRun.ref0 (F := Ideal) x0 x1 x2))
        (RefRun.ref2 (F := Ideal) x0 x5 x6 (RefRun.ref1 (F := Ideal) x0 x3 x4 (RefRun.ref0 (F := Ideal) x0 x1 x2)))
      = Cert.HSoftmax.outAll x0 x1 x2 x3 x4 x5 x6 := by
  funext i
  obtain ⟨b, n, rfl⟩ : ∃ (b : Fin 4096) (n : Fin 4368), i = ix2 b n := ⟨i 0, i 1, eq_ix2 i⟩
  refine (refCat_apply _ _ _ b n).trans ?_
  show _ = allAt x0 x1 x2 x3 x4 x5 x6 b n.val
  unfold allAt
  by_cases h0 : n.val < 16
  · rw [dif_pos h0, dif_pos h0]
    exact ref0_apply x0 x1 x2 b ⟨n.val, h0⟩
  · rw [dif_neg h0, dif_neg h0]
    by_cases h1 : n.val - 16 < 256
    · rw [dif_pos h1, dif_pos h1]
      exact ref1_apply x0 x1 x2 x3 x4 b ⟨n.val - 16, h1⟩
    · rw [dif_neg h1, dif_neg h1]
      by_cases h2 : n.val - 272 < 4096
      · rw [dif_pos h2, dif_pos h2]
        exact ref2_apply x0 x1 x2 x3 x4 x5 x6 b ⟨n.val - 272, h2⟩
      · rw [dif_neg h2, dif_neg h2]

end

end Cert.ReferenceIdeal.RefRead

end
-- ==== Proof.lean ====
/-
  The certificate of a three-level hierarchical log-softmax kernel against its plain reference, over the extended reals.

  Both programs compute, for each of 4096 batch rows, the log-probabilities of 16 top-level classes, of their 256
  children and of their 4096 grandchildren: at each level the scores `x · W + b`, the log-softmax among the sixteen
  siblings, plus the parent's log-probability. The kernel does this 128 rows at a time, each level as one matrix product
  against the weights flattened to one row per class, and regroups the flat scores into groups of sixteen; the reference
  contracts the per-parent weights directly. Entry by entry both are the specification's `outAll` (the three levels side by
  side) and `outLast` (the last level): the same sums of the same products and the same log-softmax of the same families,
  so no property of the inputs is used.

  * the kernel's run and its two result arrays: `Cert.KernelIdeal.KValue.run`;
  * the reference's run and its two result arrays: `ref_run` below, from the reference's operations read stretch by stretch;
  * the three frames: the two kernels' generated frames, and the reference's run with the results dropped;
  * nothing was rewritten between the kernel and its idealization, so that conjunct is trivial.
-/
import proofs.«124225_j412316860848_2_alg».proof.Defs
import proofs.«124225_j412316860848_2_alg».proof.Proof.Gen.Kernel
import proofs.«124225_j412316860848_2_alg».proof.Proof.Gen.Kernel.Skeleton
import proofs.«124225_j412316860848_2_alg».proof.Proof.Gen.Kernel.Launch
import proofs.«124225_j412316860848_2_alg».proof.Proof.Gen.Kernel.Points
import proofs.«124225_j412316860848_2_alg».proof.Proof.Gen.Kernel.Frame
import proofs.«124225_j412316860848_2_alg».proof.Proof.Gen.KernelIdeal
import proofs.«124225_j412316860848_2_alg».proof.Proof.Gen.KernelIdeal.Skeleton
import proofs.«124225_j412316860848_2_alg».proof.Proof.Gen.KernelIdeal.Launch
import proofs.«124225_j412316860848_2_alg».proof.Proof.Gen.KernelIdeal.Points
import proofs.«124225_j412316860848_2_alg».proof.Proof.Gen.KernelIdeal.Frame
import proofs.«124225_j412316860848_2_alg».proof.Proof.Gen.KernelIdeal.Value
import proofs.«124225_j412316860848_2_alg».proof.Proof.Gen.ReferenceIdeal
import proofs.«124225_j412316860848_2_alg».proof.Proof.Gen.Pre_finite_inputs
import proofs.«124225_j412316860848_2_alg».proof.Proof.KernelArray
import proofs.«124225_j412316860848_2_alg».proof.Proof.RefStages
import proofs.«124225_j412316860848_2_alg».proof.Proof.RefRead
import Idealize.ShloMosaic.Adequacy
import Idealize.ShloMosaic.Init

noncomputable section

namespace Cert.Proof

open Idealize.ShloMosaic Idealize.SL.Sem Idealize.ShloMosaic.TcCoe Idealize.ShloMosaic.StableHlo Cert.HSoftmax

/-- Every weakly fair execution of the reference terminates with its two results at the specification's arrays of the
    launch contents and its arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v24)
          = outAll (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v23)
          = outLast (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  (θ_run Cert.ReferenceIdeal.defs _ _).mono (fun r h c =>
    ⟨(h c Cert.ReferenceIdeal.main_v24).trans ((Cert.ReferenceIdeal.RefRun.after_v24 _).trans (Cert.ReferenceIdeal.RefRead.ref_outAll _ _ _ _ _ _ _)),
      (h c Cert.ReferenceIdeal.main_v23).trans ((Cert.ReferenceIdeal.RefRun.after_v23 _).trans (Cert.ReferenceIdeal.RefRead.ref_outLast _ _ _ _ _ _ _)),
      (h c Cert.ReferenceIdeal.main_arg0).trans (Cert.ReferenceIdeal.RefRun.after_arg0 _),
      (h c Cert.ReferenceIdeal.main_arg1).trans (Cert.ReferenceIdeal.RefRun.after_arg1 _),
      (h c Cert.ReferenceIdeal.main_arg2).trans (Cert.ReferenceIdeal.RefRun.after_arg2 _),
      (h c Cert.ReferenceIdeal.main_arg3).trans (Cert.ReferenceIdeal.RefRun.after_arg3 _),
      (h c Cert.ReferenceIdeal.main_arg4).trans (Cert.ReferenceIdeal.RefRun.after_arg4 _),
      (h c Cert.ReferenceIdeal.main_arg5).trans (Cert.ReferenceIdeal.RefRun.after_arg5 _),
      (h c Cert.ReferenceIdeal.main_arg6).trans (Cert.ReferenceIdeal.RefRun.after_arg6 _)⟩)
    (Cert.ReferenceIdeal.RefRun.run (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (ref_run m ρ)

/-- From memories that agree on the seven arguments, both programs end with the specification's two arrays of those
    arguments. -/
theorem algebraic : Cert.algebraic_KernelIdeal_ReferenceIdeal := by
  intro m ρ m' ρ' _ hagree
  refine ⟨fun c => Cert.KernelIdeal.KValue.GAll m c, fun c => Cert.KernelIdeal.KValue.GLast m c, Cert.KernelIdeal.KValue.run m ρ, ?_⟩
  refine (θ_run Cert.ReferenceIdeal.defs _ _).mono (fun r h c => ?_) (ref_run m' ρ')
  obtain ⟨h24, h23, hargs⟩ := h c
  refine ⟨?_, ?_, hargs⟩
  · rw [h24, (hagree c).1, (hagree c).2.1, (hagree c).2.2.1, (hagree c).2.2.2.1, (hagree c).2.2.2.2.1, (hagree c).2.2.2.2.2.1, (hagree c).2.2.2.2.2.2]
  · rw [h23, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
